-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x8 : Shape := ⟨2, ![50000, 8]⟩
abbrev S600000 : Shape := ⟨1, ![600000]⟩
abbrev S8x128 : Shape := ⟨2, ![8, 128]⟩
abbrev S128 : Shape := ⟨1, ![128]⟩
abbrev S128x128 : Shape := ⟨2, ![128, 128]⟩
abbrev S_ : Shape := ⟨0, ![]⟩

class Facts : Prop where
  bcast_S_S50000x8 : S_.BroadcastsInDim S50000x8 (![] : Fin 0 → Fin S50000x8.rank)
  reducesTo_S50000x8_S_d0_1 : S50000x8.ReducesTo [0, 1] S_
  h_S_ : 0 < S_.numel
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128x128 .f32) (main_arg10 : FVec F S128x128 .f32) (main_arg11 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x8 .f32) (main_arg1 : IVec S600000 32) (main_arg2 : IVec S600000 32) (main_arg3 : FVec F S8x128 .f32) (main_arg4 : FVec F S8x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) : IVec S_ 1 :=
  let main_v0 : FVec F S50000x8 .f32 := Host.absf main_arg0
  let main_cst : FVec F S_ .f32 := constant S_ .f32 0x7F800000#32
  let main_v1 : FVec F S50000x8 .f32 := broadcastInDim S50000x8 ![] bcast_S_S50000x8 main_cst
  let main_v2 : IVec S50000x8 1 := cmpf .olt main_v0 main_v1
  let main_c : IVec S_ 1 := constantI S_ 1 1#1
  let main_v3 : IVec S_ 1 := (fun x v => Host.reduce IntOp.andi x v reducesTo_S50000x8_S_d0_1 h_S_) main_v2 main_c
  let main_v4 : FVec F S8x128 .f32 := Host.absf main_arg3
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v3 main_v7
  let main_v9 : FVec F S8x128 .f32 := Host.absf main_arg4
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x8 : Shape := ⟨2, ![50000, 8]⟩
abbrev S600000 : Shape := ⟨1, ![600000]⟩
abbrev S8x128 : Shape := ⟨2, ![8, 128]⟩
abbrev S128 : Shape := ⟨1, ![128]⟩
abbrev S128x128 : Shape := ⟨2, ![128, 128]⟩
abbrev S_ : Shape := ⟨0, ![]⟩
abbrev S50000 : Shape := ⟨1, ![50000]⟩
abbrev S600000x1 : Shape := ⟨2, ![600000, 1]⟩
abbrev S600000x8 : Shape := ⟨2, ![600000, 8]⟩
abbrev S50000x1 : Shape := ⟨2, ![50000, 1]⟩
abbrev S1x128 : Shape := ⟨2, ![1, 128]⟩
abbrev S50000x128 : Shape := ⟨2, ![50000, 128]⟩
abbrev S2000x8 : Shape := ⟨2, ![2000, 8]⟩
abbrev S2000x128 : Shape := ⟨2, ![2000, 128]⟩
abbrev S600000x128 : Shape := ⟨2, ![600000, 128]⟩

abbrev nBuf : Space → Nat
  | .hbm => 85
  | .vmem => 27
  | .smem => 0
  | _ => 0

abbrev bufTy : (tb : Table) → Fin (tcTables nBuf tb) → BufTy
  | .hbm, ⟨0, _⟩ => ⟨S50000x8, .f32⟩
  | .hbm, ⟨1, _⟩ => ⟨S600000, .i32⟩
  | .hbm, ⟨2, _⟩ => ⟨S600000, .i32⟩
  | .hbm, ⟨3, _⟩ => ⟨S8x128, .f32⟩
  | .hbm, ⟨4, _⟩ => ⟨S8x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x8, .f32⟩
  | .hbm, ⟨40, _⟩ => ⟨S_, .f32⟩
  | .hbm, ⟨41, _⟩ => ⟨S50000x8, .f32⟩
  | .hbm, ⟨42, _⟩ => ⟨S600000x1, .i32⟩
  | .hbm, ⟨43, _⟩ => ⟨S50000x8, .f32⟩
  | .hbm, ⟨44, _⟩ => ⟨S50000x1, .f32⟩
  | .hbm, ⟨45, _⟩ => ⟨S50000x8, .f32⟩
  | .hbm, ⟨46, _⟩ => ⟨S50000x8, .f32⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S_, .f32⟩
  | .hbm, ⟨77, _⟩ => ⟨S50000x128, .f32⟩
  | .hbm, ⟨78, _⟩ => ⟨S600000x1, .i32⟩
  | .hbm, ⟨79, _⟩ => ⟨S50000x128, .f32⟩
  | .hbm, ⟨80, _⟩ => ⟨S50000x1, .f32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S50000x128, .f32⟩
  | .local _ .vmem, ⟨0, _⟩ => ⟨S2000x8, .f32⟩
  | .local _ .vmem, ⟨1, _⟩ => ⟨S2000x8, .f32⟩
  | .local _ .vmem, ⟨2, _⟩ => ⟨S2000x8, .f32⟩
  | .local _ .vmem, ⟨3, _⟩ => ⟨S2000x8, .f32⟩
  | .local _ .vmem, ⟨4, _⟩ => ⟨S8x128, .f32⟩
  | .local _ .vmem, ⟨5, _⟩ => ⟨S8x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S50000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x8 : S_.BroadcastsInDim S50000x8 (![] : Fin 0 → Fin S50000x8.rank)
  bcast_S50000_S50000x1_0 : S50000.BroadcastsInDim S50000x1 (![0] : Fin 1 → Fin S50000x1.rank)
  bcast_S50000x1_S50000x8_0_1 : S50000x1.BroadcastsInDim S50000x8 (![0, 1] : Fin 2 → Fin S50000x8.rank)
  shapeCasts_S128_S1x128 : S128.ShapeCasts S1x128
  inb_S2000x8_S2000x8_0_0 : ∀ a, (![0, 0] : Fin 2 → Nat) a + S2000x8.size a ≤ S2000x8.size a
  h_S2000x8 : 0 < S2000x8.numel
  shapeCasts_S2000x8_S2000x8 : S2000x8.ShapeCasts S2000x8
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  scatter_S50000_S600000x1_S600000_n_0_0_1_wf : ScatterDims.WF S50000 S600000x1 S600000 [] [0] [0] 1
  gather_S50000x8_S600000x1_S600000x8_1_0_n_n_0_1_18_wf : GatherDims.WF S50000x8 S600000x1 S600000x8 [1] [0] [] [0] [] 1 ![1, 8]
  scatter_S50000x8_S600000x1_S600000x8_1_0_0_1_wf : ScatterDims.WF S50000x8 S600000x1 S600000x8 [1] [0] [0] 1
  dot_S2000x8_S8x128_S2000x128_1_0_0_1_n_n_wf : DotDims.WF S2000x8 S8x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S50000x8.size a
  hwx0_0 : ∀ i : grid0.Coords, EltTy.bits .f32 = 32 ∨ (Rect.block (s := S50000x8) S2000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x8.size a ≤ S50000x8.size a
  hwx0_1 : ∀ i : grid0.Coords, EltTy.bits .f32 = 32 ∨ (Rect.block (s := S50000x8) S2000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x8_S600000x1_S600000x8_1_0_n_n_0_1_18 : GatherDims S50000x8 S600000x1 S600000x8 where
  offsetDims := [1]
  collapsedSliceDims := [0]
  operandBatchingDims := []
  startIndicesBatchingDims := []
  startIndexMap := [0]
  indexVectorDim := 1
  sliceSizes := ![1, 8]
  wf := gather_S50000x8_S600000x1_S600000x8_1_0_n_n_0_1_18_wf
def scatter_S50000x8_S600000x1_S600000x8_1_0_0_1 : ScatterDims S50000x8 S600000x1 S600000x8 where
  updateWindowDims := [1]
  insertedWindowDims := [0]
  scatterDimsToOperandDims := [0]
  indexVectorDim := 1
  wf := scatter_S50000x8_S600000x1_S600000x8_1_0_0_1_wf
def dot_S2000x8_S8x128_S2000x128_1_0_0_1_n_n : DotDims S2000x8 S8x128 S2000x128 where
  lhsContracting := [1]
  rhsContracting := [0]
  lhsNonContracting := [0]
  rhsNonContracting := [1]
  lhsBatch := []
  rhsBatch := []
  wf := dot_S2000x8_S8x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v23) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x8 : Shape := ⟨2, ![50000, 8]⟩
abbrev S600000 : Shape := ⟨1, ![600000]⟩
abbrev S8x128 : Shape := ⟨2, ![8, 128]⟩
abbrev S128 : Shape := ⟨1, ![128]⟩
abbrev S128x128 : Shape := ⟨2, ![128, 128]⟩
abbrev S_ : Shape := ⟨0, ![]⟩
abbrev S50000 : Shape := ⟨1, ![50000]⟩
abbrev S600000x1 : Shape := ⟨2, ![600000, 1]⟩
abbrev S600000x8 : Shape := ⟨2, ![600000, 8]⟩
abbrev S50000x1 : Shape := ⟨2, ![50000, 1]⟩
abbrev S50000x128 : Shape := ⟨2, ![50000, 128]⟩
abbrev S1x128 : Shape := ⟨2, ![1, 128]⟩
abbrev S600000x128 : Shape := ⟨2, ![600000, 128]⟩

abbrev nBuf : Space → Nat
  | .hbm => 105
  | .vmem => 0
  | .smem => 0
  | _ => 0

abbrev bufTy : (tb : Table) → Fin (tcTables nBuf tb) → BufTy
  | .hbm, ⟨0, _⟩ => ⟨S50000x8, .f32⟩
  | .hbm, ⟨1, _⟩ => ⟨S600000, .i32⟩
  | .hbm, ⟨2, _⟩ => ⟨S600000, .i32⟩
  | .hbm, ⟨3, _⟩ => ⟨S8x128, .f32⟩
  | .hbm, ⟨4, _⟩ => ⟨S8x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x8, .f32⟩
  | .hbm, ⟨40, _⟩ => ⟨S_, .f32⟩
  | .hbm, ⟨41, _⟩ => ⟨S50000x8, .f32⟩
  | .hbm, ⟨42, _⟩ => ⟨S600000x1, .i32⟩
  | .hbm, ⟨43, _⟩ => ⟨S50000x8, .f32⟩
  | .hbm, ⟨44, _⟩ => ⟨S50000x1, .f32⟩
  | .hbm, ⟨45, _⟩ => ⟨S50000x8, .f32⟩
  | .hbm, ⟨46, _⟩ => ⟨S50000x8, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S600000x128, .f32⟩
  | .hbm, ⟨65, _⟩ => ⟨S_, .f32⟩
  | .hbm, ⟨66, _⟩ => ⟨S50000x128, .f32⟩
  | .hbm, ⟨67, _⟩ => ⟨S600000x1, .i32⟩
  | .hbm, ⟨68, _⟩ => ⟨S50000x128, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S600000, .i32⟩
  | .hbm, ⟨84, _⟩ => ⟨S600000, .i1⟩
  | .hbm, ⟨85, _⟩ => ⟨S_, .i32⟩
  | .hbm, ⟨86, _⟩ => ⟨S600000, .i32⟩
  | .hbm, ⟨87, _⟩ => ⟨S600000, .i32⟩
  | .hbm, ⟨88, _⟩ => ⟨S600000, .i32⟩
  | .hbm, ⟨89, _⟩ => ⟨S600000x1, .i32⟩
  | .hbm, ⟨90, _⟩ => ⟨S600000x128, .f32⟩
  | .hbm, ⟨91, _⟩ => ⟨S_, .f32⟩
  | .hbm, ⟨92, _⟩ => ⟨S50000x128, .f32⟩
  | .hbm, ⟨93, _⟩ => ⟨S600000x1, .i32⟩
  | .hbm, ⟨94, _⟩ => ⟨S50000x128, .f32⟩
  | .hbm, ⟨95, _⟩ => ⟨S50000x1, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S50000x128, .f32⟩
  | .hbm, ⟨103, _⟩ => ⟨S50000x128, .f32⟩
  | .hbm, ⟨104, _⟩ => ⟨S50000x128, .f32⟩
  | _, _ => ⟨S50000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_cst : Ref sig .tc := ⟨.hbm, 53, rfl⟩
abbrev main_call1_v0 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call2_cst : Ref sig .tc := ⟨.hbm, 79, rfl⟩
abbrev main_call2_v0 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_c_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x8 : S_.BroadcastsInDim S50000x8 (![] : Fin 0 → Fin S50000x8.rank)
  bcast_S50000_S50000x1_0 : S50000.BroadcastsInDim S50000x1 (![0] : Fin 1 → Fin S50000x1.rank)
  bcast_S50000x1_S50000x8_0_1 : S50000x1.BroadcastsInDim S50000x8 (![0, 1] : Fin 2 → Fin S50000x8.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  scatter_S50000_S600000x1_S600000_n_0_0_1_wf : ScatterDims.WF S50000 S600000x1 S600000 [] [0] [0] 1
  gather_S50000x8_S600000x1_S600000x8_1_0_n_n_0_1_18_wf : GatherDims.WF S50000x8 S600000x1 S600000x8 [1] [0] [] [0] [] 1 ![1, 8]
  scatter_S50000x8_S600000x1_S600000x8_1_0_0_1_wf : ScatterDims.WF S50000x8 S600000x1 S600000x8 [1] [0] [0] 1
  dot_S50000x8_S8x128_S50000x128_1_0_0_1_n_n_wf : DotDims.WF S50000x8 S8x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x8_S600000x1_S600000x8_1_0_n_n_0_1_18 : GatherDims S50000x8 S600000x1 S600000x8 where
  offsetDims := [1]
  collapsedSliceDims := [0]
  operandBatchingDims := []
  startIndicesBatchingDims := []
  startIndexMap := [0]
  indexVectorDim := 1
  sliceSizes := ![1, 8]
  wf := gather_S50000x8_S600000x1_S600000x8_1_0_n_n_0_1_18_wf
def scatter_S50000x8_S600000x1_S600000x8_1_0_0_1 : ScatterDims S50000x8 S600000x1 S600000x8 where
  updateWindowDims := [1]
  insertedWindowDims := [0]
  scatterDimsToOperandDims := [0]
  indexVectorDim := 1
  wf := scatter_S50000x8_S600000x1_S600000x8_1_0_0_1_wf
def dot_S50000x8_S8x128_S50000x128_1_0_0_1_n_n : DotDims S50000x8 S8x128 S50000x128 where
  lhsContracting := [1]
  rhsContracting := [0]
  lhsNonContracting := [0]
  rhsNonContracting := [1]
  lhsBatch := []
  rhsBatch := []
  wf := dot_S50000x8_S8x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named.

  The program is three kernel launches among stretches of host operations. Its generated frame follows
  the contents of every buffer from the launch memory through each stretch and each launch, and ends with
  every buffer at the last boundary's contents; it then reads the twelve argument arrays back. Here the
  same run is read at one more buffer, the result of the third launch: every weakly fair execution
  terminates, nothing faulting, with the result array at the last boundary's contents and the arguments
  unchanged. What those contents are, as a function of the arguments, is the business of the modules
  that follow.
-/
import proofs.«152251_j65377992180266_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result array holding the last boundary's contents at
    its buffer, and every argument array as launched. -/
theorem run : θ_run defs (onTc (τ := τ) (main (F := F))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v55 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.Whole

end
-- ==== Proof.Spec.lean ====
/-
  The mathematics both programs compute, as functions of whole arrays on the extended reals.

  A graph layer takes the mean-aggregated neighbour features `a` and the node features `x`, both
  [50000, d], two weight matrices [d, 128] and a bias of 128 entries, and gives at node `r`, channel `c`

      lin a x wl wr b (r, c) = (Σ_k a(r,k)·wl(k,c) + Σ_k x(r,k)·wr(k,c)) + b(c).

  The first layer clamps this at zero from below; the second adds the node's own features before the
  clamp; the third adds them and does not clamp. The two programs differ only in the order in which
  the three summands (four with the node's own features) are added, and addition on the extended reals is
  commutative and associative whatever is infinite, so no finiteness of the inputs is needed.
-/
import Idealize.ShloMosaic.PureOps.Ideal
import Idealize.ShloMosaic.Lib.ValueIdx

noncomputable section

namespace Cert.Sage

open Idealize.ShloMosaic Idealize.ShloMosaic.ValueIdx

/-- An [r, c] array of extended reals. -/
abbrev Mat (r c : Nat) : Type := FVec Ideal (⟨2, ![r, c]⟩ : Shape) .f32

/-- A length-n array of extended reals. -/
abbrev Row (n : Nat) : Type := FVec Ideal (⟨1, ![n]⟩ : Shape) .f32

/-- The two matrix products and the bias of one layer, at node `i 0` and channel `i 1`. -/
def lin {d : Nat} (a x : Mat 50000 d) (wl wr : Mat d 128) (b : Row 128) : Mat 50000 128 :=
  fun i => ((∑ k : Fin d, a (ix2 (i 0) k) * wl (ix2 k (i 1))) + ∑ k : Fin d, x (ix2 (i 0) k) * wr (ix2 k (i 1)))
    + b (ix1 (i 1))

/-- The first layer: the combination clamped at zero from below. -/
def layerClamp {d : Nat} (a x : Mat 50000 d) (wl wr : Mat d 128) (b : Row 128) : Mat 50000 128 :=
  fun i => max (lin a x wl wr b i) 0

/-- The second layer: the node's own features added, then the clamp. -/
def layerSkipClamp (a x : Mat 50000 128) (wl wr : Mat 128 128) (b : Row 128) : Mat 50000 128 :=
  fun i => max (lin a x wl wr b i + x i) 0

/-- The third layer: the node's own features added, no clamp. -/
def layerSkip (a x : Mat 50000 128) (wl wr : Mat 128 128) (b : Row 128) : Mat 50000 128 :=
  fun i => lin a x wl wr b i + x i

/-- Adding the bias before the second product or after it is the same sum: the one law that joins the
    two programs, true on the extended reals with no finiteness. -/
theorem add_bias_comm (p q β : EReal) : (p + β) + q = (p + q) + β := add_right_comm p β q

end Cert.Sage

end
-- ==== Proof.Stages.lean ====
/-
  The network both programs compute, written once over whole arrays.

  The host operations between the layers are the same in both programs and are never opened here: the
  in-degree of every node (a one added at the destination of each edge), its reciprocal where positive
  and zero elsewhere, the source indices with negative values wrapped by the number of nodes, and the mean
  aggregation of a feature array — its rows gathered at the sources, added into the rows of the
  destinations, and every row scaled by the node's reciprocal degree. Over these, a hidden array is one
  layer function of the aggregation of the previous hidden array and of that array itself.
-/
import proofs.«152251_j65377992180266_1_alg».proof.Proof.Gen.KernelIdeal
import proofs.«152251_j65377992180266_1_alg».proof.Proof.Spec

noncomputable section

namespace Cert.KernelIdeal.Whole

open Cert.KernelIdeal Idealize.ShloMosaic
open Cert.KernelIdeal.Facts₀ Cert.KernelIdeal.Facts

/-- The edge arrays: one 32-bit integer per edge. -/
abbrev Edges : Type := (⟨S600000, .i32⟩ : BufTy).Contents (Elt Ideal)
/-- One extended real per node. -/
abbrev PerNode : Type := (⟨S50000, .f32⟩ : BufTy).Contents (Elt Ideal)
/-- The input features. -/
abbrev Feat8 : Type := (⟨S50000x8, .f32⟩ : BufTy).Contents (Elt Ideal)
/-- A hidden array. -/
abbrev Feat128 : Type := (⟨S50000x128, .f32⟩ : BufTy).Contents (Elt Ideal)

/-- An edge array as a column of one-entry index vectors. -/
def asIndexColumn (e : Edges) : (⟨S600000x1, .i32⟩ : BufTy).Contents (Elt Ideal) :=
  broadcastInDim S600000x1 ![0] bcast_S600000_S600000x1_0 e

/-- The number of edges arriving at each node: a one added at the destination of every edge. -/
def inDegree (dst : Edges) : PerNode :=
  Host.scatterAdd scatter_S50000_S600000x1_S600000_n_0_0_1
    (broadcastInDim S50000 ![] bcast_S_S50000 (constant (F := Ideal) S_ .f32 0x00000000#32))
    (asIndexColumn dst)
    (broadcastInDim S600000 ![] bcast_S_S600000 (constant (F := Ideal) S_ .f32 0x3F800000#32))

/-- The reciprocal of the in-degree where it is positive, zero elsewhere. -/
def invDegree (dst : Edges) : PerNode :=
  select
    (cmpf .ogt (inDegree dst) (broadcastInDim S50000 ![] bcast_S_S50000 (constant (F := Ideal) S_ .f32 0x00000000#32)))
    (Host.divf (broadcastInDim S50000 ![] bcast_S_S50000 (constant (F := Ideal) S_ .f32 0x3F800000#32))
      (maximumf (inDegree dst) (broadcastInDim S50000 ![] bcast_S_S50000 (constant (F := Ideal) S_ .f32 0x3F800000#32))))
    (broadcastInDim S50000 ![] bcast_S_S50000 (constant (F := Ideal) S_ .f32 0x00000000#32))

/-- The source indices, a negative one counted from the end. -/
def wrapIdx (src : Edges) : Edges :=
  select (cmpi .slt src (broadcastInDim S600000 ![] bcast_S_S600000 (constantI S_ 32 0#32)))
    (addi src (broadcastInDim S600000 ![] bcast_S_S600000 (constantI S_ 32 50000#32))) src

/-- Mean aggregation of 8-wide features with the per-node scale `inv`. -/
def aggWith8 (h : Feat8) (src dst : Edges) (inv : PerNode) : Feat8 :=
  mulf
    (Host.scatterAdd scatter_S50000x8_S600000x1_S600000x8_1_0_0_1
      (broadcastInDim S50000x8 ![] bcast_S_S50000x8 (constant (F := Ideal) S_ .f32 0x00000000#32))
      (asIndexColumn dst)
      (Host.gather gather_S50000x8_S600000x1_S600000x8_1_0_n_n_0_1_18 h (asIndexColumn (wrapIdx src))))
    (broadcastInDim S50000x8 ![0, 1] bcast_S50000x1_S50000x8_0_1 (broadcastInDim S50000x1 ![0] bcast_S50000_S50000x1_0 inv))

/-- Mean aggregation of 128-wide features with the per-node scale `inv`. -/
def aggWith128 (h : Feat128) (src dst : Edges) (inv : PerNode) : Feat128 :=
  mulf
    (Host.scatterAdd scatter_S50000x128_S600000x1_S600000x128_1_0_0_1
      (broadcastInDim S50000x128 ![] bcast_S_S50000x128 (constant (F := Ideal) S_ .f32 0x00000000#32))
      (asIndexColumn dst)
      (Host.gather gather_S50000x128_S600000x1_S600000x128_1_0_n_n_0_1_1128 h (asIndexColumn (wrapIdx src))))
    (broadcastInDim S50000x128 ![0, 1] bcast_S50000x1_S50000x128_0_1 (broadcastInDim S50000x1 ![0] bcast_S50000_S50000x1_0 inv))

/-- The first hidden array. -/
def hidden1 (x : Feat8) (src dst : Edges) (w1l w1r : (⟨S8x128, .f32⟩ : BufTy).Contents (Elt Ideal))
    (b1 : (⟨S128, .f32⟩ : BufTy).Contents (Elt Ideal)) : Feat128 :=
  Cert.Sage.layerClamp (aggWith8 x src dst (invDegree dst)) x w1l w1r b1

/-- The second hidden array. -/
def hidden2 (h1 : Feat128) (src dst : Edges) (w2l w2r : (⟨S128x128, .f32⟩ : BufTy).Contents (Elt Ideal))
    (b2 : (⟨S128, .f32⟩ : BufTy).Contents (Elt Ideal)) : Feat128 :=
  Cert.Sage.layerSkipClamp (aggWith128 h1 src dst (invDegree dst)) h1 w2l w2r b2

/-- The output from the second hidden array. -/
def output (h2 : Feat128) (src dst : Edges) (w3l w3r : (⟨S128x128, .f32⟩ : BufTy).Contents (Elt Ideal))
    (b3 : (⟨S128, .f32⟩ : BufTy).Contents (Elt Ideal)) : Feat128 :=
  Cert.Sage.layerSkip (aggWith128 h2 src dst (invDegree dst)) h2 w3l w3r b3

/-- The whole network, from the twelve arguments. -/
def net (x : Feat8) (src dst : Edges) (w1l w1r : (⟨S8x128, .f32⟩ : BufTy).Contents (Elt Ideal))
    (b1 : (⟨S128, .f32⟩ : BufTy).Contents (Elt Ideal)) (w2l w2r : (⟨S128x128, .f32⟩ : BufTy).Contents (Elt Ideal))
    (b2 : (⟨S128, .f32⟩ : BufTy).Contents (Elt Ideal)) (w3l w3r : (⟨S128x128, .f32⟩ : BufTy).Contents (Elt Ideal))
    (b3 : (⟨S128, .f32⟩ : BufTy).Contents (Elt Ideal)) : Feat128 :=
  output (hidden2 (hidden1 x src dst w1l w1r b1) src dst w2l w2r b2) src dst w3l w3r b3

end Cert.KernelIdeal.Whole

end
-- ==== Proof.Entry0.lean ====
/-
  What the first launch finds on entry.

  Before the first launch the host runs three stretches of operations: the in-degree of every node and the
  two pieces of its reciprocal; the choice between the reciprocal and zero; and the mean aggregation of the
  input features together with the first bias viewed as one row. Each stretch is read over arbitrary
  contents of the buffers it starts from, and the three readings are then chained from the launch memory:
  the aggregate buffer holds the mean aggregation of the input features, the degree buffer the reciprocal
  in-degrees, the bias buffer the bias as a one-row array.
-/
import proofs.«152251_j65377992180266_1_alg».proof.Proof.Gen.KernelIdeal.Frame
import proofs.«152251_j65377992180266_1_alg».proof.Proof.Stages
import Idealize.ShloMosaic.Lib.StableHlo.Run

set_option maxRecDepth 65536

noncomputable section

namespace Cert.KernelIdeal.Whole

open Cert.KernelIdeal Cert.KernelIdeal.Gen
open Idealize.ShloMosaic Idealize.ShloMosaic.TcCoe Idealize.SL.Sem Idealize.ShloMosaic.StableHlo

section Stretches

variable (V : Valuation τ sig (Elt Ideal))

/-! ## The first stretch: the in-degree and the two pieces of its reciprocal -/

set_option maxHeartbeats 4000000 in
theorem stretchA_positive : after hostOps0 V (Proc.devRef .tc main_v5)
    = cmpf .ogt (inDegree (V (Proc.devRef .tc main_arg2))) (broadcastInDim S50000 ![] bcast_S_S50000 (constant (F := Ideal) S_ .f32 0x00000000#32)) := by
  after_results_simp
  unfold inDegree asIndexColumn
  rfl

set_option maxHeartbeats 4000000 in
theorem stretchA_reciprocal : after hostOps0 V (Proc.devRef .tc main_v9)
    = Host.divf (broadcastInDim S50000 ![] bcast_S_S50000 (constant (F := Ideal) S_ .f32 0x3F800000#32))
        (maximumf (inDegree (V (Proc.devRef .tc main_arg2))) (broadcastInDim S50000 ![] bcast_S_S50000 (constant (F := Ideal) S_ .f32 0x3F800000#32))) := by
  after_results_simp
  unfold inDegree asIndexColumn
  rfl

set_option maxHeartbeats 4000000 in
theorem stretchA_zero : after hostOps0 V (Proc.devRef .tc main_cst_4) = constant (F := Ideal) S_ .f32 0x00000000#32 := by
  after_results_simp

set_option maxHeartbeats 2000000 in
theorem stretchA_arg0 : after hostOps0 V (Proc.devRef .tc main_arg0) = V (Proc.devRef .tc main_arg0) := by
  after_results_simp
set_option maxHeartbeats 2000000 in
theorem stretchA_arg1 : after hostOps0 V (Proc.devRef .tc main_arg1) = V (Proc.devRef .tc main_arg1) := by
  after_results_simp
set_option maxHeartbeats 2000000 in
theorem stretchA_arg2 : after hostOps0 V (Proc.devRef .tc main_arg2) = V (Proc.devRef .tc main_arg2) := by
  after_results_simp
set_option maxHeartbeats 2000000 in
theorem stretchA_arg3 : after hostOps0 V (Proc.devRef .tc main_arg3) = V (Proc.devRef .tc main_arg3) := by
  after_results_simp
set_option maxHeartbeats 2000000 in
theorem stretchA_arg4 : after hostOps0 V (Proc.devRef .tc main_arg4) = V (Proc.devRef .tc main_arg4) := by
  after_results_simp
set_option maxHeartbeats 2000000 in
theorem stretchA_arg5 : after hostOps0 V (Proc.devRef .tc main_arg5) = V (Proc.devRef .tc main_arg5) := by
  after_results_simp
set_option maxHeartbeats 2000000 in
theorem stretchA_arg6 : after hostOps0 V (Proc.devRef .tc main_arg6) = V (Proc.devRef .tc main_arg6) := by
  after_results_simp
set_option maxHeartbeats 2000000 in
theorem stretchA_arg7 : after hostOps0 V (Proc.devRef .tc main_arg7) = V (Proc.devRef .tc main_arg7) := by
  after_results_simp
set_option maxHeartbeats 2000000 in
theorem stretchA_arg8 : after hostOps0 V (Proc.devRef .tc main_arg8) = V (Proc.devRef .tc main_arg8) := by
  after_results_simp
set_option maxHeartbeats 2000000 in
theorem stretchA_arg9 : after hostOps0 V (Proc.devRef .tc main_arg9) = V (Proc.devRef .tc main_arg9) := by
  after_results_simp
set_option maxHeartbeats 2000000 in
theorem stretchA_arg10 : after hostOps0 V (Proc.devRef .tc main_arg10) = V (Proc.devRef .tc main_arg10) := by
  after_results_simp
set_option maxHeartbeats 2000000 in
theorem stretchA_arg11 : after hostOps0 V (Proc.devRef .tc main_arg11) = V (Proc.devRef .tc main_arg11) := by
  after_results_simp

/-! ## The second stretch: the reciprocal where the degree is positive, zero elsewhere -/

set_option maxHeartbeats 4000000 in
theorem stretchB_choice : after hostOps0_1 V (Proc.devRef .tc main_v10)
    = select (V (Proc.devRef .tc main_v5)) (V (Proc.devRef .tc main_v9)) (broadcastInDim S50000 ![] bcast_S_S50000 (V (Proc.devRef .tc main_cst_4))) := by
  after_results_simp
  simp only [TRef.toBuf, TRef.ofBuf, cast_eq, id_eq]

set_option maxHeartbeats 2000000 in
theorem stretchB_arg0 : after hostOps0_1 V (Proc.devRef .tc main_arg0) = V (Proc.devRef .tc main_arg0) := by
  after_results_simp
set_option maxHeartbeats 2000000 in
theorem stretchB_arg1 : after hostOps0_1 V (Proc.devRef .tc main_arg1) = V (Proc.devRef .tc main_arg1) := by
  after_results_simp
set_option maxHeartbeats 2000000 in
theorem stretchB_arg2 : after hostOps0_1 V (Proc.devRef .tc main_arg2) = V (Proc.devRef .tc main_arg2) := by
  after_results_simp
set_option maxHeartbeats 2000000 in
theorem stretchB_arg3 : after hostOps0_1 V (Proc.devRef .tc main_arg3) = V (Proc.devRef .tc main_arg3) := by
  after_results_simp
set_option maxHeartbeats 2000000 in
theorem stretchB_arg4 : after hostOps0_1 V (Proc.devRef .tc main_arg4) = V (Proc.devRef .tc main_arg4) := by
  after_results_simp
set_option maxHeartbeats 2000000 in
theorem stretchB_arg5 : after hostOps0_1 V (Proc.devRef .tc main_arg5) = V (Proc.devRef .tc main_arg5) := by
  after_results_simp
set_option maxHeartbeats 2000000 in
theorem stretchB_arg6 : after hostOps0_1 V (Proc.devRef .tc main_arg6) = V (Proc.devRef .tc main_arg6) := by
  after_results_simp
set_option maxHeartbeats 2000000 in
theorem stretchB_arg7 : after hostOps0_1 V (Proc.devRef .tc main_arg7) = V (Proc.devRef .tc main_arg7) := by
  after_results_simp
set_option maxHeartbeats 2000000 in
theorem stretchB_arg8 : after hostOps0_1 V (Proc.devRef .tc main_arg8) = V (Proc.devRef .tc main_arg8) := by
  after_results_simp
set_option maxHeartbeats 2000000 in
theorem stretchB_arg9 : after hostOps0_1 V (Proc.devRef .tc main_arg9) = V (Proc.devRef .tc main_arg9) := by
  after_results_simp
set_option maxHeartbeats 2000000 in
theorem stretchB_arg10 : after hostOps0_1 V (Proc.devRef .tc main_arg10) = V (Proc.devRef .tc main_arg10) := by
  after_results_simp
set_option maxHeartbeats 2000000 in
theorem stretchB_arg11 : after hostOps0_1 V (Proc.devRef .tc main_arg11) = V (Proc.devRef .tc main_arg11) := by
  after_results_simp

/-! ## The third stretch: the mean aggregation of the input features, and the bias as one row -/

set_option maxHeartbeats 4000000 in
theorem stretchC_agg : after hostOps0_2 V (Proc.devRef .tc main_v23)
    = aggWith8 (V (Proc.devRef .tc main_arg0)) (V (Proc.devRef .tc main_arg1)) (V (Proc.devRef .tc main_arg2)) (V (Proc.devRef .tc main_v10)) := by
  after_results_simp
  unfold aggWith8 asIndexColumn wrapIdx
  rfl

set_option maxHeartbeats 4000000 in
theorem stretchC_bias : after hostOps0_2 V (Proc.devRef .tc main_v24)
    = shapeCast S1x128 (V (Proc.devRef .tc main_arg5)) shapeCasts_S128_S1x128 := by
  after_results_simp
  rfl

set_option maxHeartbeats 2000000 in
theorem stretchC_degree : after hostOps0_2 V (Proc.devRef .tc main_v10) = V (Proc.devRef .tc main_v10) := by
  after_results_simp

set_option maxHeartbeats 2000000 in
theorem stretchC_arg0 : after hostOps0_2 V (Proc.devRef .tc main_arg0) = V (Proc.devRef .tc main_arg0) := by
  after_results_simp
set_option maxHeartbeats 2000000 in
theorem stretchC_arg1 : after hostOps0_2 V (Proc.devRef .tc main_arg1) = V (Proc.devRef .tc main_arg1) := by
  after_results_simp
set_option maxHeartbeats 2000000 in
theorem stretchC_arg2 : after hostOps0_2 V (Proc.devRef .tc main_arg2) = V (Proc.devRef .tc main_arg2) := by
  after_results_simp
set_option maxHeartbeats 2000000 in
theorem stretchC_arg3 : after hostOps0_2 V (Proc.devRef .tc main_arg3) = V (Proc.devRef .tc main_arg3) := by
  after_results_simp
set_option maxHeartbeats 2000000 in
theorem stretchC_arg4 : after hostOps0_2 V (Proc.devRef .tc main_arg4) = V (Proc.devRef .tc main_arg4) := by
  after_results_simp
set_option maxHeartbeats 2000000 in
theorem stretchC_arg5 : after hostOps0_2 V (Proc.devRef .tc main_arg5) = V (Proc.devRef .tc main_arg5) := by
  after_results_simp
set_option maxHeartbeats 2000000 in
theorem stretchC_arg6 : after hostOps0_2 V (Proc.devRef .tc main_arg6) = V (Proc.devRef .tc main_arg6) := by
  after_results_simp
set_option maxHeartbeats 2000000 in
theorem stretchC_arg7 : after hostOps0_2 V (Proc.devRef .tc main_arg7) = V (Proc.devRef .tc main_arg7) := by
  after_results_simp
set_option maxHeartbeats 2000000 in
theorem stretchC_arg8 : after hostOps0_2 V (Proc.devRef .tc main_arg8) = V (Proc.devRef .tc main_arg8) := by
  after_results_simp
set_option maxHeartbeats 2000000 in
theorem stretchC_arg9 : after hostOps0_2 V (Proc.devRef .tc main_arg9) = V (Proc.devRef .tc main_arg9) := by
  after_results_simp
set_option maxHeartbeats 2000000 in
theorem stretchC_arg10 : after hostOps0_2 V (Proc.devRef .tc main_arg10) = V (Proc.devRef .tc main_arg10) := by
  after_results_simp
set_option maxHeartbeats 2000000 in
theorem stretchC_arg11 : after hostOps0_2 V (Proc.devRef .tc main_arg11) = V (Proc.devRef .tc main_arg11) := by
  after_results_simp

end Stretches

/-! ## The three stretches chained from the launch memory -/

variable (m : (ℓ : Loc nD τ sig) → Buf (Elt Ideal) ℓ) (ρ : Dev nD → PrngReg) (c : Dev nD)

theorem entry0_arg0 : W3 m ρ c (Proc.devRef .tc main_arg0) = m ((c : Thread nD τ).loc main_arg0) :=
  (stretchC_arg0 (W2 m ρ c)).trans ((stretchB_arg0 (W1 m ρ c)).trans (stretchA_arg0 (W0 m ρ c)))
theorem entry0_arg1 : W3 m ρ c (Proc.devRef .tc main_arg1) = m ((c : Thread nD τ).loc main_arg1) :=
  (stretchC_arg1 (W2 m ρ c)).trans ((stretchB_arg1 (W1 m ρ c)).trans (stretchA_arg1 (W0 m ρ c)))
theorem entry0_arg2 : W3 m ρ c (Proc.devRef .tc main_arg2) = m ((c : Thread nD τ).loc main_arg2) :=
  (stretchC_arg2 (W2 m ρ c)).trans ((stretchB_arg2 (W1 m ρ c)).trans (stretchA_arg2 (W0 m ρ c)))
theorem entry0_arg3 : W3 m ρ c (Proc.devRef .tc main_arg3) = m ((c : Thread nD τ).loc main_arg3) :=
  (stretchC_arg3 (W2 m ρ c)).trans ((stretchB_arg3 (W1 m ρ c)).trans (stretchA_arg3 (W0 m ρ c)))
theorem entry0_arg4 : W3 m ρ c (Proc.devRef .tc main_arg4) = m ((c : Thread nD τ).loc main_arg4) :=
  (stretchC_arg4 (W2 m ρ c)).trans ((stretchB_arg4 (W1 m ρ c)).trans (stretchA_arg4 (W0 m ρ c)))
theorem entry0_arg5 : W3 m ρ c (Proc.devRef .tc main_arg5) = m ((c : Thread nD τ).loc main_arg5) :=
  (stretchC_arg5 (W2 m ρ c)).trans ((stretchB_arg5 (W1 m ρ c)).trans (stretchA_arg5 (W0 m ρ c)))
theorem entry0_arg6 : W3 m ρ c (Proc.devRef .tc main_arg6) = m ((c : Thread nD τ).loc main_arg6) :=
  (stretchC_arg6 (W2 m ρ c)).trans ((stretchB_arg6 (W1 m ρ c)).trans (stretchA_arg6 (W0 m ρ c)))
theorem entry0_arg7 : W3 m ρ c (Proc.devRef .tc main_arg7) = m ((c : Thread nD τ).loc main_arg7) :=
  (stretchC_arg7 (W2 m ρ c)).trans ((stretchB_arg7 (W1 m ρ c)).trans (stretchA_arg7 (W0 m ρ c)))
theorem entry0_arg8 : W3 m ρ c (Proc.devRef .tc main_arg8) = m ((c : Thread nD τ).loc main_arg8) :=
  (stretchC_arg8 (W2 m ρ c)).trans ((stretchB_arg8 (W1 m ρ c)).trans (stretchA_arg8 (W0 m ρ c)))
theorem entry0_arg9 : W3 m ρ c (Proc.devRef .tc main_arg9) = m ((c : Thread nD τ).loc main_arg9) :=
  (stretchC_arg9 (W2 m ρ c)).trans ((stretchB_arg9 (W1 m ρ c)).trans (stretchA_arg9 (W0 m ρ c)))
theorem entry0_arg10 : W3 m ρ c (Proc.devRef .tc main_arg10) = m ((c : Thread nD τ).loc main_arg10) :=
  (stretchC_arg10 (W2 m ρ c)).trans ((stretchB_arg10 (W1 m ρ c)).trans (stretchA_arg10 (W0 m ρ c)))
theorem entry0_arg11 : W3 m ρ c (Proc.devRef .tc main_arg11) = m ((c : Thread nD τ).loc main_arg11) :=
  (stretchC_arg11 (W2 m ρ c)).trans ((stretchB_arg11 (W1 m ρ c)).trans (stretchA_arg11 (W0 m ρ c)))

/-- The degree buffer at the first launch's entry holds the reciprocal in-degrees. -/
theorem entry0_invDegree : W3 m ρ c (Proc.devRef .tc main_v10) = invDegree (m ((c : Thread nD τ).loc main_arg2)) := by
  refine (stretchC_degree (W2 m ρ c)).trans ?_
  refine (stretchB_choice (W1 m ρ c)).trans ?_
  show select (after hostOps0 (W0 m ρ c) (Proc.devRef .tc main_v5)) (after hostOps0 (W0 m ρ c) (Proc.devRef .tc main_v9))
      (broadcastInDim S50000 ![] bcast_S_S50000 (after hostOps0 (W0 m ρ c) (Proc.devRef .tc main_cst_4))) = _
  rw [stretchA_positive, stretchA_reciprocal, stretchA_zero]
  rfl

/-- The aggregate buffer at the first launch's entry holds the mean aggregation of the input features. -/
theorem entry0_agg : W3 m ρ c (Proc.devRef .tc main_v23)
    = aggWith8 (m ((c : Thread nD τ).loc main_arg0)) (m ((c : Thread nD τ).loc main_arg1)) (m ((c : Thread nD τ).loc main_arg2))
        (invDegree (m ((c : Thread nD τ).loc main_arg2))) := by
  refine (stretchC_agg (W2 m ρ c)).trans ?_
  have h0 : W2 m ρ c (Proc.devRef .tc main_arg0) = m ((c : Thread nD τ).loc main_arg0) :=
    (stretchB_arg0 (W1 m ρ c)).trans (stretchA_arg0 (W0 m ρ c))
  have h1 : W2 m ρ c (Proc.devRef .tc main_arg1) = m ((c : Thread nD τ).loc main_arg1) :=
    (stretchB_arg1 (W1 m ρ c)).trans (stretchA_arg1 (W0 m ρ c))
  have h2 : W2 m ρ c (Proc.devRef .tc main_arg2) = m ((c : Thread nD τ).loc main_arg2) :=
    (stretchB_arg2 (W1 m ρ c)).trans (stretchA_arg2 (W0 m ρ c))
  have hd : W2 m ρ c (Proc.devRef .tc main_v10) = invDegree (m ((c : Thread nD τ).loc main_arg2)) :=
    (stretchC_degree (W2 m ρ c)).symm.trans (entry0_invDegree m ρ c)
  rw [h0, h1, h2, hd]

/-- The bias buffer at the first launch's entry holds the first bias viewed as one row. -/
theorem entry0_bias : W3 m ρ c (Proc.devRef .tc main_v24)
    = shapeCast S1x128 (m ((c : Thread nD τ).loc main_arg5)) shapeCasts_S128_S1x128 := by
  refine (stretchC_bias (W2 m ρ c)).trans ?_
  rw [show W2 m ρ c (Proc.devRef .tc main_arg5) = m ((c : Thread nD τ).loc main_arg5) from
    (stretchB_arg5 (W1 m ρ c)).trans (stretchA_arg5 (W0 m ρ c))]

end Cert.KernelIdeal.Whole

end
-- ==== Proof.Region0Body.lean ====
/-
  What launch 0 leaves in its result array, as one function of the arrays it finds on entry.

  The launch walks 25 grid points; point t stages rows 2000·t … 2000·t + 1999 of the aggregated features
  and of the node features, the two whole weight matrices and the one-row bias, and writes back the same
  rows of the result. In the body the two products are matrix products into a zero accumulator, which on
  the extended reals are plain sums over the contracted axis; the narrowing of the operands to a shorter
  float format is the identity there; the bias row is repeated down the rows. So the block written at
  point t is, entry by entry, the combination clamped at zero at rows 2000·t …, and since the 25
  blocks tile the 50000 rows the whole array ends as that function of the whole entry arrays.
-/
import proofs.«152251_j65377992180266_1_alg».proof.Proof.Gen.KernelIdeal.Frame
import proofs.«152251_j65377992180266_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Whole.R0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The matrix product into a zero accumulator, read at an entry -/

theorem lhs_row (j : S2000x128.Idx) (q : dot_S2000x8_S8x128_S2000x128_1_0_0_1_n_n.contr.Idx) : (dot_S2000x8_S8x128_S2000x128_1_0_0_1_n_n.lhsIdx j q 0).val = (j 0).val := by
  unfold DotDims.lhsIdx
  rw [dif_neg (show ¬(0 : Fin S2000x8.rank) ∈ dot_S2000x8_S8x128_S2000x128_1_0_0_1_n_n.lhsBatch by decide), dif_pos (show (0 : Fin S2000x8.rank) ∈ dot_S2000x8_S8x128_S2000x128_1_0_0_1_n_n.lhsNonContracting by decide)]
  rfl
theorem lhs_col (j : S2000x128.Idx) (q : dot_S2000x8_S8x128_S2000x128_1_0_0_1_n_n.contr.Idx) : (dot_S2000x8_S8x128_S2000x128_1_0_0_1_n_n.lhsIdx j q 1).val = (q ⟨0, by decide⟩).val :=
  dot_S2000x8_S8x128_S2000x128_1_0_0_1_n_n.lhsIdx_val_of_single rfl j q
theorem rhs_row (j : S2000x128.Idx) (q : dot_S2000x8_S8x128_S2000x128_1_0_0_1_n_n.contr.Idx) : (dot_S2000x8_S8x128_S2000x128_1_0_0_1_n_n.rhsIdx j q 0).val = (q ⟨0, by decide⟩).val :=
  dot_S2000x8_S8x128_S2000x128_1_0_0_1_n_n.rhsIdx_val_of_single rfl j q
theorem rhs_col (j : S2000x128.Idx) (q : dot_S2000x8_S8x128_S2000x128_1_0_0_1_n_n.contr.Idx) : (dot_S2000x8_S8x128_S2000x128_1_0_0_1_n_n.rhsIdx j q 1).val = (j 1).val := by
  unfold DotDims.rhsIdx
  rw [dif_neg (show ¬(1 : Fin S8x128.rank) ∈ dot_S2000x8_S8x128_S2000x128_1_0_0_1_n_n.rhsBatch by decide), dif_pos (show (1 : Fin S8x128.rank) ∈ dot_S2000x8_S8x128_S2000x128_1_0_0_1_n_n.rhsNonContracting by decide)]
  rfl

/-- Entry (r, c) of the product of a [2000, 8] block with a [8, 128] matrix, accumulated into zeros, is the sum over
    the 8 contracted positions of the products of row r of the one with column c of the other. -/
theorem product_apply (l : FVec Ideal S2000x8 .bf16) (r : FVec Ideal S8x128 .bf16) (j : S2000x128.Idx) :
    matmul dot_S2000x8_S8x128_S2000x128_1_0_0_1_n_n none l r (constant (F := Ideal) S2000x128 .f32 0x00000000#32) j
      = ∑ q : Fin 8, l (ix2 (j 0) q) * r (ix2 q (j 1)) := by
  refine (Ideal.matmul_constant_zero_apply dot_S2000x8_S8x128_S2000x128_1_0_0_1_n_n none l r j).trans ?_
  rw [← Equiv.sum_comp (ValueIdx.contrEquiv1 dot_S2000x8_S8x128_S2000x128_1_0_0_1_n_n 8 rfl rfl).symm]
  refine Finset.sum_congr rfl fun q _ => ?_
  have hq := ValueIdx.contrEquiv1_symm_val dot_S2000x8_S8x128_S2000x128_1_0_0_1_n_n 8 rfl rfl q
  have el : dot_S2000x8_S8x128_S2000x128_1_0_0_1_n_n.lhsIdx j ((ValueIdx.contrEquiv1 dot_S2000x8_S8x128_S2000x128_1_0_0_1_n_n 8 rfl rfl).symm q) = ix2 (j 0) q := funext fun a => Fin.ext (by
    match a with
    | ⟨0, _⟩ => exact lhs_row _ _
    | ⟨1, _⟩ => exact (lhs_col _ _).trans hq)
  have er : dot_S2000x8_S8x128_S2000x128_1_0_0_1_n_n.rhsIdx j ((ValueIdx.contrEquiv1 dot_S2000x8_S8x128_S2000x128_1_0_0_1_n_n 8 rfl rfl).symm q) = ix2 q (j 1) := funext fun a => Fin.ext (by
    match a with
    | ⟨0, _⟩ => exact (rhs_row _ _).trans hq
    | ⟨1, _⟩ => exact rhs_col _ _)
  exact congrArg₂ (· * ·) (congrArg l el) (congrArg r er)

/-! ## The body's stored value at an entry of the block -/

/-- The bias row repeated down the 2000 rows reads, at (r, c), the row's entry c. -/
theorem bias_apply (x4 : FVec Ideal S1x128 .f32) (j : S2000x128.Idx) :
    broadcastTo S2000x128 x4 broadcasts_S1x128_S2000x128 j = x4 (ix2 (0 : Fin 1) (j 1)) := by
  have hj := eq_ix2 j
  exact (congrArg (broadcastTo S2000x128 x4 broadcasts_S1x128_S2000x128) hj).trans
    (broadcastTo_1b_ab_apply x4 broadcasts_S1x128_S2000x128 (j 0) (j 1))

/-- The value the body stores, at entry j of the block, from the five blocks it loaded. -/
theorem stored_apply (x0 x1 : FVec Ideal S2000x8 .f32) (x2 x3 : FVec Ideal S8x128 .f32) (x4 : FVec Ideal S1x128 .f32) (j : S2000x128.Idx) :
    k0_pay1 (F := Ideal) x0 x1 x2 x3 x4 j = max (((∑ q : Fin 8, x0 (ix2 (j 0) q) * x2 (ix2 q (j 1))) + ∑ q : Fin 8, x1 (ix2 (j 0) q) * x3 (ix2 q (j 1))) + x4 (ix2 (0 : Fin 1) (j 1))) 0 := by
  unfold k0_pay1
  simp only [shapeCast_self]
  show max ((((matmul dot_S2000x8_S8x128_S2000x128_1_0_0_1_n_n none (truncf .bf16 x0 bitsLt_bf16_f32) (truncf .bf16 x2 bitsLt_bf16_f32) (constant (F := Ideal) S2000x128 .f32 0x00000000#32) j
      + matmul dot_S2000x8_S8x128_S2000x128_1_0_0_1_n_n none (truncf .bf16 x1 bitsLt_bf16_f32) (truncf .bf16 x3 bitsLt_bf16_f32) (constant (F := Ideal) S2000x128 .f32 0x00000000#32) j)
      + broadcastTo S2000x128 x4 broadcasts_S1x128_S2000x128 j))) (Ideal.ofBits .f32 0x00000000#32) = _
  rw [product_apply, product_apply, bias_apply, Ideal.ofBits_zero_f32]
  rfl

end Cert.KernelIdeal.Whole.R0

end
-- ==== Proof.Region0Array.lean ====
/-
  From the 25 written blocks to the whole result array of launch 0.

  The index maps of the six windows are decided once over the grid: at point t the aggregated features,
  the node features and the result are all at block row t, the weights and the bias at their one block.
  A block's coordinate in its array is the block index times the block size plus the coordinate inside
  the block, so entry (r, c) of the block written at point t is the layer function of the entry arrays at
  (2000·t + r, c). Row r of the array lies in the block of point r / 2000, so the blocks cover the array
  and it ends holding the layer function everywhere.
-/
import proofs.«152251_j65377992180266_1_alg».proof.Proof.Region0Body

set_option maxRecDepth 16384

noncomputable section

namespace Cert.KernelIdeal.Whole.R0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_origin : (![0, 0] : Fin 2 → Nat) = fun _ => 0 := funext fun a => by fin_cases a <;> rfl

/-- Where each window's block sits at grid point t. -/
theorem block_rows : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer function of the arrays the launch finds on entry (the bias array is one row of 128). -/
def target (c : Dev nD) : Cert.Sage.Mat 50000 128 :=
  Cert.Sage.layerClamp (V c main_v23) (V c main_arg0) (V c main_arg3) (V c main_arg4) (fun i => V c main_v24 (ix2 (0 : Fin 1) (i 0)))

/-- What point t writes back is block t of the layer function. -/
theorem written_block (c : Dev nD) (t : Fin cfg0.N) :
    (dat0 V c).flushed 5 t = ((cfg0.win 5).blk t).view.read (Elt Ideal) (target V c) := by
  show (cfg0.win 5).cut (grid0.coords t) ((dat0 V c).after 5 t) = _
  rw [after0_5]
  unfold out0_5
  rw [View.canon_unit_zero zero_origin]
  simp only [View.ld_unit_zero (S := S2000x8) zero_origin, View.ld_unit_zero (S := S8x128) zero_origin, View.ld_unit_zero (S := S1x128) zero_origin]
  obtain ⟨e0, e1, e2, e3, e4, e5, e6, e7, e8, e9, e10, e11⟩ := block_rows t
  funext j
  refine (stored_apply (iblk0 V c 0 t) (iblk0 V c 1 t) (iblk0 V c 2 t) (iblk0 V c 3 t) (iblk0 V c 4 t) j).trans ?_
  have hA : ∀ q : Fin 8, iblk0 V c 0 t (ix2 (j 0) q) = V c main_v23 (ix2 ((((cfg0.win 5).blk t).view.emb j) 0) q) := fun q => by
    show V c main_v23 (((cfg0.win 0).blk t).view.emb (ix2 (j 0) q)) = _
    refine congrArg (V c main_v23) (funext fun a => Fin.ext ?_)
    match a with
    | ⟨0, _⟩ => show win0_0.index t (0 : Fin 2) * 2000 + 1 * (j 0).val = win0_5.index t (0 : Fin 2) * 2000 + 1 * (j 0).val; rw [e0]
    | ⟨1, _⟩ => show win0_0.index t (1 : Fin 2) * 8 + 1 * q.val = q.val; rw [e1]; omega
  have hX : ∀ q : Fin 8, iblk0 V c 1 t (ix2 (j 0) q) = V c main_arg0 (ix2 ((((cfg0.win 5).blk t).view.emb j) 0) q) := fun q => by
    show V c main_arg0 (((cfg0.win 1).blk t).view.emb (ix2 (j 0) q)) = _
    refine congrArg (V c main_arg0) (funext fun a => Fin.ext ?_)
    match a with
    | ⟨0, _⟩ => show win0_1.index t (0 : Fin 2) * 2000 + 1 * (j 0).val = win0_5.index t (0 : Fin 2) * 2000 + 1 * (j 0).val; rw [e2]
    | ⟨1, _⟩ => show win0_1.index t (1 : Fin 2) * 8 + 1 * q.val = q.val; rw [e3]; omega
  have hL : ∀ q : Fin 8, iblk0 V c 2 t (ix2 q (j 1)) = V c main_arg3 (ix2 q ((((cfg0.win 5).blk t).view.emb j) 1)) := fun q => by
    show V c main_arg3 (((cfg0.win 2).blk t).view.emb (ix2 q (j 1))) = _
    refine congrArg (V c main_arg3) (funext fun a => Fin.ext ?_)
    match a with
    | ⟨0, _⟩ => show win0_2.index t (0 : Fin 2) * 8 + 1 * q.val = q.val; rw [e4]; omega
    | ⟨1, _⟩ => show win0_2.index t (1 : Fin 2) * 128 + 1 * (j 1).val = win0_5.index t (1 : Fin 2) * 128 + 1 * (j 1).val; rw [e5, e11]
  have hR : ∀ q : Fin 8, iblk0 V c 3 t (ix2 q (j 1)) = V c main_arg4 (ix2 q ((((cfg0.win 5).blk t).view.emb j) 1)) := fun q => by
    show V c main_arg4 (((cfg0.win 3).blk t).view.emb (ix2 q (j 1))) = _
    refine congrArg (V c main_arg4) (funext fun a => Fin.ext ?_)
    match a with
    | ⟨0, _⟩ => show win0_3.index t (0 : Fin 2) * 8 + 1 * q.val = q.val; rw [e6]; omega
    | ⟨1, _⟩ => show win0_3.index t (1 : Fin 2) * 128 + 1 * (j 1).val = win0_5.index t (1 : Fin 2) * 128 + 1 * (j 1).val; rw [e7, e11]
  have hB : iblk0 V c 4 t (ix2 (0 : Fin 1) (j 1)) = V c main_v24 (ix2 (0 : Fin 1) ((((cfg0.win 5).blk t).view.emb j) 1)) := by
    show V c main_v24 (((cfg0.win 4).blk t).view.emb (ix2 (0 : Fin 1) (j 1))) = _
    refine congrArg (V c main_v24) (funext fun a => Fin.ext ?_)
    match a with
    | ⟨0, _⟩ => show win0_4.index t (0 : Fin 2) * 1 + 1 * 0 = 0; rw [e8]
    | ⟨1, _⟩ => show win0_4.index t (1 : Fin 2) * 128 + 1 * (j 1).val = win0_5.index t (1 : Fin 2) * 128 + 1 * (j 1).val; rw [e9, e11]
  simp only [hA, hX, hL, hR, hB]
  rfl

/-- Row r of the array is in the block of grid point r / 2000. -/
theorem rows_covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 25 := N_0
  let t : Fin cfg0.N := ⟨(i 0).val / 2000, by show (i 0).val / 2000 < grid0.N; omega⟩
  obtain ⟨-, -, -, -, -, -, -, -, -, -, e10, e11⟩ := block_rows t
  have ht : t.val = (i 0).val / 2000 := rfl
  refine ⟨t, flush0_5 t, ?_⟩
  show i ∈ ((View.whole main_v25).slice (win0_5.rect t)).set
  rw [View.set_slice_whole, Rect.mem_set_unit]
  intro a
  match a with
  | ⟨0, _⟩ => show win0_5.index t (0 : Fin 2) * 2000 ≤ (i 0).val ∧ (i 0).val < win0_5.index t (0 : Fin 2) * 2000 + 2000; rw [e10, ht]; omega
  | ⟨1, _⟩ => show win0_5.index t (1 : Fin 2) * 128 ≤ (i 1).val ∧ (i 1).val < win0_5.index t (1 : Fin 2) * 128 + 128; rw [e11]; omega

/-- The result array of launch 0 ends as the layer function of the arrays found on entry. -/
theorem result_array (c : Dev nD) : (dat0 V c).arrAt 5 cfg0.N = target V c :=
  (dat0 V c).arrAt_eq_of_cover 5 (target V c) (fun t _ => written_block V c t) (rows_covered)

end Cert.KernelIdeal.Whole.R0

end
-- ==== Proof.Hidden1.lean ====
/-
  The first hidden array.

  The first launch finds the mean aggregation of the input features, the input features themselves, the
  first layer's two weight matrices and its bias as one row; it leaves the clamped combination of these.
  A one-row view of a bias read at (0, c) is the bias at c, so what the launch leaves is the first hidden
  array of the network. No later host operation writes the argument arrays or the degree buffer, so they
  keep their contents across the launch.
-/
import proofs.«152251_j65377992180266_1_alg».proof.Proof.Entry0
import proofs.«152251_j65377992180266_1_alg».proof.Proof.Region0Array

set_option maxRecDepth 65536

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- A bias viewed as one row, read along that row, is the bias. -/
theorem row_view (b : (⟨S128, .f32⟩ : BufTy).Contents (Elt Ideal)) :
    (fun i : (⟨1, ![128]⟩ : Shape).Idx => shapeCast S1x128 b shapeCasts_S128_S1x128 (ix2 (0 : Fin 1) (i 0))) = b := by
  funext i
  exact (shapeCast_a_1a_apply (a := 128) b shapeCasts_S128_S1x128 0 (i 0)).trans (congrArg b (eq_ix1 i).symm)

/-- What the first launch leaves in its result buffer is the first hidden array. -/
theorem hidden1_eq : W4 m ρ c (Proc.devRef .tc main_v25)
    = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 5).trans ?_
  rw [R0.result_array]
  unfold R0.target hidden1
  show Cert.Sage.layerClamp (W3 m ρ c (Proc.devRef .tc main_v23)) (W3 m ρ c (Proc.devRef .tc main_arg0))
      (W3 m ρ c (Proc.devRef .tc main_arg3)) (W3 m ρ c (Proc.devRef .tc main_arg4))
      (fun i => W3 m ρ c (Proc.devRef .tc main_v24) (ix2 (0 : Fin 1) (i 0))) = _
  rw [entry0_agg, entry0_arg0, entry0_arg3, entry0_arg4, entry0_bias, row_view]

/-! ## What the first launch does not touch -/

theorem exit0_arg1 : W4 m ρ c (Proc.devRef .tc main_arg1) = m ((c : Thread nD τ).loc main_arg1) :=
  (W4_of_ne m ρ c main_arg1 (by decide)).trans (entry0_arg1 m ρ c)
theorem exit0_arg2 : W4 m ρ c (Proc.devRef .tc main_arg2) = m ((c : Thread nD τ).loc main_arg2) :=
  (W4_of_ne m ρ c main_arg2 (by decide)).trans (entry0_arg2 m ρ c)
theorem exit0_arg6 : W4 m ρ c (Proc.devRef .tc main_arg6) = m ((c : Thread nD τ).loc main_arg6) :=
  (W4_of_ne m ρ c main_arg6 (by decide)).trans (entry0_arg6 m ρ c)
theorem exit0_arg7 : W4 m ρ c (Proc.devRef .tc main_arg7) = m ((c : Thread nD τ).loc main_arg7) :=
  (W4_of_ne m ρ c main_arg7 (by decide)).trans (entry0_arg7 m ρ c)
theorem exit0_arg8 : W4 m ρ c (Proc.devRef .tc main_arg8) = m ((c : Thread nD τ).loc main_arg8) :=
  (W4_of_ne m ρ c main_arg8 (by decide)).trans (entry0_arg8 m ρ c)
theorem exit0_arg9 : W4 m ρ c (Proc.devRef .tc main_arg9) = m ((c : Thread nD τ).loc main_arg9) :=
  (W4_of_ne m ρ c main_arg9 (by decide)).trans (entry0_arg9 m ρ c)
theorem exit0_arg10 : W4 m ρ c (Proc.devRef .tc main_arg10) = m ((c : Thread nD τ).loc main_arg10) :=
  (W4_of_ne m ρ c main_arg10 (by decide)).trans (entry0_arg10 m ρ c)
theorem exit0_arg11 : W4 m ρ c (Proc.devRef .tc main_arg11) = m ((c : Thread nD τ).loc main_arg11) :=
  (W4_of_ne m ρ c main_arg11 (by decide)).trans (entry0_arg11 m ρ c)
theorem exit0_invDegree : W4 m ρ c (Proc.devRef .tc main_v10) = invDegree (m ((c : Thread nD τ).loc main_arg2)) :=
  (W4_of_ne m ρ c main_v10 (by decide)).trans (entry0_invDegree m ρ c)

end Cert.KernelIdeal.Whole

end
-- ==== Proof.Region1Body.lean ====
/-
  What launch 1 leaves in its result array, as one function of the arrays it finds on entry.

  The launch walks 25 grid points; point t stages rows 2000·t … 2000·t + 1999 of the aggregated features
  and of the node features, the two whole weight matrices and the one-row bias, and writes back the same
  rows of the result. In the body the two products are matrix products into a zero accumulator, which on
  the extended reals are plain sums over the contracted axis; the narrowing of the operands to a shorter
  float format is the identity there; the bias row is repeated down the rows. So the block written at
  point t is, entry by entry, the combination plus the node's own features, clamped at zero at rows 2000·t …, and since the 25
  blocks tile the 50000 rows the whole array ends as that function of the whole entry arrays.
-/
import proofs.«152251_j65377992180266_1_alg».proof.Proof.Gen.KernelIdeal.Frame
import proofs.«152251_j65377992180266_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Whole.R1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The matrix product into a zero accumulator, read at an entry -/

theorem lhs_row (j : S2000x128.Idx) (q : dot_S2000x128_S128x128_S2000x128_1_0_0_1_n_n.contr.Idx) : (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (j : S2000x128.Idx) (q : dot_S2000x128_S128x128_S2000x128_1_0_0_1_n_n.contr.Idx) : (dot_S2000x128_S128x128_S2000x128_1_0_0_1_n_n.lhsIdx j q 1).val = (q ⟨0, by decide⟩).val :=
  dot_S2000x128_S128x128_S2000x128_1_0_0_1_n_n.lhsIdx_val_of_single rfl j q
theorem rhs_row (j : S2000x128.Idx) (q : dot_S2000x128_S128x128_S2000x128_1_0_0_1_n_n.contr.Idx) : (dot_S2000x128_S128x128_S2000x128_1_0_0_1_n_n.rhsIdx j q 0).val = (q ⟨0, by decide⟩).val :=
  dot_S2000x128_S128x128_S2000x128_1_0_0_1_n_n.rhsIdx_val_of_single rfl j q
theorem rhs_col (j : S2000x128.Idx) (q : dot_S2000x128_S128x128_S2000x128_1_0_0_1_n_n.contr.Idx) : (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (r, c) of the product of a [2000, 128] block with a [128, 128] matrix, accumulated into zeros, is the sum over
    the 128 contracted positions of the products of row r of the one with column c of the other. -/
theorem product_apply (l : FVec Ideal S2000x128 .bf16) (r : FVec Ideal S128x128 .bf16) (j : S2000x128.Idx) :
    matmul dot_S2000x128_S128x128_S2000x128_1_0_0_1_n_n none l r (constant (F := Ideal) S2000x128 .f32 0x00000000#32) j
      = ∑ q : Fin 128, l (ix2 (j 0) q) * r (ix2 q (j 1)) := by
  refine (Ideal.matmul_constant_zero_apply dot_S2000x128_S128x128_S2000x128_1_0_0_1_n_n none l r j).trans ?_
  rw [← Equiv.sum_comp (ValueIdx.contrEquiv1 dot_S2000x128_S128x128_S2000x128_1_0_0_1_n_n 128 rfl rfl).symm]
  refine Finset.sum_congr rfl fun q _ => ?_
  have hq := ValueIdx.contrEquiv1_symm_val dot_S2000x128_S128x128_S2000x128_1_0_0_1_n_n 128 rfl rfl q
  have el : dot_S2000x128_S128x128_S2000x128_1_0_0_1_n_n.lhsIdx j ((ValueIdx.contrEquiv1 dot_S2000x128_S128x128_S2000x128_1_0_0_1_n_n 128 rfl rfl).symm q) = ix2 (j 0) q := funext fun a => Fin.ext (by
    match a with
    | ⟨0, _⟩ => exact lhs_row _ _
    | ⟨1, _⟩ => exact (lhs_col _ _).trans hq)
  have er : dot_S2000x128_S128x128_S2000x128_1_0_0_1_n_n.rhsIdx j ((ValueIdx.contrEquiv1 dot_S2000x128_S128x128_S2000x128_1_0_0_1_n_n 128 rfl rfl).symm q) = ix2 q (j 1) := funext fun a => Fin.ext (by
    match a with
    | ⟨0, _⟩ => exact (rhs_row _ _).trans hq
    | ⟨1, _⟩ => exact rhs_col _ _)
  exact congrArg₂ (· * ·) (congrArg l el) (congrArg r er)

/-! ## The body's stored value at an entry of the block -/

/-- The bias row repeated down the 2000 rows reads, at (r, c), the row's entry c. -/
theorem bias_apply (x4 : FVec Ideal S1x128 .f32) (j : S2000x128.Idx) :
    broadcastTo S2000x128 x4 broadcasts_S1x128_S2000x128 j = x4 (ix2 (0 : Fin 1) (j 1)) := by
  have hj := eq_ix2 j
  exact (congrArg (broadcastTo S2000x128 x4 broadcasts_S1x128_S2000x128) hj).trans
    (broadcastTo_1b_ab_apply x4 broadcasts_S1x128_S2000x128 (j 0) (j 1))

/-- The value the body stores, at entry j of the block, from the five blocks it loaded. -/
theorem stored_apply (x0 x1 : FVec Ideal S2000x128 .f32) (x2 x3 : FVec Ideal S128x128 .f32) (x4 : FVec Ideal S1x128 .f32) (j : S2000x128.Idx) :
    k1_pay1 (F := Ideal) x0 x1 x2 x3 x4 x1 j = max ((((∑ q : Fin 128, x0 (ix2 (j 0) q) * x2 (ix2 q (j 1))) + ∑ q : Fin 128, x1 (ix2 (j 0) q) * x3 (ix2 q (j 1))) + x4 (ix2 (0 : Fin 1) (j 1))) + x1 j) 0 := by
  unfold k1_pay1
  simp only [shapeCast_self]
  show max ((((matmul dot_S2000x128_S128x128_S2000x128_1_0_0_1_n_n none (truncf .bf16 x0 bitsLt_bf16_f32) (truncf .bf16 x2 bitsLt_bf16_f32) (constant (F := Ideal) S2000x128 .f32 0x00000000#32) j
      + matmul dot_S2000x128_S128x128_S2000x128_1_0_0_1_n_n none (truncf .bf16 x1 bitsLt_bf16_f32) (truncf .bf16 x3 bitsLt_bf16_f32) (constant (F := Ideal) S2000x128 .f32 0x00000000#32) j)
      + broadcastTo S2000x128 x4 broadcasts_S1x128_S2000x128 j) + x1 j)) (Ideal.ofBits .f32 0x00000000#32) = _
  rw [product_apply, product_apply, bias_apply, Ideal.ofBits_zero_f32]
  rfl

end Cert.KernelIdeal.Whole.R1

end
-- ==== Proof.Region1Array.lean ====
/-
  From the 25 written blocks to the whole result array of launch 1.

  The index maps of the six windows are decided once over the grid: at point t the aggregated features,
  the node features and the result are all at block row t, the weights and the bias at their one block.
  A block's coordinate in its array is the block index times the block size plus the coordinate inside
  the block, so entry (r, c) of the block written at point t is the layer function of the entry arrays at
  (2000·t + r, c). Row r of the array lies in the block of point r / 2000, so the blocks cover the array
  and it ends holding the layer function everywhere.
-/
import proofs.«152251_j65377992180266_1_alg».proof.Proof.Region1Body

set_option maxRecDepth 16384

noncomputable section

namespace Cert.KernelIdeal.Whole.R1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_origin : (![0, 0] : Fin 2 → Nat) = fun _ => 0 := funext fun a => by fin_cases a <;> rfl

/-- Where each window's block sits at grid point t. -/
theorem block_rows : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer function of the arrays the launch finds on entry (the bias array is one row of 128). -/
def target (c : Dev nD) : Cert.Sage.Mat 50000 128 :=
  Cert.Sage.layerSkipClamp (V c main_v38) (V c main_v25) (V c main_arg6) (V c main_arg7) (fun i => V c main_v39 (ix2 (0 : Fin 1) (i 0)))

/-- What point t writes back is block t of the layer function. -/
theorem written_block (c : Dev nD) (t : Fin cfg1.N) :
    (dat1 V c).flushed 5 t = ((cfg1.win 5).blk t).view.read (Elt Ideal) (target V c) := by
  show (cfg1.win 5).cut (grid1.coords t) ((dat1 V c).after 5 t) = _
  rw [after1_5]
  unfold out1_5
  rw [View.canon_unit_zero zero_origin]
  simp only [View.ld_unit_zero (S := S2000x128) zero_origin, View.ld_unit_zero (S := S128x128) zero_origin, View.ld_unit_zero (S := S1x128) zero_origin]
  obtain ⟨e0, e1, e2, e3, e4, e5, e6, e7, e8, e9, e10, e11⟩ := block_rows t
  funext j
  refine (stored_apply (iblk1 V c 0 t) (iblk1 V c 1 t) (iblk1 V c 2 t) (iblk1 V c 3 t) (iblk1 V c 4 t) j).trans ?_
  have hA : ∀ q : Fin 128, iblk1 V c 0 t (ix2 (j 0) q) = V c main_v38 (ix2 ((((cfg1.win 5).blk t).view.emb j) 0) q) := fun q => by
    show V c main_v38 (((cfg1.win 0).blk t).view.emb (ix2 (j 0) q)) = _
    refine congrArg (V c main_v38) (funext fun a => Fin.ext ?_)
    match a with
    | ⟨0, _⟩ => show win1_0.index t (0 : Fin 2) * 2000 + 1 * (j 0).val = win1_5.index t (0 : Fin 2) * 2000 + 1 * (j 0).val; rw [e0]
    | ⟨1, _⟩ => show win1_0.index t (1 : Fin 2) * 128 + 1 * q.val = q.val; rw [e1]; omega
  have hX : ∀ q : Fin 128, iblk1 V c 1 t (ix2 (j 0) q) = V c main_v25 (ix2 ((((cfg1.win 5).blk t).view.emb j) 0) q) := fun q => by
    show V c main_v25 (((cfg1.win 1).blk t).view.emb (ix2 (j 0) q)) = _
    refine congrArg (V c main_v25) (funext fun a => Fin.ext ?_)
    match a with
    | ⟨0, _⟩ => show win1_1.index t (0 : Fin 2) * 2000 + 1 * (j 0).val = win1_5.index t (0 : Fin 2) * 2000 + 1 * (j 0).val; rw [e2]
    | ⟨1, _⟩ => show win1_1.index t (1 : Fin 2) * 128 + 1 * q.val = q.val; rw [e3]; omega
  have hL : ∀ q : Fin 128, iblk1 V c 2 t (ix2 q (j 1)) = V c main_arg6 (ix2 q ((((cfg1.win 5).blk t).view.emb j) 1)) := fun q => by
    show V c main_arg6 (((cfg1.win 2).blk t).view.emb (ix2 q (j 1))) = _
    refine congrArg (V c main_arg6) (funext fun a => Fin.ext ?_)
    match a with
    | ⟨0, _⟩ => show win1_2.index t (0 : Fin 2) * 128 + 1 * q.val = q.val; rw [e4]; omega
    | ⟨1, _⟩ => show win1_2.index t (1 : Fin 2) * 128 + 1 * (j 1).val = win1_5.index t (1 : Fin 2) * 128 + 1 * (j 1).val; rw [e5, e11]
  have hR : ∀ q : Fin 128, iblk1 V c 3 t (ix2 q (j 1)) = V c main_arg7 (ix2 q ((((cfg1.win 5).blk t).view.emb j) 1)) := fun q => by
    show V c main_arg7 (((cfg1.win 3).blk t).view.emb (ix2 q (j 1))) = _
    refine congrArg (V c main_arg7) (funext fun a => Fin.ext ?_)
    match a with
    | ⟨0, _⟩ => show win1_3.index t (0 : Fin 2) * 128 + 1 * q.val = q.val; rw [e6]; omega
    | ⟨1, _⟩ => show win1_3.index t (1 : Fin 2) * 128 + 1 * (j 1).val = win1_5.index t (1 : Fin 2) * 128 + 1 * (j 1).val; rw [e7, e11]
  have hB : iblk1 V c 4 t (ix2 (0 : Fin 1) (j 1)) = V c main_v39 (ix2 (0 : Fin 1) ((((cfg1.win 5).blk t).view.emb j) 1)) := by
    show V c main_v39 (((cfg1.win 4).blk t).view.emb (ix2 (0 : Fin 1) (j 1))) = _
    refine congrArg (V c main_v39) (funext fun a => Fin.ext ?_)
    match a with
    | ⟨0, _⟩ => show win1_4.index t (0 : Fin 2) * 1 + 1 * 0 = 0; rw [e8]
    | ⟨1, _⟩ => show win1_4.index t (1 : Fin 2) * 128 + 1 * (j 1).val = win1_5.index t (1 : Fin 2) * 128 + 1 * (j 1).val; rw [e9, e11]
  have hS : iblk1 V c 1 t j = V c main_v25 (((cfg1.win 5).blk t).view.emb j) := by
    show V c main_v25 (((cfg1.win 1).blk t).view.emb j) = _
    refine congrArg (V c main_v25) (funext fun a => Fin.ext ?_)
    match a with
    | ⟨0, _⟩ => show win1_1.index t (0 : Fin 2) * 2000 + 1 * (j 0).val = win1_5.index t (0 : Fin 2) * 2000 + 1 * (j 0).val; rw [e2]
    | ⟨1, _⟩ => show win1_1.index t (1 : Fin 2) * 128 + 1 * (j 1).val = win1_5.index t (1 : Fin 2) * 128 + 1 * (j 1).val; rw [e3, e11]
  simp only [hA, hX, hL, hR, hB, hS]
  rfl

/-- Row r of the array is in the block of grid point r / 2000. -/
theorem rows_covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 25 := N_1
  let t : Fin cfg1.N := ⟨(i 0).val / 2000, by show (i 0).val / 2000 < grid1.N; omega⟩
  obtain ⟨-, -, -, -, -, -, -, -, -, -, e10, e11⟩ := block_rows t
  have ht : t.val = (i 0).val / 2000 := rfl
  refine ⟨t, flush1_5 t, ?_⟩
  show i ∈ ((View.whole main_v40).slice (win1_5.rect t)).set
  rw [View.set_slice_whole, Rect.mem_set_unit]
  intro a
  match a with
  | ⟨0, _⟩ => show win1_5.index t (0 : Fin 2) * 2000 ≤ (i 0).val ∧ (i 0).val < win1_5.index t (0 : Fin 2) * 2000 + 2000; rw [e10, ht]; omega
  | ⟨1, _⟩ => show win1_5.index t (1 : Fin 2) * 128 ≤ (i 1).val ∧ (i 1).val < win1_5.index t (1 : Fin 2) * 128 + 128; rw [e11]; omega

/-- The result array of launch 1 ends as the layer function of the arrays found on entry. -/
theorem result_array (c : Dev nD) : (dat1 V c).arrAt 5 cfg1.N = target V c :=
  (dat1 V c).arrAt_eq_of_cover 5 (target V c) (fun t _ => written_block V c t) (rows_covered)

end Cert.KernelIdeal.Whole.R1

end
-- ==== Proof.Hidden2.lean ====
/-
  The second hidden array.

  Between the first and the second launch the host aggregates the first hidden array over the edges; the
  second launch finds that aggregate, the first hidden array, the second layer's weights and its bias as
  one row, and leaves the combination plus the first hidden array, clamped: the second hidden array.
-/
import proofs.«152251_j65377992180266_1_alg».proof.Proof.Hidden1
import proofs.«152251_j65377992180266_1_alg».proof.Proof.Region1Array

set_option maxRecDepth 65536

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## What launch 1 finds on entry, over the previous boundary's contents -/

set_option maxHeartbeats 4000000 in
theorem entry1_agg : W5 m ρ c (Proc.devRef .tc main_v38)
    = aggWith128 (W4 m ρ c (Proc.devRef .tc main_v25)) (W4 m ρ c (Proc.devRef .tc main_arg1)) (W4 m ρ c (Proc.devRef .tc main_arg2))
        (W4 m ρ c (Proc.devRef .tc main_v10)) := by
  after_results_simp
  unfold aggWith128 asIndexColumn wrapIdx
  rfl

set_option maxHeartbeats 4000000 in
theorem entry1_bias : W5 m ρ c (Proc.devRef .tc main_v39)
    = shapeCast S1x128 (W4 m ρ c (Proc.devRef .tc main_arg8)) shapeCasts_S128_S1x128 := by
  after_results_simp
  rfl

set_option maxHeartbeats 2000000 in
theorem entry1_x : W5 m ρ c (Proc.devRef .tc main_v25) = W4 m ρ c (Proc.devRef .tc main_v25) := by
  after_results_simp <;> rfl
set_option maxHeartbeats 2000000 in
theorem entry1_arg1 : W5 m ρ c (Proc.devRef .tc main_arg1) = W4 m ρ c (Proc.devRef .tc main_arg1) := by
  after_results_simp <;> rfl
set_option maxHeartbeats 2000000 in
theorem entry1_arg2 : W5 m ρ c (Proc.devRef .tc main_arg2) = W4 m ρ c (Proc.devRef .tc main_arg2) := by
  after_results_simp <;> rfl
set_option maxHeartbeats 2000000 in
theorem entry1_arg6 : W5 m ρ c (Proc.devRef .tc main_arg6) = W4 m ρ c (Proc.devRef .tc main_arg6) := by
  after_results_simp <;> rfl
set_option maxHeartbeats 2000000 in
theorem entry1_arg7 : W5 m ρ c (Proc.devRef .tc main_arg7) = W4 m ρ c (Proc.devRef .tc main_arg7) := by
  after_results_simp <;> rfl
set_option maxHeartbeats 2000000 in
theorem entry1_arg9 : W5 m ρ c (Proc.devRef .tc main_arg9) = W4 m ρ c (Proc.devRef .tc main_arg9) := by
  after_results_simp <;> rfl
set_option maxHeartbeats 2000000 in
theorem entry1_arg10 : W5 m ρ c (Proc.devRef .tc main_arg10) = W4 m ρ c (Proc.devRef .tc main_arg10) := by
  after_results_simp <;> rfl
set_option maxHeartbeats 2000000 in
theorem entry1_arg11 : W5 m ρ c (Proc.devRef .tc main_arg11) = W4 m ρ c (Proc.devRef .tc main_arg11) := by
  after_results_simp <;> rfl
set_option maxHeartbeats 2000000 in
theorem entry1_invDegree : W5 m ρ c (Proc.devRef .tc main_v10) = W4 m ρ c (Proc.devRef .tc main_v10) := by
  after_results_simp <;> rfl

/-- What launch 1 leaves in its result buffer. -/
theorem hidden2_eq : W6 m ρ c (Proc.devRef .tc main_v40)
    = hidden2 (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) := by
  refine (W6_arr m ρ c 5).trans ?_
  rw [R1.result_array]
  unfold R1.target hidden2
  show Cert.Sage.layerSkipClamp (W5 m ρ c (Proc.devRef .tc main_v38)) (W5 m ρ c (Proc.devRef .tc main_v25))
      (W5 m ρ c (Proc.devRef .tc main_arg6)) (W5 m ρ c (Proc.devRef .tc main_arg7))
      (fun i => W5 m ρ c (Proc.devRef .tc main_v39) (ix2 (0 : Fin 1) (i 0))) = _
  rw [entry1_agg, entry1_x, entry1_arg6, entry1_arg7, entry1_bias, hidden1_eq,
    exit0_arg1, exit0_arg2, exit0_invDegree, exit0_arg6, exit0_arg7, exit0_arg8, row_view]

/-! ## What the second launch does not touch -/

theorem exit1_arg1 : W6 m ρ c (Proc.devRef .tc main_arg1) = m ((c : Thread nD τ).loc main_arg1) :=
  (W6_of_ne m ρ c main_arg1 (by decide)).trans ((entry1_arg1 m ρ c).trans (exit0_arg1 m ρ c))
theorem exit1_arg2 : W6 m ρ c (Proc.devRef .tc main_arg2) = m ((c : Thread nD τ).loc main_arg2) :=
  (W6_of_ne m ρ c main_arg2 (by decide)).trans ((entry1_arg2 m ρ c).trans (exit0_arg2 m ρ c))
theorem exit1_arg9 : W6 m ρ c (Proc.devRef .tc main_arg9) = m ((c : Thread nD τ).loc main_arg9) :=
  (W6_of_ne m ρ c main_arg9 (by decide)).trans ((entry1_arg9 m ρ c).trans (exit0_arg9 m ρ c))
theorem exit1_arg10 : W6 m ρ c (Proc.devRef .tc main_arg10) = m ((c : Thread nD τ).loc main_arg10) :=
  (W6_of_ne m ρ c main_arg10 (by decide)).trans ((entry1_arg10 m ρ c).trans (exit0_arg10 m ρ c))
theorem exit1_arg11 : W6 m ρ c (Proc.devRef .tc main_arg11) = m ((c : Thread nD τ).loc main_arg11) :=
  (W6_of_ne m ρ c main_arg11 (by decide)).trans ((entry1_arg11 m ρ c).trans (exit0_arg11 m ρ c))
theorem exit1_invDegree : W6 m ρ c (Proc.devRef .tc main_v10) = invDegree (m ((c : Thread nD τ).loc main_arg2)) :=
  (W6_of_ne m ρ c main_v10 (by decide)).trans ((entry1_invDegree m ρ c).trans (exit0_invDegree m ρ c))

end Cert.KernelIdeal.Whole

end
-- ==== Proof.Region2Body.lean ====
/-
  What launch 2 leaves in its result array, as one function of the arrays it finds on entry.

  The launch walks 25 grid points; point t stages rows 2000·t … 2000·t + 1999 of the aggregated features
  and of the node features, the two whole weight matrices and the one-row bias, and writes back the same
  rows of the result. In the body the two products are matrix products into a zero accumulator, which on
  the extended reals are plain sums over the contracted axis; the narrowing of the operands to a shorter
  float format is the identity there; the bias row is repeated down the rows. So the block written at
  point t is, entry by entry, the combination plus the node's own features at rows 2000·t …, and since the 25
  blocks tile the 50000 rows the whole array ends as that function of the whole entry arrays.
-/
import proofs.«152251_j65377992180266_1_alg».proof.Proof.Gen.KernelIdeal.Frame
import proofs.«152251_j65377992180266_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Whole.R2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The matrix product into a zero accumulator, read at an entry -/

theorem lhs_row (j : S2000x128.Idx) (q : dot_S2000x128_S128x128_S2000x128_1_0_0_1_n_n.contr.Idx) : (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (j : S2000x128.Idx) (q : dot_S2000x128_S128x128_S2000x128_1_0_0_1_n_n.contr.Idx) : (dot_S2000x128_S128x128_S2000x128_1_0_0_1_n_n.lhsIdx j q 1).val = (q ⟨0, by decide⟩).val :=
  dot_S2000x128_S128x128_S2000x128_1_0_0_1_n_n.lhsIdx_val_of_single rfl j q
theorem rhs_row (j : S2000x128.Idx) (q : dot_S2000x128_S128x128_S2000x128_1_0_0_1_n_n.contr.Idx) : (dot_S2000x128_S128x128_S2000x128_1_0_0_1_n_n.rhsIdx j q 0).val = (q ⟨0, by decide⟩).val :=
  dot_S2000x128_S128x128_S2000x128_1_0_0_1_n_n.rhsIdx_val_of_single rfl j q
theorem rhs_col (j : S2000x128.Idx) (q : dot_S2000x128_S128x128_S2000x128_1_0_0_1_n_n.contr.Idx) : (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (r, c) of the product of a [2000, 128] block with a [128, 128] matrix, accumulated into zeros, is the sum over
    the 128 contracted positions of the products of row r of the one with column c of the other. -/
theorem product_apply (l : FVec Ideal S2000x128 .bf16) (r : FVec Ideal S128x128 .bf16) (j : S2000x128.Idx) :
    matmul dot_S2000x128_S128x128_S2000x128_1_0_0_1_n_n none l r (constant (F := Ideal) S2000x128 .f32 0x00000000#32) j
      = ∑ q : Fin 128, l (ix2 (j 0) q) * r (ix2 q (j 1)) := by
  refine (Ideal.matmul_constant_zero_apply dot_S2000x128_S128x128_S2000x128_1_0_0_1_n_n none l r j).trans ?_
  rw [← Equiv.sum_comp (ValueIdx.contrEquiv1 dot_S2000x128_S128x128_S2000x128_1_0_0_1_n_n 128 rfl rfl).symm]
  refine Finset.sum_congr rfl fun q _ => ?_
  have hq := ValueIdx.contrEquiv1_symm_val dot_S2000x128_S128x128_S2000x128_1_0_0_1_n_n 128 rfl rfl q
  have el : dot_S2000x128_S128x128_S2000x128_1_0_0_1_n_n.lhsIdx j ((ValueIdx.contrEquiv1 dot_S2000x128_S128x128_S2000x128_1_0_0_1_n_n 128 rfl rfl).symm q) = ix2 (j 0) q := funext fun a => Fin.ext (by
    match a with
    | ⟨0, _⟩ => exact lhs_row _ _
    | ⟨1, _⟩ => exact (lhs_col _ _).trans hq)
  have er : dot_S2000x128_S128x128_S2000x128_1_0_0_1_n_n.rhsIdx j ((ValueIdx.contrEquiv1 dot_S2000x128_S128x128_S2000x128_1_0_0_1_n_n 128 rfl rfl).symm q) = ix2 q (j 1) := funext fun a => Fin.ext (by
    match a with
    | ⟨0, _⟩ => exact (rhs_row _ _).trans hq
    | ⟨1, _⟩ => exact rhs_col _ _)
  exact congrArg₂ (· * ·) (congrArg l el) (congrArg r er)

/-! ## The body's stored value at an entry of the block -/

/-- The bias row repeated down the 2000 rows reads, at (r, c), the row's entry c. -/
theorem bias_apply (x4 : FVec Ideal S1x128 .f32) (j : S2000x128.Idx) :
    broadcastTo S2000x128 x4 broadcasts_S1x128_S2000x128 j = x4 (ix2 (0 : Fin 1) (j 1)) := by
  have hj := eq_ix2 j
  exact (congrArg (broadcastTo S2000x128 x4 broadcasts_S1x128_S2000x128) hj).trans
    (broadcastTo_1b_ab_apply x4 broadcasts_S1x128_S2000x128 (j 0) (j 1))

/-- The value the body stores, at entry j of the block, from the five blocks it loaded. -/
theorem stored_apply (x0 x1 : FVec Ideal S2000x128 .f32) (x2 x3 : FVec Ideal S128x128 .f32) (x4 : FVec Ideal S1x128 .f32) (j : S2000x128.Idx) :
    k2_pay1 (F := Ideal) x0 x1 x2 x3 x4 x1 j = (((∑ q : Fin 128, x0 (ix2 (j 0) q) * x2 (ix2 q (j 1))) + ∑ q : Fin 128, x1 (ix2 (j 0) q) * x3 (ix2 q (j 1))) + x4 (ix2 (0 : Fin 1) (j 1))) + x1 j := by
  unfold k2_pay1
  simp only [shapeCast_self]
  show (((matmul dot_S2000x128_S128x128_S2000x128_1_0_0_1_n_n none (truncf .bf16 x0 bitsLt_bf16_f32) (truncf .bf16 x2 bitsLt_bf16_f32) (constant (F := Ideal) S2000x128 .f32 0x00000000#32) j
      + matmul dot_S2000x128_S128x128_S2000x128_1_0_0_1_n_n none (truncf .bf16 x1 bitsLt_bf16_f32) (truncf .bf16 x3 bitsLt_bf16_f32) (constant (F := Ideal) S2000x128 .f32 0x00000000#32) j)
      + broadcastTo S2000x128 x4 broadcasts_S1x128_S2000x128 j) + x1 j) = _
  rw [product_apply, product_apply, bias_apply]
  rfl

end Cert.KernelIdeal.Whole.R2

end
-- ==== Proof.Region2Array.lean ====
/-
  From the 25 written blocks to the whole result array of launch 2.

  The index maps of the six windows are decided once over the grid: at point t the aggregated features,
  the node features and the result are all at block row t, the weights and the bias at their one block.
  A block's coordinate in its array is the block index times the block size plus the coordinate inside
  the block, so entry (r, c) of the block written at point t is the layer function of the entry arrays at
  (2000·t + r, c). Row r of the array lies in the block of point r / 2000, so the blocks cover the array
  and it ends holding the layer function everywhere.
-/
import proofs.«152251_j65377992180266_1_alg».proof.Proof.Region2Body

set_option maxRecDepth 16384

noncomputable section

namespace Cert.KernelIdeal.Whole.R2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_origin : (![0, 0] : Fin 2 → Nat) = fun _ => 0 := funext fun a => by fin_cases a <;> rfl

/-- Where each window's block sits at grid point t. -/
theorem block_rows : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer function of the arrays the launch finds on entry (the bias array is one row of 128). -/
def target (c : Dev nD) : Cert.Sage.Mat 50000 128 :=
  Cert.Sage.layerSkip (V c main_v53) (V c main_v40) (V c main_arg9) (V c main_arg10) (fun i => V c main_v54 (ix2 (0 : Fin 1) (i 0)))

/-- What point t writes back is block t of the layer function. -/
theorem written_block (c : Dev nD) (t : Fin cfg2.N) :
    (dat2 V c).flushed 5 t = ((cfg2.win 5).blk t).view.read (Elt Ideal) (target V c) := by
  show (cfg2.win 5).cut (grid2.coords t) ((dat2 V c).after 5 t) = _
  rw [after2_5]
  unfold out2_5
  rw [View.canon_unit_zero zero_origin]
  simp only [View.ld_unit_zero (S := S2000x128) zero_origin, View.ld_unit_zero (S := S128x128) zero_origin, View.ld_unit_zero (S := S1x128) zero_origin]
  obtain ⟨e0, e1, e2, e3, e4, e5, e6, e7, e8, e9, e10, e11⟩ := block_rows t
  funext j
  refine (stored_apply (iblk2 V c 0 t) (iblk2 V c 1 t) (iblk2 V c 2 t) (iblk2 V c 3 t) (iblk2 V c 4 t) j).trans ?_
  have hA : ∀ q : Fin 128, iblk2 V c 0 t (ix2 (j 0) q) = V c main_v53 (ix2 ((((cfg2.win 5).blk t).view.emb j) 0) q) := fun q => by
    show V c main_v53 (((cfg2.win 0).blk t).view.emb (ix2 (j 0) q)) = _
    refine congrArg (V c main_v53) (funext fun a => Fin.ext ?_)
    match a with
    | ⟨0, _⟩ => show win2_0.index t (0 : Fin 2) * 2000 + 1 * (j 0).val = win2_5.index t (0 : Fin 2) * 2000 + 1 * (j 0).val; rw [e0]
    | ⟨1, _⟩ => show win2_0.index t (1 : Fin 2) * 128 + 1 * q.val = q.val; rw [e1]; omega
  have hX : ∀ q : Fin 128, iblk2 V c 1 t (ix2 (j 0) q) = V c main_v40 (ix2 ((((cfg2.win 5).blk t).view.emb j) 0) q) := fun q => by
    show V c main_v40 (((cfg2.win 1).blk t).view.emb (ix2 (j 0) q)) = _
    refine congrArg (V c main_v40) (funext fun a => Fin.ext ?_)
    match a with
    | ⟨0, _⟩ => show win2_1.index t (0 : Fin 2) * 2000 + 1 * (j 0).val = win2_5.index t (0 : Fin 2) * 2000 + 1 * (j 0).val; rw [e2]
    | ⟨1, _⟩ => show win2_1.index t (1 : Fin 2) * 128 + 1 * q.val = q.val; rw [e3]; omega
  have hL : ∀ q : Fin 128, iblk2 V c 2 t (ix2 q (j 1)) = V c main_arg9 (ix2 q ((((cfg2.win 5).blk t).view.emb j) 1)) := fun q => by
    show V c main_arg9 (((cfg2.win 2).blk t).view.emb (ix2 q (j 1))) = _
    refine congrArg (V c main_arg9) (funext fun a => Fin.ext ?_)
    match a with
    | ⟨0, _⟩ => show win2_2.index t (0 : Fin 2) * 128 + 1 * q.val = q.val; rw [e4]; omega
    | ⟨1, _⟩ => show win2_2.index t (1 : Fin 2) * 128 + 1 * (j 1).val = win2_5.index t (1 : Fin 2) * 128 + 1 * (j 1).val; rw [e5, e11]
  have hR : ∀ q : Fin 128, iblk2 V c 3 t (ix2 q (j 1)) = V c main_arg10 (ix2 q ((((cfg2.win 5).blk t).view.emb j) 1)) := fun q => by
    show V c main_arg10 (((cfg2.win 3).blk t).view.emb (ix2 q (j 1))) = _
    refine congrArg (V c main_arg10) (funext fun a => Fin.ext ?_)
    match a with
    | ⟨0, _⟩ => show win2_3.index t (0 : Fin 2) * 128 + 1 * q.val = q.val; rw [e6]; omega
    | ⟨1, _⟩ => show win2_3.index t (1 : Fin 2) * 128 + 1 * (j 1).val = win2_5.index t (1 : Fin 2) * 128 + 1 * (j 1).val; rw [e7, e11]
  have hB : iblk2 V c 4 t (ix2 (0 : Fin 1) (j 1)) = V c main_v54 (ix2 (0 : Fin 1) ((((cfg2.win 5).blk t).view.emb j) 1)) := by
    show V c main_v54 (((cfg2.win 4).blk t).view.emb (ix2 (0 : Fin 1) (j 1))) = _
    refine congrArg (V c main_v54) (funext fun a => Fin.ext ?_)
    match a with
    | ⟨0, _⟩ => show win2_4.index t (0 : Fin 2) * 1 + 1 * 0 = 0; rw [e8]
    | ⟨1, _⟩ => show win2_4.index t (1 : Fin 2) * 128 + 1 * (j 1).val = win2_5.index t (1 : Fin 2) * 128 + 1 * (j 1).val; rw [e9, e11]
  have hS : iblk2 V c 1 t j = V c main_v40 (((cfg2.win 5).blk t).view.emb j) := by
    show V c main_v40 (((cfg2.win 1).blk t).view.emb j) = _
    refine congrArg (V c main_v40) (funext fun a => Fin.ext ?_)
    match a with
    | ⟨0, _⟩ => show win2_1.index t (0 : Fin 2) * 2000 + 1 * (j 0).val = win2_5.index t (0 : Fin 2) * 2000 + 1 * (j 0).val; rw [e2]
    | ⟨1, _⟩ => show win2_1.index t (1 : Fin 2) * 128 + 1 * (j 1).val = win2_5.index t (1 : Fin 2) * 128 + 1 * (j 1).val; rw [e3, e11]
  simp only [hA, hX, hL, hR, hB, hS]
  rfl

/-- Row r of the array is in the block of grid point r / 2000. -/
theorem rows_covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 25 := N_2
  let t : Fin cfg2.N := ⟨(i 0).val / 2000, by show (i 0).val / 2000 < grid2.N; omega⟩
  obtain ⟨-, -, -, -, -, -, -, -, -, -, e10, e11⟩ := block_rows t
  have ht : t.val = (i 0).val / 2000 := rfl
  refine ⟨t, flush2_5 t, ?_⟩
  show i ∈ ((View.whole main_v55).slice (win2_5.rect t)).set
  rw [View.set_slice_whole, Rect.mem_set_unit]
  intro a
  match a with
  | ⟨0, _⟩ => show win2_5.index t (0 : Fin 2) * 2000 ≤ (i 0).val ∧ (i 0).val < win2_5.index t (0 : Fin 2) * 2000 + 2000; rw [e10, ht]; omega
  | ⟨1, _⟩ => show win2_5.index t (1 : Fin 2) * 128 ≤ (i 1).val ∧ (i 1).val < win2_5.index t (1 : Fin 2) * 128 + 128; rw [e11]; omega

/-- The result array of launch 2 ends as the layer function of the arrays found on entry. -/
theorem result_array (c : Dev nD) : (dat2 V c).arrAt 5 cfg2.N = target V c :=
  (dat2 V c).arrAt_eq_of_cover 5 (target V c) (fun t _ => written_block V c t) (rows_covered)

end Cert.KernelIdeal.Whole.R2

end
-- ==== Proof.Output.lean ====
/-
  The output.

  Between the second and the third launch the host aggregates the second hidden array over the edges; the
  third launch finds that aggregate, the second hidden array, the third layer's weights and its bias as one
  row, and leaves the combination plus the second hidden array: the network's output.
-/
import proofs.«152251_j65377992180266_1_alg».proof.Proof.Hidden2
import proofs.«152251_j65377992180266_1_alg».proof.Proof.Region2Array

set_option maxRecDepth 65536

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## What launch 2 finds on entry, over the previous boundary's contents -/

set_option maxHeartbeats 4000000 in
theorem entry2_agg : W7 m ρ c (Proc.devRef .tc main_v53)
    = aggWith128 (W6 m ρ c (Proc.devRef .tc main_v40)) (W6 m ρ c (Proc.devRef .tc main_arg1)) (W6 m ρ c (Proc.devRef .tc main_arg2))
        (W6 m ρ c (Proc.devRef .tc main_v10)) := by
  after_results_simp
  unfold aggWith128 asIndexColumn wrapIdx
  rfl

set_option maxHeartbeats 4000000 in
theorem entry2_bias : W7 m ρ c (Proc.devRef .tc main_v54)
    = shapeCast S1x128 (W6 m ρ c (Proc.devRef .tc main_arg11)) shapeCasts_S128_S1x128 := by
  after_results_simp
  rfl

set_option maxHeartbeats 2000000 in
theorem entry2_x : W7 m ρ c (Proc.devRef .tc main_v40) = W6 m ρ c (Proc.devRef .tc main_v40) := by
  after_results_simp <;> rfl
set_option maxHeartbeats 2000000 in
theorem entry2_arg9 : W7 m ρ c (Proc.devRef .tc main_arg9) = W6 m ρ c (Proc.devRef .tc main_arg9) := by
  after_results_simp <;> rfl
set_option maxHeartbeats 2000000 in
theorem entry2_arg10 : W7 m ρ c (Proc.devRef .tc main_arg10) = W6 m ρ c (Proc.devRef .tc main_arg10) := by
  after_results_simp <;> rfl

/-- What launch 2 leaves in its result buffer. -/
theorem output_eq : W8 m ρ c (Proc.devRef .tc main_v55)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr m ρ c 5).trans ?_
  rw [R2.result_array]
  unfold R2.target net output
  show Cert.Sage.layerSkip (W7 m ρ c (Proc.devRef .tc main_v53)) (W7 m ρ c (Proc.devRef .tc main_v40))
      (W7 m ρ c (Proc.devRef .tc main_arg9)) (W7 m ρ c (Proc.devRef .tc main_arg10))
      (fun i => W7 m ρ c (Proc.devRef .tc main_v54) (ix2 (0 : Fin 1) (i 0))) = _
  rw [entry2_agg, entry2_x, entry2_arg9, entry2_arg10, entry2_bias, hidden2_eq,
    exit1_arg1, exit1_arg2, exit1_invDegree, exit1_arg9, exit1_arg10, exit1_arg11, row_view]

end Cert.KernelIdeal.Whole

end
-- ==== Proof.ReferenceRun.lean ====
/-
  The reference's run, as a straight line of host operations.

  The reference's @main is 93 host operations in order, the three called functions' operations standing in
  their calls' places. Each operation writes one buffer that no other operation writes and reads buffers
  written before it, so the line is a fold: the contents of every buffer after the line are the fold of
  the operations' results over the contents at launch. The line is cut at the two layer boundaries, after
  the operation that writes the first layer's result and after the one that writes the second's, so that
  the fold can be read one layer at a time. No operation writes an argument, so the twelve arguments hold
  at the end what they held at launch.
-/
import proofs.«152251_j65377992180266_1_alg».proof.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

/-- @main's 93 operations, in order (a called function's operations stand in its call's place). -/
abbrev ops : List (HloOp τ sig (Elt F)) :=
  [ nullary main_cst (constant S_ .f32 0x3F800000#32),
    unary main_cst main_v0 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S600000x1 ![0] bcast_S600000_S600000x1_0 : (⟨S600000, .i32⟩ : BufTy).Contents (Elt F) → (⟨S600000x1, .i32⟩ : BufTy).Contents (Elt F)),
    ternary main_v1 main_v2 main_v0 main_v3 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v6 (broadcastInDim S50000 ![] bcast_S_S50000 : (⟨S_, .f32⟩ : BufTy).Contents (Elt F) → (⟨S50000, .f32⟩ : BufTy).Contents (Elt F)),
    binary main_v3 main_v6 main_v7 (maximumf : (⟨S50000, .f32⟩ : BufTy).Contents (Elt F) → (⟨S50000, .f32⟩ : BufTy).Contents (Elt F) → (⟨S50000, .f32⟩ : BufTy).Contents (Elt F)),
    nullary main_cst_3 (constant S_ .f32 0x3F800000#32),
    unary main_cst_3 main_v8 (broadcastInDim S50000 ![] bcast_S_S50000 : (⟨S_, .f32⟩ : BufTy).Contents (Elt F) → (⟨S50000, .f32⟩ : BufTy).Contents (Elt F)),
    binary main_v8 main_v7 main_v9 (Host.divf : (⟨S50000, .f32⟩ : BufTy).Contents (Elt F) → (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v5) (TRef.of (T := ⟨S50000, .f32⟩) main_v9) (TRef.of (T := ⟨S50000, .f32⟩) main_call0_v1) (TRef.of (T := ⟨S50000, .f32⟩) main_v10) select,
    nullary main_c (constantI S_ 32 0#32),
    unary main_c main_v11 (broadcastInDim S600000 ![] bcast_S_S600000 : (⟨S_, .i32⟩ : BufTy).Contents (Elt F) → (⟨S600000, .i32⟩ : BufTy).Contents (Elt F)),
    binary main_arg1 main_v11 main_v12 (cmpi .slt : (⟨S600000, .i32⟩ : BufTy).Contents (Elt F) → (⟨S600000, .i32⟩ : BufTy).Contents (Elt F) → (⟨S600000, .i1⟩ : BufTy).Contents (Elt F)),
    nullary main_c_5 (constantI S_ 32 50000#32),
    unary main_c_5 main_v13 (broadcastInDim S600000 ![] bcast_S_S600000 : (⟨S_, .i32⟩ : BufTy).Contents (Elt F) → (⟨S600000, .i32⟩ : BufTy).Contents (Elt F)),
    binary main_arg1 main_v13 main_v14 (addi : (⟨S600000, .i32⟩ : BufTy).Contents (Elt F) → (⟨S600000, .i32⟩ : BufTy).Contents (Elt F) → (⟨S600000, .i32⟩ : BufTy).Contents (Elt F)),
    ternary main_v12 main_v14 main_arg1 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v15 main_v16 (broadcastInDim S600000x1 ![0] bcast_S600000_S600000x1_0 : (⟨S600000, .i32⟩ : BufTy).Contents (Elt F) → (⟨S600000x1, .i32⟩ : BufTy).Contents (Elt F)),
    binary main_arg0 main_v16 main_v17 ((fun x i => Host.gather gather_S50000x8_S600000x1_S600000x8_1_0_n_n_0_1_18 x i) : (⟨S50000x8, .f32⟩ : BufTy).Contents (Elt F) → (⟨S600000x1, .i32⟩ : BufTy).Contents (Elt F) → (⟨S600000x8, .f32⟩ : BufTy).Contents (Elt F)),
    nullary main_cst_6 (constant S_ .f32 0x00000000#32),
    unary main_cst_6 main_v18 (broadcastInDim S50000x8 ![] bcast_S_S50000x8 : (⟨S_, .f32⟩ : BufTy).Contents (Elt F) → (⟨S50000x8, .f32⟩ : BufTy).Contents (Elt F)),
    unary main_arg2 main_v19 (broadcastInDim S600000x1 ![0] bcast_S600000_S600000x1_0 : (⟨S600000, .i32⟩ : BufTy).Contents (Elt F) → (⟨S600000x1, .i32⟩ : BufTy).Contents (Elt F)),
    ternary main_v18 main_v19 main_v17 main_v20 ((fun x i u => Host.scatterAdd scatter_S50000x8_S600000x1_S600000x8_1_0_0_1 x i u) : (⟨S50000x8, .f32⟩ : BufTy).Contents (Elt F) → (⟨S600000x1, .i32⟩ : BufTy).Contents (Elt F) → (⟨S600000x8, .f32⟩ : BufTy).Contents (Elt F) → (⟨S50000x8, .f32⟩ : BufTy).Contents (Elt F)),
    unary main_v10 main_v21 (broadcastInDim S50000x1 ![0] bcast_S50000_S50000x1_0 : (⟨S50000, .f32⟩ : BufTy).Contents (Elt F) → (⟨S50000x1, .f32⟩ : BufTy).Contents (Elt F)),
    unary main_v21 main_v22 (broadcastInDim S50000x8 ![0, 1] bcast_S50000x1_S50000x8_0_1 : (⟨S50000x1, .f32⟩ : BufTy).Contents (Elt F) → (⟨S50000x8, .f32⟩ : BufTy).Contents (Elt F)),
    binary main_v20 main_v22 main_v23 (mulf : (⟨S50000x8, .f32⟩ : BufTy).Contents (Elt F) → (⟨S50000x8, .f32⟩ : BufTy).Contents (Elt F) → (⟨S50000x8, .f32⟩ : BufTy).Contents (Elt F)),
    binary main_v23 main_arg3 main_v24 ((fun l r => Host.dotGeneral dot_S50000x8_S8x128_S50000x128_1_0_0_1_n_n none l r) : (⟨S50000x8, .f32⟩ : BufTy).Contents (Elt F) → (⟨S8x128, .f32⟩ : BufTy).Contents (Elt F) → (⟨S50000x128, .f32⟩ : BufTy).Contents (Elt F)),
    unary main_arg5 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    binary main_arg0 main_arg4 main_v28 ((fun l r => Host.dotGeneral dot_S50000x8_S8x128_S50000x128_1_0_0_1_n_n none l r) : (⟨S50000x8, .f32⟩ : BufTy).Contents (Elt F) → (⟨S8x128, .f32⟩ : BufTy).Contents (Elt F) → (⟨S50000x128, .f32⟩ : BufTy).Contents (Elt F)),
    binary main_v27 main_v28 main_v29 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v29) (TRef.of (T := ⟨S50000x128, .f32⟩) main_call1_v0) (TRef.of (T := ⟨S50000x128, .f32⟩) main_v30) maximumf,
    nullary main_c_7 (constantI S_ 32 0#32),
    unary main_c_7 main_v31 (broadcastInDim S600000 ![] bcast_S_S600000 : (⟨S_, .i32⟩ : BufTy).Contents (Elt F) → (⟨S600000, .i32⟩ : BufTy).Contents (Elt F)),
    binary main_arg1 main_v31 main_v32 (cmpi .slt : (⟨S600000, .i32⟩ : BufTy).Contents (Elt F) → (⟨S600000, .i32⟩ : BufTy).Contents (Elt F) → (⟨S600000, .i1⟩ : BufTy).Contents (Elt F)),
    nullary main_c_8 (constantI S_ 32 50000#32),
    unary main_c_8 main_v33 (broadcastInDim S600000 ![] bcast_S_S600000 : (⟨S_, .i32⟩ : BufTy).Contents (Elt F) → (⟨S600000, .i32⟩ : BufTy).Contents (Elt F)),
    binary main_arg1 main_v33 main_v34 (addi : (⟨S600000, .i32⟩ : BufTy).Contents (Elt F) → (⟨S600000, .i32⟩ : BufTy).Contents (Elt F) → (⟨S600000, .i32⟩ : BufTy).Contents (Elt F)),
    ternary main_v32 main_v34 main_arg1 main_v35 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v35 main_v36 (broadcastInDim S600000x1 ![0] bcast_S600000_S600000x1_0 : (⟨S600000, .i32⟩ : BufTy).Contents (Elt F) → (⟨S600000x1, .i32⟩ : BufTy).Contents (Elt F)),
    binary main_v30 main_v36 main_v37 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_9 (constant S_ .f32 0x00000000#32),
    unary main_cst_9 main_v38 (broadcastInDim S50000x128 ![] bcast_S_S50000x128 : (⟨S_, .f32⟩ : BufTy).Contents (Elt F) → (⟨S50000x128, .f32⟩ : BufTy).Contents (Elt F)),
    unary main_arg2 main_v39 (broadcastInDim S600000x1 ![0] bcast_S600000_S600000x1_0 : (⟨S600000, .i32⟩ : BufTy).Contents (Elt F) → (⟨S600000x1, .i32⟩ : BufTy).Contents (Elt F)),
    ternary main_v38 main_v39 main_v37 main_v40 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v10 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x128 ![0, 1] bcast_S50000x1_S50000x128_0_1 : (⟨S50000x1, .f32⟩ : BufTy).Contents (Elt F) → (⟨S50000x128, .f32⟩ : BufTy).Contents (Elt F)),
    binary main_v40 main_v42 main_v43 (mulf : (⟨S50000x128, .f32⟩ : BufTy).Contents (Elt F) → (⟨S50000x128, .f32⟩ : BufTy).Contents (Elt F) → (⟨S50000x128, .f32⟩ : BufTy).Contents (Elt F)),
    binary main_v43 main_arg6 main_v44 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    binary main_v30 main_arg7 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v47 main_v48 main_v49 (addf : (⟨S50000x128, .f32⟩ : BufTy).Contents (Elt F) → (⟨S50000x128, .f32⟩ : BufTy).Contents (Elt F) → (⟨S50000x128, .f32⟩ : BufTy).Contents (Elt F)),
    binary main_v49 main_v30 main_v50 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v50) (TRef.of (T := ⟨S50000x128, .f32⟩) main_call2_v0) (TRef.of (T := ⟨S50000x128, .f32⟩) main_v51) maximumf,
    nullary main_c_10 (constantI S_ 32 0#32),
    unary main_c_10 main_v52 (broadcastInDim S600000 ![] bcast_S_S600000 : (⟨S_, .i32⟩ : BufTy).Contents (Elt F) → (⟨S600000, .i32⟩ : BufTy).Contents (Elt F)),
    binary main_arg1 main_v52 main_v53 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v54 (broadcastInDim S600000 ![] bcast_S_S600000 : (⟨S_, .i32⟩ : BufTy).Contents (Elt F) → (⟨S600000, .i32⟩ : BufTy).Contents (Elt F)),
    binary main_arg1 main_v54 main_v55 (addi : (⟨S600000, .i32⟩ : BufTy).Contents (Elt F) → (⟨S600000, .i32⟩ : BufTy).Contents (Elt F) → (⟨S600000, .i32⟩ : BufTy).Contents (Elt F)),
    ternary main_v53 main_v55 main_arg1 main_v56 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v56 main_v57 (broadcastInDim S600000x1 ![0] bcast_S600000_S600000x1_0 : (⟨S600000, .i32⟩ : BufTy).Contents (Elt F) → (⟨S600000x1, .i32⟩ : BufTy).Contents (Elt F)),
    binary main_v51 main_v57 main_v58 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_12 (constant S_ .f32 0x00000000#32),
    unary main_cst_12 main_v59 (broadcastInDim S50000x128 ![] bcast_S_S50000x128 : (⟨S_, .f32⟩ : BufTy).Contents (Elt F) → (⟨S50000x128, .f32⟩ : BufTy).Contents (Elt F)),
    unary main_arg2 main_v60 (broadcastInDim S600000x1 ![0] bcast_S600000_S600000x1_0 : (⟨S600000, .i32⟩ : BufTy).Contents (Elt F) → (⟨S600000x1, .i32⟩ : BufTy).Contents (Elt F)),
    ternary main_v59 main_v60 main_v58 main_v61 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v10 main_v62 (broadcastInDim S50000x1 ![0] bcast_S50000_S50000x1_0 : (⟨S50000, .f32⟩ : BufTy).Contents (Elt F) → (⟨S50000x1, .f32⟩ : BufTy).Contents (Elt F)),
    unary main_v62 main_v63 (broadcastInDim S50000x128 ![0, 1] bcast_S50000x1_S50000x128_0_1 : (⟨S50000x1, .f32⟩ : BufTy).Contents (Elt F) → (⟨S50000x128, .f32⟩ : BufTy).Contents (Elt F)),
    binary main_v61 main_v63 main_v64 (mulf : (⟨S50000x128, .f32⟩ : BufTy).Contents (Elt F) → (⟨S50000x128, .f32⟩ : BufTy).Contents (Elt F) → (⟨S50000x128, .f32⟩ : BufTy).Contents (Elt F)),
    binary main_v64 main_arg9 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v65 main_v67 main_v68 (addf : (⟨S50000x128, .f32⟩ : BufTy).Contents (Elt F) → (⟨S50000x128, .f32⟩ : BufTy).Contents (Elt F) → (⟨S50000x128, .f32⟩ : BufTy).Contents (Elt F)),
    binary main_v51 main_arg10 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v68 main_v69 main_v70 (addf : (⟨S50000x128, .f32⟩ : BufTy).Contents (Elt F) → (⟨S50000x128, .f32⟩ : BufTy).Contents (Elt F) → (⟨S50000x128, .f32⟩ : BufTy).Contents (Elt F)),
    binary main_v70 main_v51 main_v71 (addf : (⟨S50000x128, .f32⟩ : BufTy).Contents (Elt F) → (⟨S50000x128, .f32⟩ : BufTy).Contents (Elt F) → (⟨S50000x128, .f32⟩ : BufTy).Contents (Elt F)) ]

/-- The first layer: the degrees and their inverses, the first aggregation, the first combination and its clamp
    (operations 1 to 44, the last writing the first layer's result). -/
abbrev ops1 : List (HloOp τ sig (Elt F)) :=
  [ nullary main_cst (constant S_ .f32 0x3F800000#32),
    unary main_cst main_v0 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S600000x1 ![0] bcast_S600000_S600000x1_0 : (⟨S600000, .i32⟩ : BufTy).Contents (Elt F) → (⟨S600000x1, .i32⟩ : BufTy).Contents (Elt F)),
    ternary main_v1 main_v2 main_v0 main_v3 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v6 (broadcastInDim S50000 ![] bcast_S_S50000 : (⟨S_, .f32⟩ : BufTy).Contents (Elt F) → (⟨S50000, .f32⟩ : BufTy).Contents (Elt F)),
    binary main_v3 main_v6 main_v7 (maximumf : (⟨S50000, .f32⟩ : BufTy).Contents (Elt F) → (⟨S50000, .f32⟩ : BufTy).Contents (Elt F) → (⟨S50000, .f32⟩ : BufTy).Contents (Elt F)),
    nullary main_cst_3 (constant S_ .f32 0x3F800000#32),
    unary main_cst_3 main_v8 (broadcastInDim S50000 ![] bcast_S_S50000 : (⟨S_, .f32⟩ : BufTy).Contents (Elt F) → (⟨S50000, .f32⟩ : BufTy).Contents (Elt F)),
    binary main_v8 main_v7 main_v9 (Host.divf : (⟨S50000, .f32⟩ : BufTy).Contents (Elt F) → (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v5) (TRef.of (T := ⟨S50000, .f32⟩) main_v9) (TRef.of (T := ⟨S50000, .f32⟩) main_call0_v1) (TRef.of (T := ⟨S50000, .f32⟩) main_v10) select,
    nullary main_c (constantI S_ 32 0#32),
    unary main_c main_v11 (broadcastInDim S600000 ![] bcast_S_S600000 : (⟨S_, .i32⟩ : BufTy).Contents (Elt F) → (⟨S600000, .i32⟩ : BufTy).Contents (Elt F)),
    binary main_arg1 main_v11 main_v12 (cmpi .slt : (⟨S600000, .i32⟩ : BufTy).Contents (Elt F) → (⟨S600000, .i32⟩ : BufTy).Contents (Elt F) → (⟨S600000, .i1⟩ : BufTy).Contents (Elt F)),
    nullary main_c_5 (constantI S_ 32 50000#32),
    unary main_c_5 main_v13 (broadcastInDim S600000 ![] bcast_S_S600000 : (⟨S_, .i32⟩ : BufTy).Contents (Elt F) → (⟨S600000, .i32⟩ : BufTy).Contents (Elt F)),
    binary main_arg1 main_v13 main_v14 (addi : (⟨S600000, .i32⟩ : BufTy).Contents (Elt F) → (⟨S600000, .i32⟩ : BufTy).Contents (Elt F) → (⟨S600000, .i32⟩ : BufTy).Contents (Elt F)),
    ternary main_v12 main_v14 main_arg1 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v15 main_v16 (broadcastInDim S600000x1 ![0] bcast_S600000_S600000x1_0 : (⟨S600000, .i32⟩ : BufTy).Contents (Elt F) → (⟨S600000x1, .i32⟩ : BufTy).Contents (Elt F)),
    binary main_arg0 main_v16 main_v17 ((fun x i => Host.gather gather_S50000x8_S600000x1_S600000x8_1_0_n_n_0_1_18 x i) : (⟨S50000x8, .f32⟩ : BufTy).Contents (Elt F) → (⟨S600000x1, .i32⟩ : BufTy).Contents (Elt F) → (⟨S600000x8, .f32⟩ : BufTy).Contents (Elt F)),
    nullary main_cst_6 (constant S_ .f32 0x00000000#32),
    unary main_cst_6 main_v18 (broadcastInDim S50000x8 ![] bcast_S_S50000x8 : (⟨S_, .f32⟩ : BufTy).Contents (Elt F) → (⟨S50000x8, .f32⟩ : BufTy).Contents (Elt F)),
    unary main_arg2 main_v19 (broadcastInDim S600000x1 ![0] bcast_S600000_S600000x1_0 : (⟨S600000, .i32⟩ : BufTy).Contents (Elt F) → (⟨S600000x1, .i32⟩ : BufTy).Contents (Elt F)),
    ternary main_v18 main_v19 main_v17 main_v20 ((fun x i u => Host.scatterAdd scatter_S50000x8_S600000x1_S600000x8_1_0_0_1 x i u) : (⟨S50000x8, .f32⟩ : BufTy).Contents (Elt F) → (⟨S600000x1, .i32⟩ : BufTy).Contents (Elt F) → (⟨S600000x8, .f32⟩ : BufTy).Contents (Elt F) → (⟨S50000x8, .f32⟩ : BufTy).Contents (Elt F)),
    unary main_v10 main_v21 (broadcastInDim S50000x1 ![0] bcast_S50000_S50000x1_0 : (⟨S50000, .f32⟩ : BufTy).Contents (Elt F) → (⟨S50000x1, .f32⟩ : BufTy).Contents (Elt F)),
    unary main_v21 main_v22 (broadcastInDim S50000x8 ![0, 1] bcast_S50000x1_S50000x8_0_1 : (⟨S50000x1, .f32⟩ : BufTy).Contents (Elt F) → (⟨S50000x8, .f32⟩ : BufTy).Contents (Elt F)),
    binary main_v20 main_v22 main_v23 (mulf : (⟨S50000x8, .f32⟩ : BufTy).Contents (Elt F) → (⟨S50000x8, .f32⟩ : BufTy).Contents (Elt F) → (⟨S50000x8, .f32⟩ : BufTy).Contents (Elt F)),
    binary main_v23 main_arg3 main_v24 ((fun l r => Host.dotGeneral dot_S50000x8_S8x128_S50000x128_1_0_0_1_n_n none l r) : (⟨S50000x8, .f32⟩ : BufTy).Contents (Elt F) → (⟨S8x128, .f32⟩ : BufTy).Contents (Elt F) → (⟨S50000x128, .f32⟩ : BufTy).Contents (Elt F)),
    unary main_arg5 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    binary main_arg0 main_arg4 main_v28 ((fun l r => Host.dotGeneral dot_S50000x8_S8x128_S50000x128_1_0_0_1_n_n none l r) : (⟨S50000x8, .f32⟩ : BufTy).Contents (Elt F) → (⟨S8x128, .f32⟩ : BufTy).Contents (Elt F) → (⟨S50000x128, .f32⟩ : BufTy).Contents (Elt F)),
    binary main_v27 main_v28 main_v29 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v29) (TRef.of (T := ⟨S50000x128, .f32⟩) main_call1_v0) (TRef.of (T := ⟨S50000x128, .f32⟩) main_v30) maximumf ]

/-- The second layer: the aggregation of the first layer's result, the combination and its clamp
    (operations 45 to 70, the last writing the second layer's result). -/
abbrev ops2 : List (HloOp τ sig (Elt F)) :=
  [ nullary main_c_7 (constantI S_ 32 0#32),
    unary main_c_7 main_v31 (broadcastInDim S600000 ![] bcast_S_S600000 : (⟨S_, .i32⟩ : BufTy).Contents (Elt F) → (⟨S600000, .i32⟩ : BufTy).Contents (Elt F)),
    binary main_arg1 main_v31 main_v32 (cmpi .slt : (⟨S600000, .i32⟩ : BufTy).Contents (Elt F) → (⟨S600000, .i32⟩ : BufTy).Contents (Elt F) → (⟨S600000, .i1⟩ : BufTy).Contents (Elt F)),
    nullary main_c_8 (constantI S_ 32 50000#32),
    unary main_c_8 main_v33 (broadcastInDim S600000 ![] bcast_S_S600000 : (⟨S_, .i32⟩ : BufTy).Contents (Elt F) → (⟨S600000, .i32⟩ : BufTy).Contents (Elt F)),
    binary main_arg1 main_v33 main_v34 (addi : (⟨S600000, .i32⟩ : BufTy).Contents (Elt F) → (⟨S600000, .i32⟩ : BufTy).Contents (Elt F) → (⟨S600000, .i32⟩ : BufTy).Contents (Elt F)),
    ternary main_v32 main_v34 main_arg1 main_v35 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v35 main_v36 (broadcastInDim S600000x1 ![0] bcast_S600000_S600000x1_0 : (⟨S600000, .i32⟩ : BufTy).Contents (Elt F) → (⟨S600000x1, .i32⟩ : BufTy).Contents (Elt F)),
    binary main_v30 main_v36 main_v37 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_9 (constant S_ .f32 0x00000000#32),
    unary main_cst_9 main_v38 (broadcastInDim S50000x128 ![] bcast_S_S50000x128 : (⟨S_, .f32⟩ : BufTy).Contents (Elt F) → (⟨S50000x128, .f32⟩ : BufTy).Contents (Elt F)),
    unary main_arg2 main_v39 (broadcastInDim S600000x1 ![0] bcast_S600000_S600000x1_0 : (⟨S600000, .i32⟩ : BufTy).Contents (Elt F) → (⟨S600000x1, .i32⟩ : BufTy).Contents (Elt F)),
    ternary main_v38 main_v39 main_v37 main_v40 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v10 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x128 ![0, 1] bcast_S50000x1_S50000x128_0_1 : (⟨S50000x1, .f32⟩ : BufTy).Contents (Elt F) → (⟨S50000x128, .f32⟩ : BufTy).Contents (Elt F)),
    binary main_v40 main_v42 main_v43 (mulf : (⟨S50000x128, .f32⟩ : BufTy).Contents (Elt F) → (⟨S50000x128, .f32⟩ : BufTy).Contents (Elt F) → (⟨S50000x128, .f32⟩ : BufTy).Contents (Elt F)),
    binary main_v43 main_arg6 main_v44 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    binary main_v30 main_arg7 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v47 main_v48 main_v49 (addf : (⟨S50000x128, .f32⟩ : BufTy).Contents (Elt F) → (⟨S50000x128, .f32⟩ : BufTy).Contents (Elt F) → (⟨S50000x128, .f32⟩ : BufTy).Contents (Elt F)),
    binary main_v49 main_v30 main_v50 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v50) (TRef.of (T := ⟨S50000x128, .f32⟩) main_call2_v0) (TRef.of (T := ⟨S50000x128, .f32⟩) main_v51) maximumf ]

/-- The third layer: the aggregation of the second layer's result and the combination
    (operations 71 to 93, the last writing the result). -/
abbrev ops3 : List (HloOp τ sig (Elt F)) :=
  [ nullary main_c_10 (constantI S_ 32 0#32),
    unary main_c_10 main_v52 (broadcastInDim S600000 ![] bcast_S_S600000 : (⟨S_, .i32⟩ : BufTy).Contents (Elt F) → (⟨S600000, .i32⟩ : BufTy).Contents (Elt F)),
    binary main_arg1 main_v52 main_v53 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v54 (broadcastInDim S600000 ![] bcast_S_S600000 : (⟨S_, .i32⟩ : BufTy).Contents (Elt F) → (⟨S600000, .i32⟩ : BufTy).Contents (Elt F)),
    binary main_arg1 main_v54 main_v55 (addi : (⟨S600000, .i32⟩ : BufTy).Contents (Elt F) → (⟨S600000, .i32⟩ : BufTy).Contents (Elt F) → (⟨S600000, .i32⟩ : BufTy).Contents (Elt F)),
    ternary main_v53 main_v55 main_arg1 main_v56 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v56 main_v57 (broadcastInDim S600000x1 ![0] bcast_S600000_S600000x1_0 : (⟨S600000, .i32⟩ : BufTy).Contents (Elt F) → (⟨S600000x1, .i32⟩ : BufTy).Contents (Elt F)),
    binary main_v51 main_v57 main_v58 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_12 (constant S_ .f32 0x00000000#32),
    unary main_cst_12 main_v59 (broadcastInDim S50000x128 ![] bcast_S_S50000x128 : (⟨S_, .f32⟩ : BufTy).Contents (Elt F) → (⟨S50000x128, .f32⟩ : BufTy).Contents (Elt F)),
    unary main_arg2 main_v60 (broadcastInDim S600000x1 ![0] bcast_S600000_S600000x1_0 : (⟨S600000, .i32⟩ : BufTy).Contents (Elt F) → (⟨S600000x1, .i32⟩ : BufTy).Contents (Elt F)),
    ternary main_v59 main_v60 main_v58 main_v61 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v10 main_v62 (broadcastInDim S50000x1 ![0] bcast_S50000_S50000x1_0 : (⟨S50000, .f32⟩ : BufTy).Contents (Elt F) → (⟨S50000x1, .f32⟩ : BufTy).Contents (Elt F)),
    unary main_v62 main_v63 (broadcastInDim S50000x128 ![0, 1] bcast_S50000x1_S50000x128_0_1 : (⟨S50000x1, .f32⟩ : BufTy).Contents (Elt F) → (⟨S50000x128, .f32⟩ : BufTy).Contents (Elt F)),
    binary main_v61 main_v63 main_v64 (mulf : (⟨S50000x128, .f32⟩ : BufTy).Contents (Elt F) → (⟨S50000x128, .f32⟩ : BufTy).Contents (Elt F) → (⟨S50000x128, .f32⟩ : BufTy).Contents (Elt F)),
    binary main_v64 main_arg9 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v65 main_v67 main_v68 (addf : (⟨S50000x128, .f32⟩ : BufTy).Contents (Elt F) → (⟨S50000x128, .f32⟩ : BufTy).Contents (Elt F) → (⟨S50000x128, .f32⟩ : BufTy).Contents (Elt F)),
    binary main_v51 main_arg10 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v68 main_v69 main_v70 (addf : (⟨S50000x128, .f32⟩ : BufTy).Contents (Elt F) → (⟨S50000x128, .f32⟩ : BufTy).Contents (Elt F) → (⟨S50000x128, .f32⟩ : BufTy).Contents (Elt F)),
    binary main_v70 main_v51 main_v71 (addf : (⟨S50000x128, .f32⟩ : BufTy).Contents (Elt F) → (⟨S50000x128, .f32⟩ : BufTy).Contents (Elt F) → (⟨S50000x128, .f32⟩ : BufTy).Contents (Elt F)) ]

/-- The line is its three layers in a row. -/
theorem ops_split : (ops (F := F)) = ops1 ++ (ops2 ++ ops3) := rfl

set_option maxRecDepth 8192 in
set_option maxHeartbeats 4000000 in
/-- @main is the line run in order. -/
theorem main_eq (c : Dev nD) : main (F := F) c = seq ops := rfl

/-- The signature scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

set_option maxRecDepth 8192 in
/-- Every operation touches buffers of the core only. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub .., binary_bufs_sub ..⟩

set_option maxRecDepth 8192 in
set_option maxHeartbeats 4000000 in
/-- On every device, for any float values, from any memory with zero counters: every weakly fair execution of
    @main terminates, and every buffer ends at the fold of the line over the contents at launch. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

/-! ## The arguments are not written -/

set_option maxRecDepth 8192

/-- No operation writes argument 0: it holds after the line what it held before. -/
theorem arg0_kept (V : Valuation τ sig (Elt F)) :
    after (ops (F := F)) V (Proc.devRef .tc main_arg0) = V (Proc.devRef .tc main_arg0) := by
  after_results_simp

/-- No operation writes argument 1: it holds after the line what it held before. -/
theorem arg1_kept (V : Valuation τ sig (Elt F)) :
    after (ops (F := F)) V (Proc.devRef .tc main_arg1) = V (Proc.devRef .tc main_arg1) := by
  after_results_simp

/-- No operation writes argument 2: it holds after the line what it held before. -/
theorem arg2_kept (V : Valuation τ sig (Elt F)) :
    after (ops (F := F)) V (Proc.devRef .tc main_arg2) = V (Proc.devRef .tc main_arg2) := by
  after_results_simp

/-- No operation writes argument 3: it holds after the line what it held before. -/
theorem arg3_kept (V : Valuation τ sig (Elt F)) :
    after (ops (F := F)) V (Proc.devRef .tc main_arg3) = V (Proc.devRef .tc main_arg3) := by
  after_results_simp

/-- No operation writes argument 4: it holds after the line what it held before. -/
theorem arg4_kept (V : Valuation τ sig (Elt F)) :
    after (ops (F := F)) V (Proc.devRef .tc main_arg4) = V (Proc.devRef .tc main_arg4) := by
  after_results_simp

/-- No operation writes argument 5: it holds after the line what it held before. -/
theorem arg5_kept (V : Valuation τ sig (Elt F)) :
    after (ops (F := F)) V (Proc.devRef .tc main_arg5) = V (Proc.devRef .tc main_arg5) := by
  after_results_simp

/-- No operation writes argument 6: it holds after the line what it held before. -/
theorem arg6_kept (V : Valuation τ sig (Elt F)) :
    after (ops (F := F)) V (Proc.devRef .tc main_arg6) = V (Proc.devRef .tc main_arg6) := by
  after_results_simp

/-- No operation writes argument 7: it holds after the line what it held before. -/
theorem arg7_kept (V : Valuation τ sig (Elt F)) :
    after (ops (F := F)) V (Proc.devRef .tc main_arg7) = V (Proc.devRef .tc main_arg7) := by
  after_results_simp

/-- No operation writes argument 8: it holds after the line what it held before. -/
theorem arg8_kept (V : Valuation τ sig (Elt F)) :
    after (ops (F := F)) V (Proc.devRef .tc main_arg8) = V (Proc.devRef .tc main_arg8) := by
  after_results_simp

/-- No operation writes argument 9: it holds after the line what it held before. -/
theorem arg9_kept (V : Valuation τ sig (Elt F)) :
    after (ops (F := F)) V (Proc.devRef .tc main_arg9) = V (Proc.devRef .tc main_arg9) := by
  after_results_simp

/-- No operation writes argument 10: it holds after the line what it held before. -/
theorem arg10_kept (V : Valuation τ sig (Elt F)) :
    after (ops (F := F)) V (Proc.devRef .tc main_arg10) = V (Proc.devRef .tc main_arg10) := by
  after_results_simp

/-- No operation writes argument 11: it holds after the line what it held before. -/
theorem arg11_kept (V : Valuation τ sig (Elt F)) :
    after (ops (F := F)) V (Proc.devRef .tc main_arg11) = V (Proc.devRef .tc main_arg11) := by
  after_results_simp

/-- Every weakly fair execution of @main terminates with the twelve arguments unchanged. -/
theorem frame_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_arg0).trans (arg0_kept (launchContents m c)),
      (h c main_arg1).trans (arg1_kept (launchContents m c)),
      (h c main_arg2).trans (arg2_kept (launchContents m c)),
      (h c main_arg3).trans (arg3_kept (launchContents m c)),
      (h c main_arg4).trans (arg4_kept (launchContents m c)),
      (h c main_arg5).trans (arg5_kept (launchContents m c)),
      (h c main_arg6).trans (arg6_kept (launchContents m c)),
      (h c main_arg7).trans (arg7_kept (launchContents m c)),
      (h c main_arg8).trans (arg8_kept (launchContents m c)),
      (h c main_arg9).trans (arg9_kept (launchContents m c)),
      (h c main_arg10).trans (arg10_kept (launchContents m c)),
      (h c main_arg11).trans (arg11_kept (launchContents m c))⟩)
    (run m ρ)

end Cert.ReferenceIdeal.Hand

end
-- ==== Proof.ReferenceLayer.lean ====
/-
  The reference's three layer expressions, read index by index.

  Each layer of the reference is written over whole arrays: the product of the aggregated features with
  the first weight matrix, plus the bias laid along every row, plus the product of the node features with
  the second weight matrix; the second and third layers add the node features themselves, and the first
  two end with the maximum against an array of zeros. Read at node r and channel c, a product is the sum
  over the contracted coordinate k of the entries' products, the bias laid along the rows is its entry c,
  and the array of zeros is 0. So each expression is the layer function of the specification, once the
  bias is moved past the second product: (p + β) + q = (p + q) + β, which holds on the extended reals
  whatever is infinite.
-/
import proofs.«152251_j65377992180266_1_alg».proof.Proof.Spec
import proofs.«152251_j65377992180266_1_alg».proof.ReferenceIdeal
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.Hand

open Idealize.ShloMosaic Idealize.ShloMosaic.ValueIdx Idealize.ShloMosaic.StackMember
open Cert.ReferenceIdeal Cert.ReferenceIdeal.Facts₀ Cert.Sage

variable [Facts₀]

/-! ## The pieces at an index -/

/-- The product of a [50000, 8] array with an [8, 128] matrix, at node r and channel c, is the sum over
    the eight contracted coordinates of the entries' products. -/
theorem dot8_apply (a : Mat 50000 8) (w : Mat 8 128) (i : S50000x128.Idx) :
    Host.dotGeneral dot_S50000x8_S8x128_S50000x128_1_0_0_1_n_n none a w i
      = ∑ k : Fin 8, a (ix2 (i 0) k) * w (ix2 k (i 1)) := by
  obtain ⟨r, c, rfl⟩ : ∃ (r : Fin 50000) (c : Fin 128), i = ix2 r c := ⟨i 0, i 1, eq_ix2 i⟩
  exact dotGeneral_plain_apply (m := 50000) (n := 128) (k := 8) none a w r c

/-- The product of a [50000, 128] array with a [128, 128] matrix, at node r and channel c, is the sum
    over the 128 contracted coordinates of the entries' products. -/
theorem dot128_apply (a : Mat 50000 128) (w : Mat 128 128) (i : S50000x128.Idx) :
    Host.dotGeneral dot_S50000x128_S128x128_S50000x128_1_0_0_1_n_n none a w i
      = ∑ k : Fin 128, a (ix2 (i 0) k) * w (ix2 k (i 1)) := by
  obtain ⟨r, c, rfl⟩ : ∃ (r : Fin 50000) (c : Fin 128), i = ix2 r c := ⟨i 0, i 1, eq_ix2 i⟩
  exact dotGeneral_plain_apply (m := 50000) (n := 128) (k := 128) none a w r c

/-- The bias made one row and then laid along every row, at node r and channel c, is its entry c. -/
theorem bias_apply (b : Row 128) (i : S50000x128.Idx) :
    broadcastInDim S50000x128 ![0, 1] bcast_S1x128_S50000x128_0_1
        (broadcastInDim S1x128 ![1] bcast_S128_S1x128_1 b) i = b (ix1 (i 1)) := by
  have e1 := broadcastInDim_apply ![0, 1] bcast_S1x128_S50000x128_0_1
    (broadcastInDim S1x128 ![1] bcast_S128_S1x128_1 b) i (ix2 (0 : Fin 1) (i 1 : Fin 128)) (by
      intro a
      match a with
      | ⟨0, _⟩ => rfl
      | ⟨1, _⟩ => rfl)
  have e2 := broadcastInDim_apply ![1] bcast_S128_S1x128_1 b (ix2 (0 : Fin 1) (i 1 : Fin 128))
    (ix1 (i 1 : Fin 128)) (by
      intro a
      match a with
      | ⟨0, _⟩ => rfl)
  exact e1.trans e2

/-- The zero scalar laid over the whole [50000, 128] array is 0 at every index. -/
theorem zeros_apply (i : S50000x128.Idx) :
    broadcastInDim S50000x128 ![] bcast_S_S50000x128 (constant (F := Ideal) S_ .f32 0x00000000#32) i = 0 := by
  have e := broadcastInDim_apply ![] bcast_S_S50000x128 (constant (F := Ideal) S_ .f32 0x00000000#32) i ix0
    (fun a => a.elim0)
  exact e.trans Ideal.ofBits_zero_f32

/-! ## The three layers -/

/-- The first layer of the reference is the clamped combination of the specification. -/
theorem layer1 (a x : Mat 50000 8) (wl wr : Mat 8 128) (b : Row 128) :
    maximumf
        (addf
          (addf (Host.dotGeneral dot_S50000x8_S8x128_S50000x128_1_0_0_1_n_n none a wl)
            (broadcastInDim S50000x128 ![0, 1] bcast_S1x128_S50000x128_0_1
              (broadcastInDim S1x128 ![1] bcast_S128_S1x128_1 b)))
          (Host.dotGeneral dot_S50000x8_S8x128_S50000x128_1_0_0_1_n_n none x wr))
        (broadcastInDim S50000x128 ![] bcast_S_S50000x128 (constant (F := Ideal) S_ .f32 0x00000000#32))
      = layerClamp a x wl wr b := by
  funext i
  show max ((Host.dotGeneral dot_S50000x8_S8x128_S50000x128_1_0_0_1_n_n none a wl i
        + broadcastInDim S50000x128 ![0, 1] bcast_S1x128_S50000x128_0_1
            (broadcastInDim S1x128 ![1] bcast_S128_S1x128_1 b) i)
      + Host.dotGeneral dot_S50000x8_S8x128_S50000x128_1_0_0_1_n_n none x wr i)
      (broadcastInDim S50000x128 ![] bcast_S_S50000x128 (constant (F := Ideal) S_ .f32 0x00000000#32) i)
    = max (((∑ k : Fin 8, a (ix2 (i 0) k) * wl (ix2 k (i 1))) + ∑ k : Fin 8, x (ix2 (i 0) k) * wr (ix2 k (i 1)))
        + b (ix1 (i 1))) 0
  rw [dot8_apply, dot8_apply, bias_apply, zeros_apply, add_bias_comm]

/-- The second layer of the reference is the specification's combination with the node's own features
    added, clamped. -/
theorem layer2 (a x : Mat 50000 128) (wl wr : Mat 128 128) (b : Row 128) :
    maximumf
        (addf
          (addf
            (addf (Host.dotGeneral dot_S50000x128_S128x128_S50000x128_1_0_0_1_n_n none a wl)
              (broadcastInDim S50000x128 ![0, 1] bcast_S1x128_S50000x128_0_1
                (broadcastInDim S1x128 ![1] bcast_S128_S1x128_1 b)))
            (Host.dotGeneral dot_S50000x128_S128x128_S50000x128_1_0_0_1_n_n none x wr))
          x)
        (broadcastInDim S50000x128 ![] bcast_S_S50000x128 (constant (F := Ideal) S_ .f32 0x00000000#32))
      = layerSkipClamp a x wl wr b := by
  funext i
  show max (((Host.dotGeneral dot_S50000x128_S128x128_S50000x128_1_0_0_1_n_n none a wl i
          + broadcastInDim S50000x128 ![0, 1] bcast_S1x128_S50000x128_0_1
              (broadcastInDim S1x128 ![1] bcast_S128_S1x128_1 b) i)
        + Host.dotGeneral dot_S50000x128_S128x128_S50000x128_1_0_0_1_n_n none x wr i)
        + x i)
      (broadcastInDim S50000x128 ![] bcast_S_S50000x128 (constant (F := Ideal) S_ .f32 0x00000000#32) i)
    = max ((((∑ k : Fin 128, a (ix2 (i 0) k) * wl (ix2 k (i 1))) + ∑ k : Fin 128, x (ix2 (i 0) k) * wr (ix2 k (i 1)))
        + b (ix1 (i 1))) + x i) 0
  rw [dot128_apply, dot128_apply, bias_apply, zeros_apply, add_bias_comm (∑ k : Fin 128, a (ix2 (i 0) k) * wl (ix2 k (i 1)))
    (∑ k : Fin 128, x (ix2 (i 0) k) * wr (ix2 k (i 1))) (b (ix1 (i 1)))]

/-- The third layer of the reference is the specification's combination with the node's own features
    added, not clamped. -/
theorem layer3 (a x : Mat 50000 128) (wl wr : Mat 128 128) (b : Row 128) :
    addf
        (addf
          (addf (Host.dotGeneral dot_S50000x128_S128x128_S50000x128_1_0_0_1_n_n none a wl)
            (broadcastInDim S50000x128 ![0, 1] bcast_S1x128_S50000x128_0_1
              (broadcastInDim S1x128 ![1] bcast_S128_S1x128_1 b)))
          (Host.dotGeneral dot_S50000x128_S128x128_S50000x128_1_0_0_1_n_n none x wr))
        x
      = layerSkip a x wl wr b := by
  funext i
  show ((Host.dotGeneral dot_S50000x128_S128x128_S50000x128_1_0_0_1_n_n none a wl i
          + broadcastInDim S50000x128 ![0, 1] bcast_S1x128_S50000x128_0_1
              (broadcastInDim S1x128 ![1] bcast_S128_S1x128_1 b) i)
        + Host.dotGeneral dot_S50000x128_S128x128_S50000x128_1_0_0_1_n_n none x wr i)
      + x i
    = (((∑ k : Fin 128, a (ix2 (i 0) k) * wl (ix2 k (i 1))) + ∑ k : Fin 128, x (ix2 (i 0) k) * wr (ix2 k (i 1)))
        + b (ix1 (i 1))) + x i
  rw [dot128_apply, dot128_apply, bias_apply, add_bias_comm (∑ k : Fin 128, a (ix2 (i 0) k) * wl (ix2 k (i 1)))
    (∑ k : Fin 128, x (ix2 (i 0) k) * wr (ix2 k (i 1))) (b (ix1 (i 1)))]

end Cert.ReferenceIdeal.Hand

end
-- ==== Proof.ReferenceStage1.lean ====
/-
  The reference's first layer, read off its line of host operations.

  The first 44 operations are cut in three: the in-degree of every node and the choice between its
  reciprocal and zero; the mean aggregation of the input features; and the two products, the bias and the
  clamp of the first layer. Each piece is read over arbitrary contents of the buffers it starts from. The
  operations are the ones the kernel's host side runs, with this program's own shape records, whose
  fields are the same; so the first two pieces leave the reciprocal in-degrees and the mean aggregation of
  the network's definition, and the third leaves the first layer function of those: the first hidden
  array. No operation here writes an argument.
-/
import proofs.«152251_j65377992180266_1_alg».proof.Proof.ReferenceRun
import proofs.«152251_j65377992180266_1_alg».proof.Proof.ReferenceLayer
import proofs.«152251_j65377992180266_1_alg».proof.Proof.Stages
import Idealize.ShloMosaic.Lib.Pipeline.Frame

set_option maxRecDepth 65536

noncomputable section

namespace Cert.ReferenceIdeal.Hand

open Cert.ReferenceIdeal Cert.ReferenceIdeal.Facts₀
open Idealize.ShloMosaic Idealize.ShloMosaic.TcCoe Idealize.SL.Sem Idealize.ShloMosaic.StableHlo
open Cert.KernelIdeal.Whole (invDegree inDegree asIndexColumn wrapIdx aggWith8 hidden1)

variable {F : FTy → Type} [FloatOps F] [Facts]

/-- Operations 1 to 19: the in-degrees, and the reciprocal where positive. -/
abbrev ops1a : List (HloOp τ sig (Elt F)) :=
  [ nullary main_cst (constant S_ .f32 0x3F800000#32),
    unary main_cst main_v0 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S600000x1 ![0] bcast_S600000_S600000x1_0 : (⟨S600000, .i32⟩ : BufTy).Contents (Elt F) → (⟨S600000x1, .i32⟩ : BufTy).Contents (Elt F)),
    ternary main_v1 main_v2 main_v0 main_v3 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v6 (broadcastInDim S50000 ![] bcast_S_S50000 : (⟨S_, .f32⟩ : BufTy).Contents (Elt F) → (⟨S50000, .f32⟩ : BufTy).Contents (Elt F)),
    binary main_v3 main_v6 main_v7 (maximumf : (⟨S50000, .f32⟩ : BufTy).Contents (Elt F) → (⟨S50000, .f32⟩ : BufTy).Contents (Elt F) → (⟨S50000, .f32⟩ : BufTy).Contents (Elt F)),
    nullary main_cst_3 (constant S_ .f32 0x3F800000#32),
    unary main_cst_3 main_v8 (broadcastInDim S50000 ![] bcast_S_S50000 : (⟨S_, .f32⟩ : BufTy).Contents (Elt F) → (⟨S50000, .f32⟩ : BufTy).Contents (Elt F)),
    binary main_v8 main_v7 main_v9 (Host.divf : (⟨S50000, .f32⟩ : BufTy).Contents (Elt F) → (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v5) (TRef.of (T := ⟨S50000, .f32⟩) main_v9) (TRef.of (T := ⟨S50000, .f32⟩) main_call0_v1) (TRef.of (T := ⟨S50000, .f32⟩) main_v10) select ]

/-- Operations 20 to 35: the mean aggregation of the input features. -/
abbrev ops1b : List (HloOp τ sig (Elt F)) :=
  [ nullary main_c (constantI S_ 32 0#32),
    unary main_c main_v11 (broadcastInDim S600000 ![] bcast_S_S600000 : (⟨S_, .i32⟩ : BufTy).Contents (Elt F) → (⟨S600000, .i32⟩ : BufTy).Contents (Elt F)),
    binary main_arg1 main_v11 main_v12 (cmpi .slt : (⟨S600000, .i32⟩ : BufTy).Contents (Elt F) → (⟨S600000, .i32⟩ : BufTy).Contents (Elt F) → (⟨S600000, .i1⟩ : BufTy).Contents (Elt F)),
    nullary main_c_5 (constantI S_ 32 50000#32),
    unary main_c_5 main_v13 (broadcastInDim S600000 ![] bcast_S_S600000 : (⟨S_, .i32⟩ : BufTy).Contents (Elt F) → (⟨S600000, .i32⟩ : BufTy).Contents (Elt F)),
    binary main_arg1 main_v13 main_v14 (addi : (⟨S600000, .i32⟩ : BufTy).Contents (Elt F) → (⟨S600000, .i32⟩ : BufTy).Contents (Elt F) → (⟨S600000, .i32⟩ : BufTy).Contents (Elt F)),
    ternary main_v12 main_v14 main_arg1 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v15 main_v16 (broadcastInDim S600000x1 ![0] bcast_S600000_S600000x1_0 : (⟨S600000, .i32⟩ : BufTy).Contents (Elt F) → (⟨S600000x1, .i32⟩ : BufTy).Contents (Elt F)),
    binary main_arg0 main_v16 main_v17 ((fun x i => Host.gather gather_S50000x8_S600000x1_S600000x8_1_0_n_n_0_1_18 x i) : (⟨S50000x8, .f32⟩ : BufTy).Contents (Elt F) → (⟨S600000x1, .i32⟩ : BufTy).Contents (Elt F) → (⟨S600000x8, .f32⟩ : BufTy).Contents (Elt F)),
    nullary main_cst_6 (constant S_ .f32 0x00000000#32),
    unary main_cst_6 main_v18 (broadcastInDim S50000x8 ![] bcast_S_S50000x8 : (⟨S_, .f32⟩ : BufTy).Contents (Elt F) → (⟨S50000x8, .f32⟩ : BufTy).Contents (Elt F)),
    unary main_arg2 main_v19 (broadcastInDim S600000x1 ![0] bcast_S600000_S600000x1_0 : (⟨S600000, .i32⟩ : BufTy).Contents (Elt F) → (⟨S600000x1, .i32⟩ : BufTy).Contents (Elt F)),
    ternary main_v18 main_v19 main_v17 main_v20 ((fun x i u => Host.scatterAdd scatter_S50000x8_S600000x1_S600000x8_1_0_0_1 x i u) : (⟨S50000x8, .f32⟩ : BufTy).Contents (Elt F) → (⟨S600000x1, .i32⟩ : BufTy).Contents (Elt F) → (⟨S600000x8, .f32⟩ : BufTy).Contents (Elt F) → (⟨S50000x8, .f32⟩ : BufTy).Contents (Elt F)),
    unary main_v10 main_v21 (broadcastInDim S50000x1 ![0] bcast_S50000_S50000x1_0 : (⟨S50000, .f32⟩ : BufTy).Contents (Elt F) → (⟨S50000x1, .f32⟩ : BufTy).Contents (Elt F)),
    unary main_v21 main_v22 (broadcastInDim S50000x8 ![0, 1] bcast_S50000x1_S50000x8_0_1 : (⟨S50000x1, .f32⟩ : BufTy).Contents (Elt F) → (⟨S50000x8, .f32⟩ : BufTy).Contents (Elt F)),
    binary main_v20 main_v22 main_v23 (mulf : (⟨S50000x8, .f32⟩ : BufTy).Contents (Elt F) → (⟨S50000x8, .f32⟩ : BufTy).Contents (Elt F) → (⟨S50000x8, .f32⟩ : BufTy).Contents (Elt F)) ]

/-- Operations 36 to 44: the two products, the bias and the clamp. -/
abbrev ops1c : List (HloOp τ sig (Elt F)) :=
  [ binary main_v23 main_arg3 main_v24 ((fun l r => Host.dotGeneral dot_S50000x8_S8x128_S50000x128_1_0_0_1_n_n none l r) : (⟨S50000x8, .f32⟩ : BufTy).Contents (Elt F) → (⟨S8x128, .f32⟩ : BufTy).Contents (Elt F) → (⟨S50000x128, .f32⟩ : BufTy).Contents (Elt F)),
    unary main_arg5 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    binary main_arg0 main_arg4 main_v28 ((fun l r => Host.dotGeneral dot_S50000x8_S8x128_S50000x128_1_0_0_1_n_n none l r) : (⟨S50000x8, .f32⟩ : BufTy).Contents (Elt F) → (⟨S8x128, .f32⟩ : BufTy).Contents (Elt F) → (⟨S50000x128, .f32⟩ : BufTy).Contents (Elt F)),
    binary main_v27 main_v28 main_v29 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v29) (TRef.of (T := ⟨S50000x128, .f32⟩) main_call1_v0) (TRef.of (T := ⟨S50000x128, .f32⟩) main_v30) maximumf ]

/-- The first layer's line is the three pieces in order. -/
theorem ops1_cut : (ops1 (F := F)) = ops1a ++ (ops1b ++ ops1c) := rfl

section Pieces

variable (V : Valuation τ sig (Elt Ideal))

/-! ## The first piece -/

set_option maxHeartbeats 4000000 in
theorem piece_a_inv : after (ops1a (F := Ideal)) V (Proc.devRef .tc main_v10) = invDegree (V (Proc.devRef .tc main_arg2)) := by
  after_results_simp
  simp only [TRef.toBuf, TRef.ofBuf, cast_eq, id_eq]
  unfold invDegree inDegree asIndexColumn
  rfl

set_option maxHeartbeats 2000000 in
theorem piece_a_arg0 : after (ops1a (F := Ideal)) V (Proc.devRef .tc main_arg0) = V (Proc.devRef .tc main_arg0) := by
  after_results_simp
set_option maxHeartbeats 2000000 in
theorem piece_a_arg1 : after (ops1a (F := Ideal)) V (Proc.devRef .tc main_arg1) = V (Proc.devRef .tc main_arg1) := by
  after_results_simp
set_option maxHeartbeats 2000000 in
theorem piece_a_arg2 : after (ops1a (F := Ideal)) V (Proc.devRef .tc main_arg2) = V (Proc.devRef .tc main_arg2) := by
  after_results_simp
set_option maxHeartbeats 2000000 in
theorem piece_a_arg3 : after (ops1a (F := Ideal)) V (Proc.devRef .tc main_arg3) = V (Proc.devRef .tc main_arg3) := by
  after_results_simp
set_option maxHeartbeats 2000000 in
theorem piece_a_arg4 : after (ops1a (F := Ideal)) V (Proc.devRef .tc main_arg4) = V (Proc.devRef .tc main_arg4) := by
  after_results_simp
set_option maxHeartbeats 2000000 in
theorem piece_a_arg5 : after (ops1a (F := Ideal)) V (Proc.devRef .tc main_arg5) = V (Proc.devRef .tc main_arg5) := by
  after_results_simp
set_option maxHeartbeats 2000000 in
theorem piece_a_arg6 : after (ops1a (F := Ideal)) V (Proc.devRef .tc main_arg6) = V (Proc.devRef .tc main_arg6) := by
  after_results_simp
set_option maxHeartbeats 2000000 in
theorem piece_a_arg7 : after (ops1a (F := Ideal)) V (Proc.devRef .tc main_arg7) = V (Proc.devRef .tc main_arg7) := by
  after_results_simp
set_option maxHeartbeats 2000000 in
theorem piece_a_arg8 : after (ops1a (F := Ideal)) V (Proc.devRef .tc main_arg8) = V (Proc.devRef .tc main_arg8) := by
  after_results_simp
set_option maxHeartbeats 2000000 in
theorem piece_a_arg9 : after (ops1a (F := Ideal)) V (Proc.devRef .tc main_arg9) = V (Proc.devRef .tc main_arg9) := by
  after_results_simp
set_option maxHeartbeats 2000000 in
theorem piece_a_arg10 : after (ops1a (F := Ideal)) V (Proc.devRef .tc main_arg10) = V (Proc.devRef .tc main_arg10) := by
  after_results_simp
set_option maxHeartbeats 2000000 in
theorem piece_a_arg11 : after (ops1a (F := Ideal)) V (Proc.devRef .tc main_arg11) = V (Proc.devRef .tc main_arg11) := by
  after_results_simp

/-! ## The second piece -/

set_option maxHeartbeats 4000000 in
theorem piece_b_agg : after (ops1b (F := Ideal)) V (Proc.devRef .tc main_v23)
    = aggWith8 (V (Proc.devRef .tc main_arg0)) (V (Proc.devRef .tc main_arg1)) (V (Proc.devRef .tc main_arg2)) (V (Proc.devRef .tc main_v10)) := by
  after_results_simp
  unfold aggWith8 asIndexColumn wrapIdx
  rfl

set_option maxHeartbeats 2000000 in
theorem piece_b_v10 : after (ops1b (F := Ideal)) V (Proc.devRef .tc main_v10) = V (Proc.devRef .tc main_v10) := by
  after_results_simp
set_option maxHeartbeats 2000000 in
theorem piece_b_arg0 : after (ops1b (F := Ideal)) V (Proc.devRef .tc main_arg0) = V (Proc.devRef .tc main_arg0) := by
  after_results_simp
set_option maxHeartbeats 2000000 in
theorem piece_b_arg1 : after (ops1b (F := Ideal)) V (Proc.devRef .tc main_arg1) = V (Proc.devRef .tc main_arg1) := by
  after_results_simp
set_option maxHeartbeats 2000000 in
theorem piece_b_arg2 : after (ops1b (F := Ideal)) V (Proc.devRef .tc main_arg2) = V (Proc.devRef .tc main_arg2) := by
  after_results_simp
set_option maxHeartbeats 2000000 in
theorem piece_b_arg3 : after (ops1b (F := Ideal)) V (Proc.devRef .tc main_arg3) = V (Proc.devRef .tc main_arg3) := by
  after_results_simp
set_option maxHeartbeats 2000000 in
theorem piece_b_arg4 : after (ops1b (F := Ideal)) V (Proc.devRef .tc main_arg4) = V (Proc.devRef .tc main_arg4) := by
  after_results_simp
set_option maxHeartbeats 2000000 in
theorem piece_b_arg5 : after (ops1b (F := Ideal)) V (Proc.devRef .tc main_arg5) = V (Proc.devRef .tc main_arg5) := by
  after_results_simp
set_option maxHeartbeats 2000000 in
theorem piece_b_arg6 : after (ops1b (F := Ideal)) V (Proc.devRef .tc main_arg6) = V (Proc.devRef .tc main_arg6) := by
  after_results_simp
set_option maxHeartbeats 2000000 in
theorem piece_b_arg7 : after (ops1b (F := Ideal)) V (Proc.devRef .tc main_arg7) = V (Proc.devRef .tc main_arg7) := by
  after_results_simp
set_option maxHeartbeats 2000000 in
theorem piece_b_arg8 : after (ops1b (F := Ideal)) V (Proc.devRef .tc main_arg8) = V (Proc.devRef .tc main_arg8) := by
  after_results_simp
set_option maxHeartbeats 2000000 in
theorem piece_b_arg9 : after (ops1b (F := Ideal)) V (Proc.devRef .tc main_arg9) = V (Proc.devRef .tc main_arg9) := by
  after_results_simp
set_option maxHeartbeats 2000000 in
theorem piece_b_arg10 : after (ops1b (F := Ideal)) V (Proc.devRef .tc main_arg10) = V (Proc.devRef .tc main_arg10) := by
  after_results_simp
set_option maxHeartbeats 2000000 in
theorem piece_b_arg11 : after (ops1b (F := Ideal)) V (Proc.devRef .tc main_arg11) = V (Proc.devRef .tc main_arg11) := by
  after_results_simp

/-! ## The third piece -/

set_option maxHeartbeats 4000000 in
theorem piece_c_layer : after (ops1c (F := Ideal)) V (Proc.devRef .tc main_v30)
    = Cert.Sage.layerClamp (V (Proc.devRef .tc main_v23)) (V (Proc.devRef .tc main_arg0)) (V (Proc.devRef .tc main_arg3)) (V (Proc.devRef .tc main_arg4)) (V (Proc.devRef .tc main_arg5)) := by
  after_results_simp
  simp only [TRef.toBuf, TRef.ofBuf, cast_eq, id_eq]
  exact layer1 _ _ _ _ _

set_option maxHeartbeats 2000000 in
theorem piece_c_v10 : after (ops1c (F := Ideal)) V (Proc.devRef .tc main_v10) = V (Proc.devRef .tc main_v10) := by
  after_results_simp
set_option maxHeartbeats 2000000 in
theorem piece_c_arg0 : after (ops1c (F := Ideal)) V (Proc.devRef .tc main_arg0) = V (Proc.devRef .tc main_arg0) := by
  after_results_simp
set_option maxHeartbeats 2000000 in
theorem piece_c_arg1 : after (ops1c (F := Ideal)) V (Proc.devRef .tc main_arg1) = V (Proc.devRef .tc main_arg1) := by
  after_results_simp
set_option maxHeartbeats 2000000 in
theorem piece_c_arg2 : after (ops1c (F := Ideal)) V (Proc.devRef .tc main_arg2) = V (Proc.devRef .tc main_arg2) := by
  after_results_simp
set_option maxHeartbeats 2000000 in
theorem piece_c_arg3 : after (ops1c (F := Ideal)) V (Proc.devRef .tc main_arg3) = V (Proc.devRef .tc main_arg3) := by
  after_results_simp
set_option maxHeartbeats 2000000 in
theorem piece_c_arg4 : after (ops1c (F := Ideal)) V (Proc.devRef .tc main_arg4) = V (Proc.devRef .tc main_arg4) := by
  after_results_simp
set_option maxHeartbeats 2000000 in
theorem piece_c_arg5 : after (ops1c (F := Ideal)) V (Proc.devRef .tc main_arg5) = V (Proc.devRef .tc main_arg5) := by
  after_results_simp
set_option maxHeartbeats 2000000 in
theorem piece_c_arg6 : after (ops1c (F := Ideal)) V (Proc.devRef .tc main_arg6) = V (Proc.devRef .tc main_arg6) := by
  after_results_simp
set_option maxHeartbeats 2000000 in
theorem piece_c_arg7 : after (ops1c (F := Ideal)) V (Proc.devRef .tc main_arg7) = V (Proc.devRef .tc main_arg7) := by
  after_results_simp
set_option maxHeartbeats 2000000 in
theorem piece_c_arg8 : after (ops1c (F := Ideal)) V (Proc.devRef .tc main_arg8) = V (Proc.devRef .tc main_arg8) := by
  after_results_simp
set_option maxHeartbeats 2000000 in
theorem piece_c_arg9 : after (ops1c (F := Ideal)) V (Proc.devRef .tc main_arg9) = V (Proc.devRef .tc main_arg9) := by
  after_results_simp
set_option maxHeartbeats 2000000 in
theorem piece_c_arg10 : after (ops1c (F := Ideal)) V (Proc.devRef .tc main_arg10) = V (Proc.devRef .tc main_arg10) := by
  after_results_simp
set_option maxHeartbeats 2000000 in
theorem piece_c_arg11 : after (ops1c (F := Ideal)) V (Proc.devRef .tc main_arg11) = V (Proc.devRef .tc main_arg11) := by
  after_results_simp

/-! ## The three pieces in a row -/

/-- The first layer's line does not write argument 0. -/
theorem kept1_arg0 : after (ops1 (F := Ideal)) V (Proc.devRef .tc main_arg0) = V (Proc.devRef .tc main_arg0) := by
  rw [ops1_cut, StableHlo.after_append, StableHlo.after_append]
  exact (piece_c_arg0 _).trans ((piece_b_arg0 _).trans (piece_a_arg0 V))
/-- The first layer's line does not write argument 1. -/
theorem kept1_arg1 : after (ops1 (F := Ideal)) V (Proc.devRef .tc main_arg1) = V (Proc.devRef .tc main_arg1) := by
  rw [ops1_cut, StableHlo.after_append, StableHlo.after_append]
  exact (piece_c_arg1 _).trans ((piece_b_arg1 _).trans (piece_a_arg1 V))
/-- The first layer's line does not write argument 2. -/
theorem kept1_arg2 : after (ops1 (F := Ideal)) V (Proc.devRef .tc main_arg2) = V (Proc.devRef .tc main_arg2) := by
  rw [ops1_cut, StableHlo.after_append, StableHlo.after_append]
  exact (piece_c_arg2 _).trans ((piece_b_arg2 _).trans (piece_a_arg2 V))
/-- The first layer's line does not write argument 3. -/
theorem kept1_arg3 : after (ops1 (F := Ideal)) V (Proc.devRef .tc main_arg3) = V (Proc.devRef .tc main_arg3) := by
  rw [ops1_cut, StableHlo.after_append, StableHlo.after_append]
  exact (piece_c_arg3 _).trans ((piece_b_arg3 _).trans (piece_a_arg3 V))
/-- The first layer's line does not write argument 4. -/
theorem kept1_arg4 : after (ops1 (F := Ideal)) V (Proc.devRef .tc main_arg4) = V (Proc.devRef .tc main_arg4) := by
  rw [ops1_cut, StableHlo.after_append, StableHlo.after_append]
  exact (piece_c_arg4 _).trans ((piece_b_arg4 _).trans (piece_a_arg4 V))
/-- The first layer's line does not write argument 5. -/
theorem kept1_arg5 : after (ops1 (F := Ideal)) V (Proc.devRef .tc main_arg5) = V (Proc.devRef .tc main_arg5) := by
  rw [ops1_cut, StableHlo.after_append, StableHlo.after_append]
  exact (piece_c_arg5 _).trans ((piece_b_arg5 _).trans (piece_a_arg5 V))
/-- The first layer's line does not write argument 6. -/
theorem kept1_arg6 : after (ops1 (F := Ideal)) V (Proc.devRef .tc main_arg6) = V (Proc.devRef .tc main_arg6) := by
  rw [ops1_cut, StableHlo.after_append, StableHlo.after_append]
  exact (piece_c_arg6 _).trans ((piece_b_arg6 _).trans (piece_a_arg6 V))
/-- The first layer's line does not write argument 7. -/
theorem kept1_arg7 : after (ops1 (F := Ideal)) V (Proc.devRef .tc main_arg7) = V (Proc.devRef .tc main_arg7) := by
  rw [ops1_cut, StableHlo.after_append, StableHlo.after_append]
  exact (piece_c_arg7 _).trans ((piece_b_arg7 _).trans (piece_a_arg7 V))
/-- The first layer's line does not write argument 8. -/
theorem kept1_arg8 : after (ops1 (F := Ideal)) V (Proc.devRef .tc main_arg8) = V (Proc.devRef .tc main_arg8) := by
  rw [ops1_cut, StableHlo.after_append, StableHlo.after_append]
  exact (piece_c_arg8 _).trans ((piece_b_arg8 _).trans (piece_a_arg8 V))
/-- The first layer's line does not write argument 9. -/
theorem kept1_arg9 : after (ops1 (F := Ideal)) V (Proc.devRef .tc main_arg9) = V (Proc.devRef .tc main_arg9) := by
  rw [ops1_cut, StableHlo.after_append, StableHlo.after_append]
  exact (piece_c_arg9 _).trans ((piece_b_arg9 _).trans (piece_a_arg9 V))
/-- The first layer's line does not write argument 10. -/
theorem kept1_arg10 : after (ops1 (F := Ideal)) V (Proc.devRef .tc main_arg10) = V (Proc.devRef .tc main_arg10) := by
  rw [ops1_cut, StableHlo.after_append, StableHlo.after_append]
  exact (piece_c_arg10 _).trans ((piece_b_arg10 _).trans (piece_a_arg10 V))
/-- The first layer's line does not write argument 11. -/
theorem kept1_arg11 : after (ops1 (F := Ideal)) V (Proc.devRef .tc main_arg11) = V (Proc.devRef .tc main_arg11) := by
  rw [ops1_cut, StableHlo.after_append, StableHlo.after_append]
  exact (piece_c_arg11 _).trans ((piece_b_arg11 _).trans (piece_a_arg11 V))

/-- After the first layer's line the degree buffer holds the reciprocal in-degrees. -/
theorem stage1_inv : after (ops1 (F := Ideal)) V (Proc.devRef .tc main_v10) = invDegree (V (Proc.devRef .tc main_arg2)) := by
  rw [ops1_cut, StableHlo.after_append, StableHlo.after_append]
  exact (piece_c_v10 _).trans ((piece_b_v10 _).trans (piece_a_inv V))

/-- After the first layer's line its result buffer holds the first hidden array of the arguments. -/
theorem stage1_of : after (ops1 (F := Ideal)) V (Proc.devRef .tc main_v30)
    = hidden1 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops1_cut, StableHlo.after_append, StableHlo.after_append]
  refine (piece_c_layer _).trans ?_
  rw [piece_b_agg, piece_b_arg0, piece_b_arg3, piece_b_arg4, piece_b_arg5,
    piece_a_inv, piece_a_arg0, piece_a_arg1, piece_a_arg2, piece_a_arg3, piece_a_arg4, piece_a_arg5]
  rfl

end Pieces

end Cert.ReferenceIdeal.Hand

end
-- ==== Proof.ReferenceStage2.lean ====
/-
  The second layer of the reference's line, read in two pieces.

  The first piece prepares the aggregation of the previous hidden array: the source indices wrapped, the
  rows gathered at them, added into the rows of the destinations, and every row scaled by the node's
  reciprocal degree. These are the shared operations, met term for term. The second piece is the layer
  expression over whole arrays — the two products, the bias laid along the rows, the previous hidden array
  added, and the maximum against zeros — which is the specification's layer function. Neither piece writes what the other or a
  later layer reads from before it.
-/
import proofs.«152251_j65377992180266_1_alg».proof.Proof.ReferenceRun
import proofs.«152251_j65377992180266_1_alg».proof.Proof.ReferenceLayer
import proofs.«152251_j65377992180266_1_alg».proof.Proof.Stages
import Idealize.ShloMosaic.Lib.Pipeline.Frame

noncomputable section

namespace Cert.ReferenceIdeal.Hand

open Cert.ReferenceIdeal Cert.ReferenceIdeal.Facts₀ Idealize.ShloMosaic Idealize.ShloMosaic.TcCoe Idealize.SL.Sem Idealize.ShloMosaic.StableHlo
open Cert.Sage (layerClamp layerSkipClamp layerSkip)
open Cert.KernelIdeal.Whole (aggWith128 asIndexColumn wrapIdx)

variable {F : FTy → Type} [FloatOps F] [Facts]

/-- The aggregation: operations 45 to 60 of the line, the last writing the scaled aggregate. -/
abbrev ops2a : List (HloOp τ sig (Elt F)) :=
  [ nullary main_c_7 (constantI S_ 32 0#32),
    unary main_c_7 main_v31 (broadcastInDim S600000 ![] bcast_S_S600000 : (⟨S_, .i32⟩ : BufTy).Contents (Elt F) → (⟨S600000, .i32⟩ : BufTy).Contents (Elt F)),
    binary main_arg1 main_v31 main_v32 (cmpi .slt : (⟨S600000, .i32⟩ : BufTy).Contents (Elt F) → (⟨S600000, .i32⟩ : BufTy).Contents (Elt F) → (⟨S600000, .i1⟩ : BufTy).Contents (Elt F)),
    nullary main_c_8 (constantI S_ 32 50000#32),
    unary main_c_8 main_v33 (broadcastInDim S600000 ![] bcast_S_S600000 : (⟨S_, .i32⟩ : BufTy).Contents (Elt F) → (⟨S600000, .i32⟩ : BufTy).Contents (Elt F)),
    binary main_arg1 main_v33 main_v34 (addi : (⟨S600000, .i32⟩ : BufTy).Contents (Elt F) → (⟨S600000, .i32⟩ : BufTy).Contents (Elt F) → (⟨S600000, .i32⟩ : BufTy).Contents (Elt F)),
    ternary main_v32 main_v34 main_arg1 main_v35 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v35 main_v36 (broadcastInDim S600000x1 ![0] bcast_S600000_S600000x1_0 : (⟨S600000, .i32⟩ : BufTy).Contents (Elt F) → (⟨S600000x1, .i32⟩ : BufTy).Contents (Elt F)),
    binary main_v30 main_v36 main_v37 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_9 (constant S_ .f32 0x00000000#32),
    unary main_cst_9 main_v38 (broadcastInDim S50000x128 ![] bcast_S_S50000x128 : (⟨S_, .f32⟩ : BufTy).Contents (Elt F) → (⟨S50000x128, .f32⟩ : BufTy).Contents (Elt F)),
    unary main_arg2 main_v39 (broadcastInDim S600000x1 ![0] bcast_S600000_S600000x1_0 : (⟨S600000, .i32⟩ : BufTy).Contents (Elt F) → (⟨S600000x1, .i32⟩ : BufTy).Contents (Elt F)),
    ternary main_v38 main_v39 main_v37 main_v40 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v10 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x128 ![0, 1] bcast_S50000x1_S50000x128_0_1 : (⟨S50000x1, .f32⟩ : BufTy).Contents (Elt F) → (⟨S50000x128, .f32⟩ : BufTy).Contents (Elt F)),
    binary main_v40 main_v42 main_v43 (mulf : (⟨S50000x128, .f32⟩ : BufTy).Contents (Elt F) → (⟨S50000x128, .f32⟩ : BufTy).Contents (Elt F) → (⟨S50000x128, .f32⟩ : BufTy).Contents (Elt F)) ]

/-- The layer expression: operations 61 to 70 of the line, the last writing the layer's result. -/
abbrev ops2b : List (HloOp τ sig (Elt F)) :=
  [ binary main_v43 main_arg6 main_v44 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    binary main_v30 main_arg7 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v47 main_v48 main_v49 (addf : (⟨S50000x128, .f32⟩ : BufTy).Contents (Elt F) → (⟨S50000x128, .f32⟩ : BufTy).Contents (Elt F) → (⟨S50000x128, .f32⟩ : BufTy).Contents (Elt F)),
    binary main_v49 main_v30 main_v50 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v50) (TRef.of (T := ⟨S50000x128, .f32⟩) main_call2_v0) (TRef.of (T := ⟨S50000x128, .f32⟩) main_v51) maximumf ]

/-- The layer's line is its two pieces in a row. -/
theorem ops2_split : (ops2 (F := F)) = ops2a ++ ops2b := rfl

/-! ## What the pieces leave alone -/

set_option maxRecDepth 8192

/-- The aggregation does not write `main_v30`. -/
theorem kept2a_v30 (V : Valuation τ sig (Elt Ideal)) :
    after (ops2a (F := Ideal)) V (Proc.devRef .tc main_v30) = V (Proc.devRef .tc main_v30) := by
  after_results_simp

/-- The aggregation does not write `main_arg6`. -/
theorem kept2a_arg6 (V : Valuation τ sig (Elt Ideal)) :
    after (ops2a (F := Ideal)) V (Proc.devRef .tc main_arg6) = V (Proc.devRef .tc main_arg6) := by
  after_results_simp

/-- The aggregation does not write `main_arg7`. -/
theorem kept2a_arg7 (V : Valuation τ sig (Elt Ideal)) :
    after (ops2a (F := Ideal)) V (Proc.devRef .tc main_arg7) = V (Proc.devRef .tc main_arg7) := by
  after_results_simp

/-- The aggregation does not write `main_arg8`. -/
theorem kept2a_arg8 (V : Valuation τ sig (Elt Ideal)) :
    after (ops2a (F := Ideal)) V (Proc.devRef .tc main_arg8) = V (Proc.devRef .tc main_arg8) := by
  after_results_simp

/-- The layer's line does not write `main_arg1`. -/
theorem kept2_arg1 (V : Valuation τ sig (Elt Ideal)) :
    after (ops2 (F := Ideal)) V (Proc.devRef .tc main_arg1) = V (Proc.devRef .tc main_arg1) := by
  after_results_simp

/-- The layer's line does not write `main_arg2`. -/
theorem kept2_arg2 (V : Valuation τ sig (Elt Ideal)) :
    after (ops2 (F := Ideal)) V (Proc.devRef .tc main_arg2) = V (Proc.devRef .tc main_arg2) := by
  after_results_simp

/-- The layer's line does not write `main_arg9`. -/
theorem kept2_arg9 (V : Valuation τ sig (Elt Ideal)) :
    after (ops2 (F := Ideal)) V (Proc.devRef .tc main_arg9) = V (Proc.devRef .tc main_arg9) := by
  after_results_simp

/-- The layer's line does not write `main_arg10`. -/
theorem kept2_arg10 (V : Valuation τ sig (Elt Ideal)) :
    after (ops2 (F := Ideal)) V (Proc.devRef .tc main_arg10) = V (Proc.devRef .tc main_arg10) := by
  after_results_simp

/-- The layer's line does not write `main_arg11`. -/
theorem kept2_arg11 (V : Valuation τ sig (Elt Ideal)) :
    after (ops2 (F := Ideal)) V (Proc.devRef .tc main_arg11) = V (Proc.devRef .tc main_arg11) := by
  after_results_simp

/-- The layer's line does not write `main_v10`. -/
theorem kept2_v10 (V : Valuation τ sig (Elt Ideal)) :
    after (ops2 (F := Ideal)) V (Proc.devRef .tc main_v10) = V (Proc.devRef .tc main_v10) := by
  after_results_simp

/-! ## What the pieces write -/

set_option maxRecDepth 65536 in
set_option maxHeartbeats 4000000 in
/-- The aggregation leaves the mean aggregate of the previous hidden array, scaled by the contents of the
    reciprocal-degree buffer. -/
theorem agg2 (V : Valuation τ sig (Elt Ideal)) :
    after (ops2a (F := Ideal)) V (Proc.devRef .tc main_v43)
      = aggWith128 (V (Proc.devRef .tc main_v30)) (V (Proc.devRef .tc main_arg1)) (V (Proc.devRef .tc main_arg2)) (V (Proc.devRef .tc main_v10)) := by
  after_results_simp
  unfold aggWith128 asIndexColumn wrapIdx
  rfl

set_option maxRecDepth 65536 in
set_option maxHeartbeats 4000000 in
/-- The layer expression leaves the specification's layer function of the aggregate and the previous hidden array. -/
theorem lay2 (V : Valuation τ sig (Elt Ideal)) :
    after (ops2b (F := Ideal)) V (Proc.devRef .tc main_v51)
      = layerSkipClamp (V (Proc.devRef .tc main_v43)) (V (Proc.devRef .tc main_v30)) (V (Proc.devRef .tc main_arg6)) (V (Proc.devRef .tc main_arg7)) (V (Proc.devRef .tc main_arg8)) := by
  refine Eq.trans ?_ (layer2 (V (Proc.devRef .tc main_v43)) (V (Proc.devRef .tc main_v30)) (V (Proc.devRef .tc main_arg6)) (V (Proc.devRef .tc main_arg7)) (V (Proc.devRef .tc main_arg8)))
  after_results_simp
  simp only [TRef.toBuf, TRef.ofBuf, cast_eq, id_eq] <;> rfl

/-- The whole layer: from any contents, its line leaves the layer function of the aggregate of the previous hidden
    array and of that array. -/
theorem stage2 (V : Valuation τ sig (Elt Ideal)) :
    after (ops2 (F := Ideal)) V (Proc.devRef .tc main_v51)
      = layerSkipClamp
          (aggWith128 (V (Proc.devRef .tc main_v30)) (V (Proc.devRef .tc main_arg1)) (V (Proc.devRef .tc main_arg2)) (V (Proc.devRef .tc main_v10)))
          (V (Proc.devRef .tc main_v30)) (V (Proc.devRef .tc main_arg6)) (V (Proc.devRef .tc main_arg7)) (V (Proc.devRef .tc main_arg8)) := by
  rw [ops2_split, after_append]
  generalize hW : after (ops2a (F := Ideal)) V = W
  have e_agg : W (Proc.devRef .tc main_v43)
      = aggWith128 (V (Proc.devRef .tc main_v30)) (V (Proc.devRef .tc main_arg1)) (V (Proc.devRef .tc main_arg2)) (V (Proc.devRef .tc main_v10)) := by
    rw [← hW]; exact agg2 V
  have e_v30 : W (Proc.devRef .tc main_v30) = V (Proc.devRef .tc main_v30) := by rw [← hW]; exact kept2a_v30 V
  have e_arg6 : W (Proc.devRef .tc main_arg6) = V (Proc.devRef .tc main_arg6) := by rw [← hW]; exact kept2a_arg6 V
  have e_arg7 : W (Proc.devRef .tc main_arg7) = V (Proc.devRef .tc main_arg7) := by rw [← hW]; exact kept2a_arg7 V
  have e_arg8 : W (Proc.devRef .tc main_arg8) = V (Proc.devRef .tc main_arg8) := by rw [← hW]; exact kept2a_arg8 V
  rw [lay2 W, e_agg, e_v30, e_arg6, e_arg7, e_arg8]

end Cert.ReferenceIdeal.Hand

end
-- ==== Proof.ReferenceStage3.lean ====
/-
  The third layer of the reference's line, read in two pieces.

  The first piece prepares the aggregation of the previous hidden array: the source indices wrapped, the
  rows gathered at them, added into the rows of the destinations, and every row scaled by the node's
  reciprocal degree. These are the shared operations, met term for term. The second piece is the layer
  expression over whole arrays — the two products, the bias laid along the rows, the previous hidden array
  added — which is the specification's layer function. Neither piece writes what the other or a
  later layer reads from before it.
-/
import proofs.«152251_j65377992180266_1_alg».proof.Proof.ReferenceRun
import proofs.«152251_j65377992180266_1_alg».proof.Proof.ReferenceLayer
import proofs.«152251_j65377992180266_1_alg».proof.Proof.Stages
import Idealize.ShloMosaic.Lib.Pipeline.Frame

noncomputable section

namespace Cert.ReferenceIdeal.Hand

open Cert.ReferenceIdeal Cert.ReferenceIdeal.Facts₀ Idealize.ShloMosaic Idealize.ShloMosaic.TcCoe Idealize.SL.Sem Idealize.ShloMosaic.StableHlo
open Cert.Sage (layerClamp layerSkipClamp layerSkip)
open Cert.KernelIdeal.Whole (aggWith128 asIndexColumn wrapIdx)

variable {F : FTy → Type} [FloatOps F] [Facts]

/-- The aggregation: operations 71 to 86 of the line, the last writing the scaled aggregate. -/
abbrev ops3a : List (HloOp τ sig (Elt F)) :=
  [ nullary main_c_10 (constantI S_ 32 0#32),
    unary main_c_10 main_v52 (broadcastInDim S600000 ![] bcast_S_S600000 : (⟨S_, .i32⟩ : BufTy).Contents (Elt F) → (⟨S600000, .i32⟩ : BufTy).Contents (Elt F)),
    binary main_arg1 main_v52 main_v53 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v54 (broadcastInDim S600000 ![] bcast_S_S600000 : (⟨S_, .i32⟩ : BufTy).Contents (Elt F) → (⟨S600000, .i32⟩ : BufTy).Contents (Elt F)),
    binary main_arg1 main_v54 main_v55 (addi : (⟨S600000, .i32⟩ : BufTy).Contents (Elt F) → (⟨S600000, .i32⟩ : BufTy).Contents (Elt F) → (⟨S600000, .i32⟩ : BufTy).Contents (Elt F)),
    ternary main_v53 main_v55 main_arg1 main_v56 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v56 main_v57 (broadcastInDim S600000x1 ![0] bcast_S600000_S600000x1_0 : (⟨S600000, .i32⟩ : BufTy).Contents (Elt F) → (⟨S600000x1, .i32⟩ : BufTy).Contents (Elt F)),
    binary main_v51 main_v57 main_v58 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_12 (constant S_ .f32 0x00000000#32),
    unary main_cst_12 main_v59 (broadcastInDim S50000x128 ![] bcast_S_S50000x128 : (⟨S_, .f32⟩ : BufTy).Contents (Elt F) → (⟨S50000x128, .f32⟩ : BufTy).Contents (Elt F)),
    unary main_arg2 main_v60 (broadcastInDim S600000x1 ![0] bcast_S600000_S600000x1_0 : (⟨S600000, .i32⟩ : BufTy).Contents (Elt F) → (⟨S600000x1, .i32⟩ : BufTy).Contents (Elt F)),
    ternary main_v59 main_v60 main_v58 main_v61 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v10 main_v62 (broadcastInDim S50000x1 ![0] bcast_S50000_S50000x1_0 : (⟨S50000, .f32⟩ : BufTy).Contents (Elt F) → (⟨S50000x1, .f32⟩ : BufTy).Contents (Elt F)),
    unary main_v62 main_v63 (broadcastInDim S50000x128 ![0, 1] bcast_S50000x1_S50000x128_0_1 : (⟨S50000x1, .f32⟩ : BufTy).Contents (Elt F) → (⟨S50000x128, .f32⟩ : BufTy).Contents (Elt F)),
    binary main_v61 main_v63 main_v64 (mulf : (⟨S50000x128, .f32⟩ : BufTy).Contents (Elt F) → (⟨S50000x128, .f32⟩ : BufTy).Contents (Elt F) → (⟨S50000x128, .f32⟩ : BufTy).Contents (Elt F)) ]

/-- The layer expression: operations 87 to 93 of the line, the last writing the layer's result. -/
abbrev ops3b : List (HloOp τ sig (Elt F)) :=
  [ binary main_v64 main_arg9 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v65 main_v67 main_v68 (addf : (⟨S50000x128, .f32⟩ : BufTy).Contents (Elt F) → (⟨S50000x128, .f32⟩ : BufTy).Contents (Elt F) → (⟨S50000x128, .f32⟩ : BufTy).Contents (Elt F)),
    binary main_v51 main_arg10 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v68 main_v69 main_v70 (addf : (⟨S50000x128, .f32⟩ : BufTy).Contents (Elt F) → (⟨S50000x128, .f32⟩ : BufTy).Contents (Elt F) → (⟨S50000x128, .f32⟩ : BufTy).Contents (Elt F)),
    binary main_v70 main_v51 main_v71 (addf : (⟨S50000x128, .f32⟩ : BufTy).Contents (Elt F) → (⟨S50000x128, .f32⟩ : BufTy).Contents (Elt F) → (⟨S50000x128, .f32⟩ : BufTy).Contents (Elt F)) ]

/-- The layer's line is its two pieces in a row. -/
theorem ops3_split : (ops3 (F := F)) = ops3a ++ ops3b := rfl

/-! ## What the pieces leave alone -/

set_option maxRecDepth 8192

/-- The aggregation does not write `main_v51`. -/
theorem kept3a_v51 (V : Valuation τ sig (Elt Ideal)) :
    after (ops3a (F := Ideal)) V (Proc.devRef .tc main_v51) = V (Proc.devRef .tc main_v51) := by
  after_results_simp

/-- The aggregation does not write `main_arg9`. -/
theorem kept3a_arg9 (V : Valuation τ sig (Elt Ideal)) :
    after (ops3a (F := Ideal)) V (Proc.devRef .tc main_arg9) = V (Proc.devRef .tc main_arg9) := by
  after_results_simp

/-- The aggregation does not write `main_arg10`. -/
theorem kept3a_arg10 (V : Valuation τ sig (Elt Ideal)) :
    after (ops3a (F := Ideal)) V (Proc.devRef .tc main_arg10) = V (Proc.devRef .tc main_arg10) := by
  after_results_simp

/-- The aggregation does not write `main_arg11`. -/
theorem kept3a_arg11 (V : Valuation τ sig (Elt Ideal)) :
    after (ops3a (F := Ideal)) V (Proc.devRef .tc main_arg11) = V (Proc.devRef .tc main_arg11) := by
  after_results_simp

/-! ## What the pieces write -/

set_option maxRecDepth 65536 in
set_option maxHeartbeats 4000000 in
/-- The aggregation leaves the mean aggregate of the previous hidden array, scaled by the contents of the
    reciprocal-degree buffer. -/
theorem agg3 (V : Valuation τ sig (Elt Ideal)) :
    after (ops3a (F := Ideal)) V (Proc.devRef .tc main_v64)
      = aggWith128 (V (Proc.devRef .tc main_v51)) (V (Proc.devRef .tc main_arg1)) (V (Proc.devRef .tc main_arg2)) (V (Proc.devRef .tc main_v10)) := by
  after_results_simp
  unfold aggWith128 asIndexColumn wrapIdx
  rfl

set_option maxRecDepth 65536 in
set_option maxHeartbeats 4000000 in
/-- The layer expression leaves the specification's layer function of the aggregate and the previous hidden array. -/
theorem lay3 (V : Valuation τ sig (Elt Ideal)) :
    after (ops3b (F := Ideal)) V (Proc.devRef .tc main_v71)
      = layerSkip (V (Proc.devRef .tc main_v64)) (V (Proc.devRef .tc main_v51)) (V (Proc.devRef .tc main_arg9)) (V (Proc.devRef .tc main_arg10)) (V (Proc.devRef .tc main_arg11)) := by
  refine Eq.trans ?_ (layer3 (V (Proc.devRef .tc main_v64)) (V (Proc.devRef .tc main_v51)) (V (Proc.devRef .tc main_arg9)) (V (Proc.devRef .tc main_arg10)) (V (Proc.devRef .tc main_arg11)))
  after_results_simp <;> rfl

/-- The whole layer: from any contents, its line leaves the layer function of the aggregate of the previous hidden
    array and of that array. -/
theorem stage3 (V : Valuation τ sig (Elt Ideal)) :
    after (ops3 (F := Ideal)) V (Proc.devRef .tc main_v71)
      = layerSkip
          (aggWith128 (V (Proc.devRef .tc main_v51)) (V (Proc.devRef .tc main_arg1)) (V (Proc.devRef .tc main_arg2)) (V (Proc.devRef .tc main_v10)))
          (V (Proc.devRef .tc main_v51)) (V (Proc.devRef .tc main_arg9)) (V (Proc.devRef .tc main_arg10)) (V (Proc.devRef .tc main_arg11)) := by
  rw [ops3_split, after_append]
  generalize hW : after (ops3a (F := Ideal)) V = W
  have e_agg : W (Proc.devRef .tc main_v64)
      = aggWith128 (V (Proc.devRef .tc main_v51)) (V (Proc.devRef .tc main_arg1)) (V (Proc.devRef .tc main_arg2)) (V (Proc.devRef .tc main_v10)) := by
    rw [← hW]; exact agg3 V
  have e_v51 : W (Proc.devRef .tc main_v51) = V (Proc.devRef .tc main_v51) := by rw [← hW]; exact kept3a_v51 V
  have e_arg9 : W (Proc.devRef .tc main_arg9) = V (Proc.devRef .tc main_arg9) := by rw [← hW]; exact kept3a_arg9 V
  have e_arg10 : W (Proc.devRef .tc main_arg10) = V (Proc.devRef .tc main_arg10) := by rw [← hW]; exact kept3a_arg10 V
  have e_arg11 : W (Proc.devRef .tc main_arg11) = V (Proc.devRef .tc main_arg11) := by rw [← hW]; exact kept3a_arg11 V
  rw [lay3 W, e_agg, e_v51, e_arg9, e_arg10, e_arg11]

end Cert.ReferenceIdeal.Hand

end
-- ==== Proof.ReferenceValue.lean ====
/-
  The reference's result as a function of its arguments.

  The line of host operations is its three layers in a row. After the first layer's line the buffer of the
  first hidden array holds the first layer function of the aggregated input features and the input
  features, the buffer of the reciprocal degrees holds them, and the arguments are as before. The second
  layer's line reads those two buffers and the arguments, writes neither the reciprocal degrees nor an
  argument, and leaves the second hidden array; the third's leaves the result. Composed, the result buffer
  holds the network of the twelve arguments.
-/
import proofs.«152251_j65377992180266_1_alg».proof.Proof.ReferenceStage1
import proofs.«152251_j65377992180266_1_alg».proof.Proof.ReferenceStage2
import proofs.«152251_j65377992180266_1_alg».proof.Proof.ReferenceStage3

noncomputable section

namespace Cert.ReferenceIdeal.Hand

open Cert.ReferenceIdeal Cert.ReferenceIdeal.Facts₀ Idealize.ShloMosaic Idealize.ShloMosaic.TcCoe Idealize.SL.Sem Idealize.ShloMosaic.StableHlo
open Cert.Sage (layerClamp layerSkipClamp layerSkip)
open Cert.KernelIdeal.Whole (net hidden1 hidden2 output invDegree aggWith128)

variable [Facts]

/-- From any contents, the result buffer after the whole line holds the network of the twelve arguments. -/
theorem result_of (V : Valuation τ sig (Elt Ideal)) :
    after (ops (F := Ideal)) V (Proc.devRef .tc main_v71)
      = net (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11)) := by
  rw [ops_split, after_append, after_append]
  generalize hV1 : after (ops1 (F := Ideal)) V = V1
  generalize hV2 : after (ops2 (F := Ideal)) V1 = V2
  -- what the first layer's line leaves
  have a30 : V1 (Proc.devRef .tc main_v30) = hidden1 (V (Proc.devRef .tc main_arg0)) (V (Proc.devRef .tc main_arg1)) (V (Proc.devRef .tc main_arg2))
      (V (Proc.devRef .tc main_arg3)) (V (Proc.devRef .tc main_arg4)) (V (Proc.devRef .tc main_arg5)) := by rw [← hV1]; exact stage1_of V
  have a10 : V1 (Proc.devRef .tc main_v10) = invDegree (V (Proc.devRef .tc main_arg2)) := by rw [← hV1]; exact stage1_inv V
  have b_arg1 : V1 (Proc.devRef .tc main_arg1) = V (Proc.devRef .tc main_arg1) := by rw [← hV1]; exact kept1_arg1 V
  have b_arg2 : V1 (Proc.devRef .tc main_arg2) = V (Proc.devRef .tc main_arg2) := by rw [← hV1]; exact kept1_arg2 V
  have b_arg6 : V1 (Proc.devRef .tc main_arg6) = V (Proc.devRef .tc main_arg6) := by rw [← hV1]; exact kept1_arg6 V
  have b_arg7 : V1 (Proc.devRef .tc main_arg7) = V (Proc.devRef .tc main_arg7) := by rw [← hV1]; exact kept1_arg7 V
  have b_arg8 : V1 (Proc.devRef .tc main_arg8) = V (Proc.devRef .tc main_arg8) := by rw [← hV1]; exact kept1_arg8 V
  have b_arg9 : V1 (Proc.devRef .tc main_arg9) = V (Proc.devRef .tc main_arg9) := by rw [← hV1]; exact kept1_arg9 V
  have b_arg10 : V1 (Proc.devRef .tc main_arg10) = V (Proc.devRef .tc main_arg10) := by rw [← hV1]; exact kept1_arg10 V
  have b_arg11 : V1 (Proc.devRef .tc main_arg11) = V (Proc.devRef .tc main_arg11) := by rw [← hV1]; exact kept1_arg11 V
  -- what the second layer's line leaves
  have a51 : V2 (Proc.devRef .tc main_v51) = layerSkipClamp
      (aggWith128 (V1 (Proc.devRef .tc main_v30)) (V1 (Proc.devRef .tc main_arg1)) (V1 (Proc.devRef .tc main_arg2)) (V1 (Proc.devRef .tc main_v10)))
      (V1 (Proc.devRef .tc main_v30)) (V1 (Proc.devRef .tc main_arg6)) (V1 (Proc.devRef .tc main_arg7)) (V1 (Proc.devRef .tc main_arg8)) := by
    rw [← hV2]; exact stage2 V1
  have c_arg1 : V2 (Proc.devRef .tc main_arg1) = V1 (Proc.devRef .tc main_arg1) := by rw [← hV2]; exact kept2_arg1 V1
  have c_arg2 : V2 (Proc.devRef .tc main_arg2) = V1 (Proc.devRef .tc main_arg2) := by rw [← hV2]; exact kept2_arg2 V1
  have c_arg9 : V2 (Proc.devRef .tc main_arg9) = V1 (Proc.devRef .tc main_arg9) := by rw [← hV2]; exact kept2_arg9 V1
  have c_arg10 : V2 (Proc.devRef .tc main_arg10) = V1 (Proc.devRef .tc main_arg10) := by rw [← hV2]; exact kept2_arg10 V1
  have c_arg11 : V2 (Proc.devRef .tc main_arg11) = V1 (Proc.devRef .tc main_arg11) := by rw [← hV2]; exact kept2_arg11 V1
  have c_v10 : V2 (Proc.devRef .tc main_v10) = V1 (Proc.devRef .tc main_v10) := by rw [← hV2]; exact kept2_v10 V1
  -- the third layer's line, then everything in terms of the arguments
  rw [stage3 V2, a51, c_arg1, c_arg2, c_arg9, c_arg10, c_arg11, c_v10, a30, a10, b_arg1, b_arg2, b_arg6, b_arg7, b_arg8, b_arg9, b_arg10, b_arg11]
  rfl

/-- On every device the result buffer after the whole line, from the contents at launch, holds the network of the
    twelve arguments at launch. -/
theorem result (m : (ℓ : Loc nD τ sig) → Buf (Elt Ideal) ℓ) (c : Dev nD) :
    after (ops (F := Ideal)) (launchContents m c) (Proc.devRef .tc main_v71)
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) :=
  result_of (launchContents m c)

end Cert.ReferenceIdeal.Hand

end
-- ==== Proof.lean ====
/-
  A three-layer graph network on 50000 nodes and 600000 edges: a Pallas kernel for the combining step of
  each layer, with the neighbour aggregation left to host operations, against a plain jax reference.

  Both programs compute, per layer, the mean aggregation of the node features over incoming edges, two
  matrix products, a bias and (from the second layer on) the node's own features, with a clamp at zero
  after the first two layers. The kernel adds the two products first and the bias after; the reference
  adds the bias between the products. On the extended reals — where a float is an exact real or an
  infinity, every operation is the textbook one and a change of float format is the identity — the two are
  the same function of the arguments by commutativity and associativity of addition alone, so the
  precondition that the inputs are finite is never opened. The aggregation is the same host operations in
  both programs and is compared as it stands.

  The kernel's run is read through its three launches: each launch leaves in its result array one layer
  function of the arrays it finds on entry (Region*Body, Region*Array), and the arrays it finds are the host
  operations' results over what the previous launch left (Entry0, Hidden1, Hidden2, Output). The
  reference's run is the fold of its host operations (ReferenceRun), read layer by layer to the same
  function (ReferenceLayer, ReferenceValue).
-/
import proofs.«152251_j65377992180266_1_alg».proof.Defs
import proofs.«152251_j65377992180266_1_alg».proof.Proof.Gen.Kernel
import proofs.«152251_j65377992180266_1_alg».proof.Proof.Gen.Kernel.Skeleton
import proofs.«152251_j65377992180266_1_alg».proof.Proof.Gen.Kernel.Launch
import proofs.«152251_j65377992180266_1_alg».proof.Proof.Gen.Kernel.Points
import proofs.«152251_j65377992180266_1_alg».proof.Proof.Gen.Kernel.Frame
import proofs.«152251_j65377992180266_1_alg».proof.Proof.Gen.KernelIdeal
import proofs.«152251_j65377992180266_1_alg».proof.Proof.Gen.KernelIdeal.Skeleton
import proofs.«152251_j65377992180266_1_alg».proof.Proof.Gen.KernelIdeal.Launch
import proofs.«152251_j65377992180266_1_alg».proof.Proof.Gen.KernelIdeal.Points
import proofs.«152251_j65377992180266_1_alg».proof.Proof.Gen.KernelIdeal.Frame
import proofs.«152251_j65377992180266_1_alg».proof.Proof.Gen.ReferenceIdeal
import proofs.«152251_j65377992180266_1_alg».proof.Proof.Gen.Pre_finite_inputs
import proofs.«152251_j65377992180266_1_alg».proof.Proof.KernelRun
import proofs.«152251_j65377992180266_1_alg».proof.Proof.Output
import proofs.«152251_j65377992180266_1_alg».proof.Proof.ReferenceRun
import proofs.«152251_j65377992180266_1_alg».proof.Proof.ReferenceValue
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ => Cert.ReferenceIdeal.Hand.frame_ref m ρ

/-- From memories that agree on the twelve arguments both idealized programs end with the network's output
    of those arguments in their result arrays, and their arguments unchanged. -/
theorem algebraic : Cert.algebraic_KernelIdeal_ReferenceIdeal := by
  intro m ρ m' ρ' _ hagree
  refine ⟨fun c => Cert.KernelIdeal.Whole.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Whole.output_eq m ρ c), (h c).2⟩)
      (Cert.KernelIdeal.Whole.run (F := Ideal) m ρ)
  · refine (θ_run Cert.ReferenceIdeal.defs _ _).mono (fun _ h c => ?_) (Cert.ReferenceIdeal.Hand.run (F := Ideal) m' ρ')
    have hres : (_ : MemSt _ _ _ _).mem ((c.tc : Thread Cert.ReferenceIdeal.nD Cert.ReferenceIdeal.τ).loc Cert.ReferenceIdeal.main_v71) = _ :=
      (h c Cert.ReferenceIdeal.main_v71).trans (Cert.ReferenceIdeal.Hand.result m' c)
    obtain ⟨e0, e1, e2, e3, e4, e5, e6, e7, e8, e9, e10, e11⟩ := hagree c
    rw [e0, e1, e2, e3, e4, e5, e6, e7, e8, e9, e10, e11] at hres
    exact ⟨hres,
       (h c Cert.ReferenceIdeal.main_arg0).trans (Cert.ReferenceIdeal.Hand.arg0_kept (StableHlo.launchContents m' c)),
       (h c Cert.ReferenceIdeal.main_arg1).trans (Cert.ReferenceIdeal.Hand.arg1_kept (StableHlo.launchContents m' c)),
       (h c Cert.ReferenceIdeal.main_arg2).trans (Cert.ReferenceIdeal.Hand.arg2_kept (StableHlo.launchContents m' c)),
       (h c Cert.ReferenceIdeal.main_arg3).trans (Cert.ReferenceIdeal.Hand.arg3_kept (StableHlo.launchContents m' c)),
       (h c Cert.ReferenceIdeal.main_arg4).trans (Cert.ReferenceIdeal.Hand.arg4_kept (StableHlo.launchContents m' c)),
       (h c Cert.ReferenceIdeal.main_arg5).trans (Cert.ReferenceIdeal.Hand.arg5_kept (StableHlo.launchContents m' c)),
       (h c Cert.ReferenceIdeal.main_arg6).trans (Cert.ReferenceIdeal.Hand.arg6_kept (StableHlo.launchContents m' c)),
       (h c Cert.ReferenceIdeal.main_arg7).trans (Cert.ReferenceIdeal.Hand.arg7_kept (StableHlo.launchContents m' c)),
       (h c Cert.ReferenceIdeal.main_arg8).trans (Cert.ReferenceIdeal.Hand.arg8_kept (StableHlo.launchContents m' c)),
       (h c Cert.ReferenceIdeal.main_arg9).trans (Cert.ReferenceIdeal.Hand.arg9_kept (StableHlo.launchContents m' c)),
       (h c Cert.ReferenceIdeal.main_arg10).trans (Cert.ReferenceIdeal.Hand.arg10_kept (StableHlo.launchContents m' c)),
       (h c Cert.ReferenceIdeal.main_arg11).trans (Cert.ReferenceIdeal.Hand.arg11_kept (StableHlo.launchContents m' c))⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
